-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2000 : Shape := ⟨2, ![50000, 2000]⟩
abbrev S2x800000 : Shape := ⟨2, ![2, 800000]⟩
abbrev S2000x64 : Shape := ⟨2, ![2000, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x2000 : Shape := ⟨2, ![64, 2000]⟩
abbrev S2000 : Shape := ⟨1, ![2000]⟩
abbrev S_ : Shape := ⟨0, ![]⟩

class Facts : Prop where
  bcast_S_S50000x2000 : S_.BroadcastsInDim S50000x2000 (![] : Fin 0 → Fin S50000x2000.rank)
  reducesTo_S50000x2000_S_d0_1 : S50000x2000.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x2000 : S_.BroadcastsInDim S64x2000 (![] : Fin 0 → Fin S64x2000.rank)
  reducesTo_S64x2000_S_d0_1 : S64x2000.ReducesTo [0, 1] S_
  bcast_S_S2000 : S_.BroadcastsInDim S2000 (![] : Fin 0 → Fin S2000.rank)
  reducesTo_S2000_S_d0 : S2000.ReducesTo [0] S_

variable [Facts]

def fn_part5 {F : FTy → Type} [FloatOps F] (main_arg19 : FVec F S2000 .f32) (main_v83 : IVec S_ 1) (main_v84 : FVec F S64x2000 .f32) (main_cst_32 : FVec F S_ .f32) : IVec S_ 1 :=
  let main_v85 : FVec F S64x2000 .f32 := broadcastInDim S64x2000 ![] bcast_S_S64x2000 main_cst_32
  let main_v86 : IVec S64x2000 1 := cmpf .olt main_v84 main_v85
  let main_c_33 : IVec S_ 1 := constantI S_ 1 1#1
  let main_v87 : IVec S_ 1 := (fun x v => Host.reduce IntOp.andi x v reducesTo_S64x2000_S_d0_1 h_S_) main_v86 main_c_33
  let main_v88 : IVec S_ 1 := andi main_v83 main_v87
  let main_v89 : FVec F S2000 .f32 := Host.absf main_arg19
  let main_cst_34 : FVec F S_ .f32 := constant S_ .f32 0x7F800000#32
  let main_v90 : FVec F S2000 .f32 := broadcastInDim S2000 ![] bcast_S_S2000 main_cst_34
  let main_v91 : IVec S2000 1 := cmpf .olt main_v89 main_v90
  let main_c_35 : IVec S_ 1 := constantI S_ 1 1#1
  let main_v92 : IVec S_ 1 := (fun x v => Host.reduce IntOp.andi x v reducesTo_S2000_S_d0 h_S_) main_v91 main_c_35
  let main_v93 : IVec S_ 1 := andi main_v88 main_v92
  main_v93

def fn_part4 {F : FTy → Type} [FloatOps F] (main_arg15 : FVec F S2000 .f32) (main_arg16 : FVec F S64x64 .f32) (main_arg17 : FVec F S64 .f32) (main_arg18 : FVec F S64x2000 .f32) (main_arg19 : FVec F S2000 .f32) (main_v63 : IVec S_ 1) (main_v67 : IVec S_ 1) : IVec S_ 1 :=
  let main_v68 : IVec S_ 1 := andi main_v63 main_v67
  let main_v69 : FVec F S2000 .f32 := Host.absf main_arg15
  let main_cst_26 : FVec F S_ .f32 := constant S_ .f32 0x7F800000#32
  let main_v70 : FVec F S2000 .f32 := broadcastInDim S2000 ![] bcast_S_S2000 main_cst_26
  let main_v71 : IVec S2000 1 := cmpf .olt main_v69 main_v70
  let main_c_27 : IVec S_ 1 := constantI S_ 1 1#1
  let main_v72 : IVec S_ 1 := (fun x v => Host.reduce IntOp.andi x v reducesTo_S2000_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x2000 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64x64 .f32) (main_arg13 : FVec F S64 .f32) (main_arg14 : FVec F S64x2000 .f32) (main_arg15 : FVec F S2000 .f32) (main_arg16 : FVec F S64x64 .f32) (main_arg17 : FVec F S64 .f32) (main_arg18 : FVec F S64x2000 .f32) (main_arg19 : FVec F S2000 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2000 .f32 := Host.absf main_arg14
  let main_cst_24 : FVec F S_ .f32 := constant S_ .f32 0x7F800000#32
  let main_v65 : FVec F S64x2000 .f32 := broadcastInDim S64x2000 ![] bcast_S_S64x2000 main_cst_24
  let main_v66 : IVec S64x2000 1 := cmpf .olt main_v64 main_v65
  let main_c_25 : IVec S_ 1 := constantI S_ 1 1#1
  let main_v67 : IVec S_ 1 := (fun x v => Host.reduce IntOp.andi x v reducesTo_S64x2000_S_d0_1 h_S_) main_v66 main_c_25
  fn_part4 (F := F) main_arg15 main_arg16 main_arg17 main_arg18 main_arg19 main_v63 main_v67

def fn_part2 {F : FTy → Type} [FloatOps F] (main_arg8 : FVec F S64x64 .f32) (main_arg9 : FVec F S64 .f32) (main_arg10 : FVec F S64x2 .f32) (main_arg11 : FVec F S2 .f32) (main_arg12 : FVec F S64x64 .f32) (main_arg13 : FVec F S64 .f32) (main_arg14 : FVec F S64x2000 .f32) (main_arg15 : FVec F S2000 .f32) (main_arg16 : FVec F S64x64 .f32) (main_arg17 : FVec F S64 .f32) (main_arg18 : FVec F S64x2000 .f32) (main_arg19 : FVec F S2000 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x2 .f32) (main_arg11 : FVec F S2 .f32) (main_arg12 : FVec F S64x64 .f32) (main_arg13 : FVec F S64 .f32) (main_arg14 : FVec F S64x2000 .f32) (main_arg15 : FVec F S2000 .f32) (main_arg16 : FVec F S64x64 .f32) (main_arg17 : FVec F S64 .f32) (main_arg18 : FVec F S64x2000 .f32) (main_arg19 : FVec F S2000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x2000 .f32) (main_arg1 : IVec S2x800000 32) (main_arg2 : FVec F S2000x64 .f32) (main_arg3 : FVec F S64 .f32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S64x2 .f32) (main_arg11 : FVec F S2 .f32) (main_arg12 : FVec F S64x64 .f32) (main_arg13 : FVec F S64 .f32) (main_arg14 : FVec F S64x2000 .f32) (main_arg15 : FVec F S2000 .f32) (main_arg16 : FVec F S64x64 .f32) (main_arg17 : FVec F S64 .f32) (main_arg18 : FVec F S64x2000 .f32) (main_arg19 : FVec F S2000 .f32) : IVec S_ 1 :=
  let main_v0 : FVec F S50000x2000 .f32 := Host.absf main_arg0
  let main_cst : FVec F S_ .f32 := constant S_ .f32 0x7F800000#32
  let main_v1 : FVec F S50000x2000 .f32 := broadcastInDim S50000x2000 ![] bcast_S_S50000x2000 main_cst
  let main_v2 : IVec S50000x2000 1 := cmpf .olt main_v0 main_v1
  let main_c : IVec S_ 1 := constantI S_ 1 1#1
  let main_v3 : IVec S_ 1 := (fun x v => Host.reduce IntOp.andi x v reducesTo_S50000x2000_S_d0_1 h_S_) main_v2 main_c
  let main_v4 : FVec F S2000x64 .f32 := Host.absf main_arg2
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x2000 : Shape := ⟨2, ![50000, 2000]⟩
abbrev S2x800000 : Shape := ⟨2, ![2, 800000]⟩
abbrev S2000x64 : Shape := ⟨2, ![2000, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x2000 : Shape := ⟨2, ![64, 2000]⟩
abbrev S2000 : Shape := ⟨1, ![2000]⟩
abbrev S1x64 : Shape := ⟨2, ![1, 64]⟩
abbrev S50000x64 : Shape := ⟨2, ![50000, 64]⟩
abbrev S1000x2000 : Shape := ⟨2, ![1000, 2000]⟩
abbrev S1000x64 : Shape := ⟨2, ![1000, 64]⟩
abbrev S_ : Shape := ⟨0, ![]⟩
abbrev S1x2 : Shape := ⟨2, ![1, 2]⟩
abbrev S1x2000 : Shape := ⟨2, ![1, 2000]⟩
abbrev S50000x2 : Shape := ⟨2, ![50000, 2]⟩
abbrev S1000x2 : Shape := ⟨2, ![1000, 2]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S50000x1 : Shape := ⟨2, ![50000, 1]⟩

abbrev nBuf : Space → Nat
  | .hbm => 73
  | .vmem => 38
  | .smem => 0
  | _ => 0

abbrev bufTy : (tb : Table) → Fin (tcTables nBuf tb) → BufTy
  | .hbm, ⟨0, _⟩ => ⟨S50000x2000, .f32⟩
  | .hbm, ⟨1, _⟩ => ⟨S2x800000, .i32⟩
  | .hbm, ⟨2, _⟩ => ⟨S2000x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S64x64, .f32⟩
  | .hbm, ⟨13, _⟩ => ⟨S64, .f32⟩
  | .hbm, ⟨14, _⟩ => ⟨S64x2000, .f32⟩
  | .hbm, ⟨15, _⟩ => ⟨S2000, .f32⟩
  | .hbm, ⟨16, _⟩ => ⟨S64x64, .f32⟩
  | .hbm, ⟨17, _⟩ => ⟨S64, .f32⟩
  | .hbm, ⟨18, _⟩ => ⟨S64x2000, .f32⟩
  | .hbm, ⟨19, _⟩ => ⟨S2000, .f32⟩
  | .hbm, ⟨20, _⟩ => ⟨S1x64, .f32⟩
  | .hbm, ⟨21, _⟩ => ⟨S50000x64, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x2, .f32⟩
  | .hbm, ⟨37, _⟩ => ⟨S1x64, .f32⟩
  | .hbm, ⟨38, _⟩ => ⟨S1x2000, .f32⟩
  | .hbm, ⟨39, _⟩ => ⟨S50000x64, .f32⟩
  | .hbm, ⟨40, _⟩ => ⟨S50000x2, .f32⟩
  | .hbm, ⟨41, _⟩ => ⟨S50000x2000, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000x1, .f32⟩
  | .hbm, ⟨61, _⟩ => ⟨S_, .f32⟩
  | .hbm, ⟨62, _⟩ => ⟨S50000x1, .f32⟩
  | .hbm, ⟨63, _⟩ => ⟨S800000x1, .i32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S1x2000, .f32⟩
  | .hbm, ⟨72, _⟩ => ⟨S50000x2000, .f32⟩
  | .local _ .vmem, ⟨0, _⟩ => ⟨S1000x2000, .f32⟩
  | .local _ .vmem, ⟨1, _⟩ => ⟨S1000x2000, .f32⟩
  | .local _ .vmem, ⟨2, _⟩ => ⟨S2000x64, .f32⟩
  | .local _ .vmem, ⟨3, _⟩ => ⟨S1x64, .f32⟩
  | .local _ .vmem, ⟨4, _⟩ => ⟨S1000x64, .f32⟩
  | .local _ .vmem, ⟨5, _⟩ => ⟨S1000x64, .f32⟩
  | .local _ .vmem, ⟨6, _⟩ => ⟨S1x64, .f32⟩
  | .local _ .vmem, ⟨7, _⟩ => ⟨S1x64, .f32⟩
  | .local _ .vmem, ⟨8, _⟩ => ⟨S1000x64, .f32⟩
  | .local _ .vmem, ⟨9, _⟩ => ⟨S1000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x2, .f32⟩
  | .local _ .vmem, ⟨19, _⟩ => ⟨S1x2, .f32⟩
  | .local _ .vmem, ⟨20, _⟩ => ⟨S64x64, .f32⟩
  | .local _ .vmem, ⟨21, _⟩ => ⟨S1x64, .f32⟩
  | .local _ .vmem, ⟨22, _⟩ => ⟨S64x2000, .f32⟩
  | .local _ .vmem, ⟨23, _⟩ => ⟨S1x2000, .f32⟩
  | .local _ .vmem, ⟨24, _⟩ => ⟨S1000x64, .f32⟩
  | .local _ .vmem, ⟨25, _⟩ => ⟨S1000x64, .f32⟩
  | .local _ .vmem, ⟨26, _⟩ => ⟨S1000x2, .f32⟩
  | .local _ .vmem, ⟨27, _⟩ => ⟨S1000x2, .f32⟩
  | .local _ .vmem, ⟨28, _⟩ => ⟨S1000x2000, .f32⟩
  | .local _ .vmem, ⟨29, _⟩ => ⟨S1000x2000, .f32⟩
  | .local _ .vmem, ⟨30, _⟩ => ⟨S1000x64, .f32⟩
  | .local _ .vmem, ⟨31, _⟩ => ⟨S1000x64, .f32⟩
  | .local _ .vmem, ⟨32, _⟩ => ⟨S64x64, .f32⟩
  | .local _ .vmem, ⟨33, _⟩ => ⟨S1x64, .f32⟩
  | .local _ .vmem, ⟨34, _⟩ => ⟨S64x2000, .f32⟩
  | .local _ .vmem, ⟨35, _⟩ => ⟨S1x2000, .f32⟩
  | .local _ .vmem, ⟨36, _⟩ => ⟨S1000x2000, .f32⟩
  | .local _ .vmem, ⟨37, _⟩ => ⟨S1000x2000, .f32⟩
  | _, _ => ⟨S50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1_0 : Ref sig .tc := ⟨.hbm, 21, rfl⟩
abbrev main_v1_1 : Ref sig .tc := ⟨.hbm, 22, rfl⟩
abbrev main_v1_2 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc1_stg16_0 : Ref sig .tc := ⟨.vmem, 26, rfl⟩
abbrev cc1_stg16_1 : Ref sig .tc := ⟨.vmem, 27, rfl⟩
abbrev cc1_stg17_0 : Ref sig .tc := ⟨.vmem, 28, rfl⟩
abbrev cc1_stg17_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem15_1 : DmaSem sig := 25
abbrev cc1_sem16_0 : DmaSem sig := 26
abbrev cc1_sem16_1 : DmaSem sig := 27
abbrev cc1_sem17_0 : DmaSem sig := 28
abbrev cc1_sem17_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x2000 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x2000 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1000x2 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1000x2000 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x2000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S1000x2000_S1000x2000_0_0 : ∀ a, (![0, 0] : Fin 2 → Nat) a + S1000x2000.size a ≤ S1000x2000.size a
  h_S1000x2000 : 0 < S1000x2000.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  reduces_S1000x64_S64 : S1000x64.Reduces [0] S64
  bcast_S_S1x64 : S_.BroadcastsInDim S1x64 (![] : Fin 0 → Fin S1x64.rank)
  shapeCasts_S2_S1x2 : S2.ShapeCasts S1x2
  shapeCasts_S2000_S1x2000 : S2000.ShapeCasts S1x2000
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  inb_S64x2000_S64x2000_0_0 : ∀ a, (![0, 0] : Fin 2 → Nat) a + S64x2000.size a ≤ S64x2000.size a
  h_S64x2000 : 0 < S64x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S1000x2000 : S1x2000.Broadcasts S1000x2000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S1000x2000_S2000x64_S1000x64_1_0_0_1_n_n_wf : DotDims.WF S1000x2000 S2000x64 S1000x64 [1] [0] [0] [1] [] []
  dot_S1000x64_S64x64_S1000x64_1_0_0_1_n_n_wf : DotDims.WF S1000x64 S64x64 S1000x64 [1] [0] [0] [1] [] []
  dot_S1000x64_S64x2_S1000x2_1_0_0_1_n_n_wf : DotDims.WF S1000x64 S64x2 S1000x2 [1] [0] [0] [1] [] []
  dot_S1000x64_S64x2000_S1000x2000_1_0_0_1_n_n_wf : DotDims.WF S1000x64 S64x2000 S1000x2000 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S2000x64.size a
  hwx0_1 : ∀ i : grid0.Coords, EltTy.bits .f32 = 32 ∨ (Rect.block (s := S2000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x2.size a ≤ S64x2.size a
  hwx1_9 : ∀ i : grid1.Coords, EltTy.bits .f32 = 32 ∨ (Rect.block (s := S64x2) S64x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2.size a ≤ S1x2.size a
  hwx1_10 : ∀ i : grid1.Coords, EltTy.bits .f32 = 32 ∨ (Rect.block (s := S1x2) S1x2.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x2000.size a ≤ S64x2000.size a
  hwx1_13 : ∀ i : grid1.Coords, EltTy.bits .f32 = 32 ∨ (Rect.block (s := S64x2000) S64x2000.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x2000.size a ≤ S1x2000.size a
  hwx1_14 : ∀ i : grid1.Coords, EltTy.bits .f32 = 32 ∨ (Rect.block (s := S1x2000) S1x2000.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x64.size a ≤ S50000x64.size a
  hwx1_15 : ∀ i : grid1.Coords, EltTy.bits .f32 = 32 ∨ (Rect.block (s := S50000x64) S1000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1000x2.size a ≤ S50000x2.size a
  hwx1_16 : ∀ i : grid1.Coords, EltTy.bits .f32 = 32 ∨ (Rect.block (s := S50000x2) S1000x2.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1000x2000.size a ≤ S50000x2000.size a
  hwx1_17 : ∀ i : grid1.Coords, EltTy.bits .f32 = 32 ∨ (Rect.block (s := S50000x2000) S1000x2000.size (cc1_transform_17 i) (hinb1_17 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2000.size a ≤ S64x2000.size a
  hwx2_3 : ∀ i : grid2.Coords, EltTy.bits .f32 = 32 ∨ (Rect.block (s := S64x2000) S64x2000.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2000.size a ≤ S1x2000.size a
  hwx2_4 : ∀ i : grid2.Coords, EltTy.bits .f32 = 32 ∨ (Rect.block (s := S1x2000) S1x2000.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x2000.size a ≤ S50000x2000.size a
  hwx2_5 : ∀ i : grid2.Coords, EltTy.bits .f32 = 32 ∨ (Rect.block (s := S50000x2000) S1000x2000.size (cc2_transform_5 i) (hinb2_5 i)).WholeWords (EltTy.packing .f32)

variable [Facts₀]

def dot_S1000x2000_S2000x64_S1000x64_1_0_0_1_n_n : DotDims S1000x2000 S2000x64 S1000x64 where
  lhsContracting := [1]
  rhsContracting := [0]
  lhsNonContracting := [0]
  rhsNonContracting := [1]
  lhsBatch := []
  rhsBatch := []
  wf := dot_S1000x2000_S2000x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf
def dot_S1000x64_S64x2000_S1000x2000_1_0_0_1_n_n : DotDims S1000x64 S64x2000 S1000x2000 where
  lhsContracting := [1]
  rhsContracting := [0]
  lhsNonContracting := [0]
  rhsNonContracting := [1]
  lhsBatch := []
  rhsBatch := []
  wf := dot_S1000x64_S64x2000_S1000x2000_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S64x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v13) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S64x2000.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v14) S1x2000.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v15_0) S1000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v15_1) S1000x2.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v15_2) S1000x2000.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_v37) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S64x2000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x2000.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1000x2000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x2000 : Shape := ⟨2, ![50000, 2000]⟩
abbrev S2x800000 : Shape := ⟨2, ![2, 800000]⟩
abbrev S2000x64 : Shape := ⟨2, ![2000, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x2000 : Shape := ⟨2, ![64, 2000]⟩
abbrev S2000 : Shape := ⟨1, ![2000]⟩
abbrev S50000x64 : Shape := ⟨2, ![50000, 64]⟩
abbrev S1x64 : Shape := ⟨2, ![1, 64]⟩
abbrev S_ : Shape := ⟨0, ![]⟩
abbrev S50000x2 : Shape := ⟨2, ![50000, 2]⟩
abbrev S1x2 : Shape := ⟨2, ![1, 2]⟩
abbrev S1x2000 : Shape := ⟨2, ![1, 2000]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S50000x1 : Shape := ⟨2, ![50000, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x2000, .f32⟩
  | .hbm, ⟨1, _⟩ => ⟨S2x800000, .i32⟩
  | .hbm, ⟨2, _⟩ => ⟨S2000x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S64x64, .f32⟩
  | .hbm, ⟨13, _⟩ => ⟨S64, .f32⟩
  | .hbm, ⟨14, _⟩ => ⟨S64x2000, .f32⟩
  | .hbm, ⟨15, _⟩ => ⟨S2000, .f32⟩
  | .hbm, ⟨16, _⟩ => ⟨S64x64, .f32⟩
  | .hbm, ⟨17, _⟩ => ⟨S64, .f32⟩
  | .hbm, ⟨18, _⟩ => ⟨S64x2000, .f32⟩
  | .hbm, ⟨19, _⟩ => ⟨S2000, .f32⟩
  | .hbm, ⟨20, _⟩ => ⟨S50000x64, .f32⟩
  | .hbm, ⟨21, _⟩ => ⟨S1x64, .f32⟩
  | .hbm, ⟨22, _⟩ => ⟨S50000x64, .f32⟩
  | .hbm, ⟨23, _⟩ => ⟨S50000x64, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x2, .f32⟩
  | .hbm, ⟨69, _⟩ => ⟨S1x2, .f32⟩
  | .hbm, ⟨70, _⟩ => ⟨S50000x2, .f32⟩
  | .hbm, ⟨71, _⟩ => ⟨S50000x2, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x2000, .f32⟩
  | .hbm, ⟨80, _⟩ => ⟨S1x2000, .f32⟩
  | .hbm, ⟨81, _⟩ => ⟨S50000x2000, .f32⟩
  | .hbm, ⟨82, _⟩ => ⟨S50000x2000, .f32⟩
  | .hbm, ⟨83, _⟩ => ⟨S1x800000, .i32⟩
  | .hbm, ⟨84, _⟩ => ⟨S800000, .i32⟩
  | .hbm, ⟨85, _⟩ => ⟨S1x800000, .i32⟩
  | .hbm, ⟨86, _⟩ => ⟨S800000, .i32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S_, .f32⟩
  | .hbm, ⟨101, _⟩ => ⟨S800000x1, .f32⟩
  | .hbm, ⟨102, _⟩ => ⟨S_, .f32⟩
  | .hbm, ⟨103, _⟩ => ⟨S50000x1, .f32⟩
  | .hbm, ⟨104, _⟩ => ⟨S800000x1, .i32⟩
  | .hbm, ⟨105, _⟩ => ⟨S50000x1, .f32⟩
  | .hbm, ⟨106, _⟩ => ⟨S_, .f32⟩
  | .hbm, ⟨107, _⟩ => ⟨S50000x1, .f32⟩
  | .hbm, ⟨108, _⟩ => ⟨S50000x1, .f32⟩
  | .hbm, ⟨109, _⟩ => ⟨S50000x64, .f32⟩
  | .hbm, ⟨110, _⟩ => ⟨S50000x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | .hbm, ⟨118, _⟩ => ⟨S50000x2000, .f32⟩
  | .hbm, ⟨119, _⟩ => ⟨S1x2000, .f32⟩
  | .hbm, ⟨120, _⟩ => ⟨S50000x2000, .f32⟩
  | .hbm, ⟨121, _⟩ => ⟨S50000x2000, .f32⟩
  | _, _ => ⟨S50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call0_cst : Ref sig .tc := ⟨.hbm, 54, rfl⟩
abbrev main_call0_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call1_cst : Ref sig .tc := ⟨.hbm, 65, rfl⟩
abbrev main_call1_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call2_cst : Ref sig .tc := ⟨.hbm, 76, rfl⟩
abbrev main_call2_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c : Ref sig .tc := ⟨.hbm, 87, rfl⟩
abbrev main_v56 : Ref sig .tc := ⟨.hbm, 88, rfl⟩
abbrev main_v57 : Ref sig .tc := ⟨.hbm, 89, rfl⟩
abbrev main_c_4 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_5 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_6 : Ref sig .tc := ⟨.hbm, 100, rfl⟩
abbrev main_v66 : Ref sig .tc := ⟨.hbm, 101, rfl⟩
abbrev main_cst_7 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_8 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call3_cst : Ref sig .tc := ⟨.hbm, 115, rfl⟩
abbrev main_call3_v0 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S2000_S1x2000_1 : S2000.BroadcastsInDim S1x2000 (![1] : Fin 1 → Fin S1x2000.rank)
  bcast_S1x2000_S50000x2000_0_1 : S1x2000.BroadcastsInDim S50000x2000 (![0, 1] : Fin 2 → Fin S50000x2000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S50000x2000_S2000x64_S50000x64_1_0_0_1_n_n_wf : DotDims.WF S50000x2000 S2000x64 S50000x64 [1] [0] [0] [1] [] []
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []
  dot_S50000x64_S64x2000_S50000x2000_1_0_0_1_n_n_wf : DotDims.WF S50000x64 S64x2000 S50000x2000 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1

variable [Facts₀]

def dot_S50000x2000_S2000x64_S50000x64_1_0_0_1_n_n : DotDims S50000x2000 S2000x64 S50000x64 where
  lhsContracting := [1]
  rhsContracting := [0]
  lhsNonContracting := [0]
  rhsNonContracting := [1]
  lhsBatch := []
  rhsBatch := []
  wf := dot_S50000x2000_S2000x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def dot_S50000x64_S64x2000_S50000x2000_1_0_0_1_n_n : DotDims S50000x64 S64x2000 S50000x2000 where
  lhsContracting := [1]
  rhsContracting := [0]
  lhsNonContracting := [0]
  rhsNonContracting := [1]
  lhsBatch := []
  rhsBatch := []
  wf := dot_S50000x64_S64x2000_S50000x2000_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KRun.lean ====
/-
  The kernel program's run with its results read: every weakly fair execution of @main terminates, nothing faulting,
  with each of the four result buffers holding what the last region boundary's contents hold for it, and the
  argument arrays as launched. The boundary contents are a fold through @main — a stretch of host operations, the first
  kernel's write-backs, a stretch, the second kernel's, the neighbour averaging on the host, the third kernel's —, which
  the modules importing this one open one stage at a time.
-/
import proofs.«151171_j14886356648152_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the final state has every unscoped buffer at the last boundary's contents; read at the four results and at
    the twenty arguments (which no host operation and no kernel writes). -/
theorem run_results : θ_run defs (onTc (τ := τ) (main (F := F))) ⟨m, fun _ => 0, ρ⟩ (fun r => ∀ c : Dev nD,
      r.2.mem ((c.tc : Thread nD τ).loc main_v15_0) = W6 m ρ c (Proc.devRef .tc main_v15_0)
      ∧ r.2.mem ((c.tc : Thread nD τ).loc main_v15_1) = W6 m ρ c (Proc.devRef .tc main_v15_1)
      ∧ r.2.mem ((c.tc : Thread nD τ).loc main_v15_2) = W6 m ρ c (Proc.devRef .tc main_v15_2)
      ∧ r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15_0 (by decide)),
       h c _ (mem_uc main_v15_1 (by decide)),
       h c _ (mem_uc main_v15_2 (by decide)),
       h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.KernelIdeal.Run

end
-- ==== Proof.Spec.lean ====
/-
  The common mathematical form of the two programs' results, over the extended reals.

  A spot (row) `i` of the expression matrix `x` is encoded by a linear layer, `z i = x i · W1 + b1`; the batch
  statistics of `z` are taken column by column over all 50000 spots — the mean `μ j` and a variance `v j` —; each
  row is normalised, `relu (γ j · (z i j − μ j) · rsqrt (v j + ε) + β j)`, and passed through a second linear layer to
  the embedding `h i`; three two-layer heads (linear, relu, linear) decode a row: the position and the row's own
  expression from `h i`, the neighbours' expression from the row `i` of the neighbour average of `h`.
  Everything after `z` is a function of ONE row and of the two statistics, so it is stated row by row, with the
  variance vector `v` a parameter: the two programs differ only in the formula they take `v` by (`varMoments`:
  the mean of the squares minus the square of the mean; `varCentred`: the mean of the squared deviations).
-/
import Idealize.ShloMosaic.PureOps.Ideal
import Idealize.ShloMosaic.Lib.ValueIdx

noncomputable section

namespace Cert.Gnn

open Idealize.ShloMosaic Idealize.ShloMosaic.ValueIdx

/-- An array of two axes, and of one, as a function of its index. -/
abbrev Arr2 (n0 n1 : ℕ) : Type := (⟨2, ![n0, n1]⟩ : Shape).Idx → EReal
abbrev Arr1 (n : ℕ) : Type := (⟨1, ![n]⟩ : Shape).Idx → EReal

/-- The float words both programs spell: zero, the number of spots 50000, and the variance's ε. They are the same
    words on both sides, so they are never evaluated (except 50000, by the variance law). -/
abbrev zeroW : EReal := Ideal.ofBits .f32 0x00000000#32
abbrev spotsW : EReal := Ideal.ofBits .f32 0x47435000#32
abbrev epsW : EReal := Ideal.ofBits .f32 0x3727C5AC#32

/-- A linear layer on one row: `(a · w) j + b j`. -/
def lin {K B : ℕ} (a : Fin K → EReal) (w : Fin K → Fin B → EReal) (b : Fin B → EReal) (j : Fin B) : EReal :=
  (∑ k : Fin K, a k * w k j) + b j

def relu (t : EReal) : EReal := max t zeroW

/-- A matrix and a vector as curried functions of their coordinates. -/
abbrev mat {n0 n1 : ℕ} (w : Arr2 n0 n1) : Fin n0 → Fin n1 → EReal := fun k j => w (ix2 k j)
abbrev vec {n : ℕ} (b : Arr1 n) : Fin n → EReal := fun j => b (ix1 j)

/-- The first linear layer: row `i` of `z = x · W1 + b1`. -/
def zRow (x : Arr2 50000 2000) (W1 : Arr2 2000 64) (b1 : Arr1 64) (i : Fin 50000) : Fin 64 → EReal :=
  lin (fun k => x (ix2 i k)) (mat W1) (vec b1)

/-- The column sums of `z` and of its squares, and the mean. -/
def colSum (z : Fin 50000 → Fin 64 → EReal) (j : Fin 64) : EReal := ∑ i : Fin 50000, z i j
def colSumSq (z : Fin 50000 → Fin 64 → EReal) (j : Fin 64) : EReal := ∑ i : Fin 50000, z i j * z i j
def mean (z : Fin 50000 → Fin 64 → EReal) (j : Fin 64) : EReal := Ideal.div (colSum z j) spotsW

/-- The variance as the mean of the squares minus the square of the mean. -/
def varMoments (z : Fin 50000 → Fin 64 → EReal) (j : Fin 64) : EReal :=
  Ideal.div (colSumSq z j) spotsW - mean z j * mean z j

/-- The variance as the mean of the squared deviations from the mean. -/
def varCentred (z : Fin 50000 → Fin 64 → EReal) (j : Fin 64) : EReal :=
  Ideal.div (∑ i : Fin 50000, (z i j - mean z j) * (z i j - mean z j)) spotsW

/-- One row normalised by the batch statistics `μ`, `v`, scaled, shifted and clamped at zero. -/
def normRow (γ β μ v : Fin 64 → EReal) (zr : Fin 64 → EReal) (j : Fin 64) : EReal :=
  relu (γ j * (zr j - μ j) * Ideal.rsqrt (v j + epsW) + β j)

/-- A bias or a statistic kept as a one-row matrix, as a function of its column. -/
abbrev row0 {n : ℕ} (b : Arr2 1 n) : Fin n → EReal := fun q => b (ix2 (0 : Fin 1) q)

/-- The embedding of one row: the second linear layer on the normalised row. -/
def embedRow (γ β : Fin 64 → EReal) (W2 : Fin 64 → Fin 64 → EReal) (b2 : Fin 64 → EReal) (μ v : Fin 64 → EReal)
    (zr : Fin 64 → EReal) : Fin 64 → EReal :=
  lin (normRow γ β μ v zr) W2 b2

/-- A decoder head on one row: linear, relu, linear. -/
def headRow {B : ℕ} (Wa : Fin 64 → Fin 64 → EReal) (ba : Fin 64 → EReal) (Wb : Fin 64 → Fin B → EReal) (bb : Fin B → EReal)
    (hr : Fin 64 → EReal) : Fin B → EReal :=
  lin (fun k => relu (lin hr Wa ba k)) Wb bb

/-- The embedding matrix `h`, given the variance vector `v`. -/
def embed (x : Arr2 50000 2000) (W1 : Arr2 2000 64) (b1 γ β : Arr1 64) (W2 : Arr2 64 64) (b2 : Arr1 64)
    (v : Fin 64 → EReal) : Arr2 50000 64 :=
  fun i => embedRow (vec γ) (vec β) (mat W2) (vec b2) (mean (zRow x W1 b1)) v (zRow x W1 b1 (i 0)) (i 1)

/-- A head applied to every row of a 50000 × 64 matrix. -/
def headOf {B : ℕ} (Wa : Arr2 64 64) (ba : Arr1 64) (Wb : Arr2 64 B) (bb : Arr1 B) (h : Arr2 50000 64) : Arr2 50000 B :=
  fun i => headRow (mat Wa) (vec ba) (mat Wb) (vec bb) (fun k => h (ix2 (i 0) k)) (i 1)

/-- The first layer's output as an array. -/
def zArr (x : Arr2 50000 2000) (W1 : Arr2 2000 64) (b1 : Arr1 64) : Arr2 50000 64 :=
  fun i => zRow x W1 b1 (i 0) (i 1)

theorem zArr_apply (x : Arr2 50000 2000) (W1 : Arr2 2000 64) (b1 : Arr1 64) (p : Fin 50000) (q : Fin 64) :
    zArr x W1 b1 (ix2 p q) = zRow x W1 b1 p q := rfl

theorem embed_apply (x : Arr2 50000 2000) (W1 : Arr2 2000 64) (b1 γ β : Arr1 64) (W2 : Arr2 64 64) (b2 : Arr1 64)
    (v : Fin 64 → EReal) (p : Fin 50000) (q : Fin 64) :
    embed x W1 b1 γ β W2 b2 v (ix2 p q)
      = embedRow (vec γ) (vec β) (mat W2) (vec b2) (mean (zRow x W1 b1)) v (zRow x W1 b1 p) q := rfl

theorem headOf_apply {B : ℕ} (Wa : Arr2 64 64) (ba : Arr1 64) (Wb : Arr2 64 B) (bb : Arr1 B) (h : Arr2 50000 64)
    (p : Fin 50000) (q : Fin B) :
    headOf Wa ba Wb bb h (ix2 p q) = headRow (mat Wa) (vec ba) (mat Wb) (vec bb) (fun k => h (ix2 p k)) q := rfl

end Cert.Gnn

end
-- ==== Proof.KLayers.lean ====
/-
  The kernel's linear layers read at an entry. On a block of 1000 rows a layer is a matrix product into a zero
  accumulator plus a bias row broadcast down the rows; over the extended reals its entry `(r, j)` is
  `∑ k, a (r, k) · w (k, j) + b (0, j)` — the row form `lin` of the common specification. Four shapes occur
  (2000 → 64, 64 → 64, 64 → 2, 64 → 2000); the narrowing of the operands to a shorter float format is the identity here.
-/
import proofs.«151171_j14886356648152_1_alg».proof.KernelIdeal
import proofs.«151171_j14886356648152_1_alg».proof.Proof.Gen.KernelIdeal
import proofs.«151171_j14886356648152_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Facts₀ Idealize.ShloMosaic Idealize.ShloMosaic.ValueIdx

/-! ### A block of 1000 rows of length 2000 against a 2000 × 64 matrix -/

theorem lhsRow_2000_64 (i : S1000x64.Idx) (q : dot_S1000x2000_S2000x64_S1000x64_1_0_0_1_n_n.contr.Idx) : (dot_S1000x2000_S2000x64_S1000x64_1_0_0_1_n_n.lhsIdx i q 0).val = (i 0).val := by
  unfold DotDims.lhsIdx
  rw [dif_neg (show ¬(0 : Fin S1000x2000.rank) ∈ dot_S1000x2000_S2000x64_S1000x64_1_0_0_1_n_n.lhsBatch by decide), dif_pos (show (0 : Fin S1000x2000.rank) ∈ dot_S1000x2000_S2000x64_S1000x64_1_0_0_1_n_n.lhsNonContracting by decide)]
  rfl

theorem rhsCol_2000_64 (i : S1000x64.Idx) (q : dot_S1000x2000_S2000x64_S1000x64_1_0_0_1_n_n.contr.Idx) : (dot_S1000x2000_S2000x64_S1000x64_1_0_0_1_n_n.rhsIdx i q 1).val = (i 1).val := by
  unfold DotDims.rhsIdx
  rw [dif_neg (show ¬(1 : Fin S2000x64.rank) ∈ dot_S1000x2000_S2000x64_S1000x64_1_0_0_1_n_n.rhsBatch by decide), dif_pos (show (1 : Fin S2000x64.rank) ∈ dot_S1000x2000_S2000x64_S1000x64_1_0_0_1_n_n.rhsNonContracting by decide)]
  rfl

/-- The product into a zero accumulator, at row `r` and column `j`: the sum over the contracted axis. -/
theorem rowDot_2000_64 {φ₁ φ₂ : FTy} (a : FVec Ideal S1000x2000 φ₁) (w : FVec Ideal S2000x64 φ₂) (r : Fin 1000) (j : Fin 64) :
    matmul dot_S1000x2000_S2000x64_S1000x64_1_0_0_1_n_n none a w (constant S1000x64 .f32 0x00000000#32) (ix2 r j) = ∑ k : Fin 2000, a (ix2 r k) * w (ix2 k j) := by
  refine (Ideal.matmul_constant_zero_apply dot_S1000x2000_S2000x64_S1000x64_1_0_0_1_n_n none a w (ix2 r j)).trans ?_
  rw [← Equiv.sum_comp (ValueIdx.contrEquiv1 dot_S1000x2000_S2000x64_S1000x64_1_0_0_1_n_n 2000 rfl rfl).symm]
  refine Finset.sum_congr rfl fun k _ => ?_
  have hk := ValueIdx.contrEquiv1_symm_val dot_S1000x2000_S2000x64_S1000x64_1_0_0_1_n_n 2000 rfl rfl k
  have el : dot_S1000x2000_S2000x64_S1000x64_1_0_0_1_n_n.lhsIdx (ix2 r j) ((ValueIdx.contrEquiv1 dot_S1000x2000_S2000x64_S1000x64_1_0_0_1_n_n 2000 rfl rfl).symm k) = ix2 r k := funext fun ax => Fin.ext (by
    match ax with
    | ⟨0, _⟩ => exact lhsRow_2000_64 _ _
    | ⟨1, _⟩ => exact (dot_S1000x2000_S2000x64_S1000x64_1_0_0_1_n_n.lhsIdx_val_of_single rfl _ _).trans hk)
  have er : dot_S1000x2000_S2000x64_S1000x64_1_0_0_1_n_n.rhsIdx (ix2 r j) ((ValueIdx.contrEquiv1 dot_S1000x2000_S2000x64_S1000x64_1_0_0_1_n_n 2000 rfl rfl).symm k) = ix2 k j := funext fun ax => Fin.ext (by
    match ax with
    | ⟨0, _⟩ => exact (dot_S1000x2000_S2000x64_S1000x64_1_0_0_1_n_n.rhsIdx_val_of_single rfl _ _).trans hk
    | ⟨1, _⟩ => exact rhsCol_2000_64 _ _)
  rw [el, er]

/-- The linear layer on a block: the product plus the bias row broadcast down the rows, at `(r, j)`. -/
theorem layer_2000_64 {φ₁ φ₂ : FTy} (a : FVec Ideal S1000x2000 φ₁) (w : FVec Ideal S2000x64 φ₂) (b : FVec Ideal S1x64 .f32) (r : Fin 1000) (j : Fin 64) :
    addf (matmul dot_S1000x2000_S2000x64_S1000x64_1_0_0_1_n_n none a w (constant S1000x64 .f32 0x00000000#32))
        (broadcastTo S1000x64 (shapeCast S1x64 b shapeCasts_S1x64_S1x64) broadcasts_S1x64_S1000x64) (ix2 r j)
      = Cert.Gnn.lin (fun k => a (ix2 r k)) (fun k q => w (ix2 k q)) (fun q => b (ix2 (0 : Fin 1) q)) j := by
  rw [addf_apply, rowDot_2000_64, broadcastTo_1b_ab_apply, shapeCast_self]
  rfl

/-! ### A block of 1000 rows of length 64 against a 64 × 64 matrix -/

theorem lhsRow_64_64 (i : S1000x64.Idx) (q : dot_S1000x64_S64x64_S1000x64_1_0_0_1_n_n.contr.Idx) : (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl

theorem rhsCol_64_64 (i : S1000x64.Idx) (q : dot_S1000x64_S64x64_S1000x64_1_0_0_1_n_n.contr.Idx) : (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The product into a zero accumulator, at row `r` and column `j`: the sum over the contracted axis. -/
theorem rowDot_64_64 {φ₁ φ₂ : FTy} (a : FVec Ideal S1000x64 φ₁) (w : FVec Ideal S64x64 φ₂) (r : Fin 1000) (j : Fin 64) :
    matmul dot_S1000x64_S64x64_S1000x64_1_0_0_1_n_n none a w (constant S1000x64 .f32 0x00000000#32) (ix2 r j) = ∑ k : Fin 64, a (ix2 r k) * w (ix2 k j) := by
  refine (Ideal.matmul_constant_zero_apply dot_S1000x64_S64x64_S1000x64_1_0_0_1_n_n none a w (ix2 r j)).trans ?_
  rw [← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 r j) ((ValueIdx.contrEquiv1 dot_S1000x64_S64x64_S1000x64_1_0_0_1_n_n 64 rfl rfl).symm k) = ix2 r k := funext fun ax => Fin.ext (by
    match ax with
    | ⟨0, _⟩ => exact lhsRow_64_64 _ _
    | ⟨1, _⟩ => exact (dot_S1000x64_S64x64_S1000x64_1_0_0_1_n_n.lhsIdx_val_of_single rfl _ _).trans hk)
  have er : dot_S1000x64_S64x64_S1000x64_1_0_0_1_n_n.rhsIdx (ix2 r j) ((ValueIdx.contrEquiv1 dot_S1000x64_S64x64_S1000x64_1_0_0_1_n_n 64 rfl rfl).symm k) = ix2 k j := funext fun ax => Fin.ext (by
    match ax with
    | ⟨0, _⟩ => exact (dot_S1000x64_S64x64_S1000x64_1_0_0_1_n_n.rhsIdx_val_of_single rfl _ _).trans hk
    | ⟨1, _⟩ => exact rhsCol_64_64 _ _)
  rw [el, er]

/-- The linear layer on a block: the product plus the bias row broadcast down the rows, at `(r, j)`. -/
theorem layer_64_64 {φ₁ φ₂ : FTy} (a : FVec Ideal S1000x64 φ₁) (w : FVec Ideal S64x64 φ₂) (b : FVec Ideal S1x64 .f32) (r : Fin 1000) (j : Fin 64) :
    addf (matmul dot_S1000x64_S64x64_S1000x64_1_0_0_1_n_n none a w (constant S1000x64 .f32 0x00000000#32))
        (broadcastTo S1000x64 (shapeCast S1x64 b shapeCasts_S1x64_S1x64) broadcasts_S1x64_S1000x64) (ix2 r j)
      = Cert.Gnn.lin (fun k => a (ix2 r k)) (fun k q => w (ix2 k q)) (fun q => b (ix2 (0 : Fin 1) q)) j := by
  rw [addf_apply, rowDot_64_64, broadcastTo_1b_ab_apply, shapeCast_self]
  rfl

/-! ### A block of 1000 rows of length 64 against a 64 × 2 matrix -/

theorem lhsRow_64_2 (i : S1000x2.Idx) (q : dot_S1000x64_S64x2_S1000x2_1_0_0_1_n_n.contr.Idx) : (dot_S1000x64_S64x2_S1000x2_1_0_0_1_n_n.lhsIdx i q 0).val = (i 0).val := by
  unfold DotDims.lhsIdx
  rw [dif_neg (show ¬(0 : Fin S1000x64.rank) ∈ dot_S1000x64_S64x2_S1000x2_1_0_0_1_n_n.lhsBatch by decide), dif_pos (show (0 : Fin S1000x64.rank) ∈ dot_S1000x64_S64x2_S1000x2_1_0_0_1_n_n.lhsNonContracting by decide)]
  rfl

theorem rhsCol_64_2 (i : S1000x2.Idx) (q : dot_S1000x64_S64x2_S1000x2_1_0_0_1_n_n.contr.Idx) : (dot_S1000x64_S64x2_S1000x2_1_0_0_1_n_n.rhsIdx i q 1).val = (i 1).val := by
  unfold DotDims.rhsIdx
  rw [dif_neg (show ¬(1 : Fin S64x2.rank) ∈ dot_S1000x64_S64x2_S1000x2_1_0_0_1_n_n.rhsBatch by decide), dif_pos (show (1 : Fin S64x2.rank) ∈ dot_S1000x64_S64x2_S1000x2_1_0_0_1_n_n.rhsNonContracting by decide)]
  rfl

/-- The product into a zero accumulator, at row `r` and column `j`: the sum over the contracted axis. -/
theorem rowDot_64_2 {φ₁ φ₂ : FTy} (a : FVec Ideal S1000x64 φ₁) (w : FVec Ideal S64x2 φ₂) (r : Fin 1000) (j : Fin 2) :
    matmul dot_S1000x64_S64x2_S1000x2_1_0_0_1_n_n none a w (constant S1000x2 .f32 0x00000000#32) (ix2 r j) = ∑ k : Fin 64, a (ix2 r k) * w (ix2 k j) := by
  refine (Ideal.matmul_constant_zero_apply dot_S1000x64_S64x2_S1000x2_1_0_0_1_n_n none a w (ix2 r j)).trans ?_
  rw [← Equiv.sum_comp (ValueIdx.contrEquiv1 dot_S1000x64_S64x2_S1000x2_1_0_0_1_n_n 64 rfl rfl).symm]
  refine Finset.sum_congr rfl fun k _ => ?_
  have hk := ValueIdx.contrEquiv1_symm_val dot_S1000x64_S64x2_S1000x2_1_0_0_1_n_n 64 rfl rfl k
  have el : dot_S1000x64_S64x2_S1000x2_1_0_0_1_n_n.lhsIdx (ix2 r j) ((ValueIdx.contrEquiv1 dot_S1000x64_S64x2_S1000x2_1_0_0_1_n_n 64 rfl rfl).symm k) = ix2 r k := funext fun ax => Fin.ext (by
    match ax with
    | ⟨0, _⟩ => exact lhsRow_64_2 _ _
    | ⟨1, _⟩ => exact (dot_S1000x64_S64x2_S1000x2_1_0_0_1_n_n.lhsIdx_val_of_single rfl _ _).trans hk)
  have er : dot_S1000x64_S64x2_S1000x2_1_0_0_1_n_n.rhsIdx (ix2 r j) ((ValueIdx.contrEquiv1 dot_S1000x64_S64x2_S1000x2_1_0_0_1_n_n 64 rfl rfl).symm k) = ix2 k j := funext fun ax => Fin.ext (by
    match ax with
    | ⟨0, _⟩ => exact (dot_S1000x64_S64x2_S1000x2_1_0_0_1_n_n.rhsIdx_val_of_single rfl _ _).trans hk
    | ⟨1, _⟩ => exact rhsCol_64_2 _ _)
  rw [el, er]

/-- The linear layer on a block: the product plus the bias row broadcast down the rows, at `(r, j)`. -/
theorem layer_64_2 {φ₁ φ₂ : FTy} (a : FVec Ideal S1000x64 φ₁) (w : FVec Ideal S64x2 φ₂) (b : FVec Ideal S1x2 .f32) (r : Fin 1000) (j : Fin 2) :
    addf (matmul dot_S1000x64_S64x2_S1000x2_1_0_0_1_n_n none a w (constant S1000x2 .f32 0x00000000#32))
        (broadcastTo S1000x2 (shapeCast S1x2 b shapeCasts_S1x2_S1x2) broadcasts_S1x2_S1000x2) (ix2 r j)
      = Cert.Gnn.lin (fun k => a (ix2 r k)) (fun k q => w (ix2 k q)) (fun q => b (ix2 (0 : Fin 1) q)) j := by
  rw [addf_apply, rowDot_64_2, broadcastTo_1b_ab_apply, shapeCast_self]
  rfl

/-! ### A block of 1000 rows of length 64 against a 64 × 2000 matrix -/

theorem lhsRow_64_2000 (i : S1000x2000.Idx) (q : dot_S1000x64_S64x2000_S1000x2000_1_0_0_1_n_n.contr.Idx) : (dot_S1000x64_S64x2000_S1000x2000_1_0_0_1_n_n.lhsIdx i q 0).val = (i 0).val := by
  unfold DotDims.lhsIdx
  rw [dif_neg (show ¬(0 : Fin S1000x64.rank) ∈ dot_S1000x64_S64x2000_S1000x2000_1_0_0_1_n_n.lhsBatch by decide), dif_pos (show (0 : Fin S1000x64.rank) ∈ dot_S1000x64_S64x2000_S1000x2000_1_0_0_1_n_n.lhsNonContracting by decide)]
  rfl

theorem rhsCol_64_2000 (i : S1000x2000.Idx) (q : dot_S1000x64_S64x2000_S1000x2000_1_0_0_1_n_n.contr.Idx) : (dot_S1000x64_S64x2000_S1000x2000_1_0_0_1_n_n.rhsIdx i q 1).val = (i 1).val := by
  unfold DotDims.rhsIdx
  rw [dif_neg (show ¬(1 : Fin S64x2000.rank) ∈ dot_S1000x64_S64x2000_S1000x2000_1_0_0_1_n_n.rhsBatch by decide), dif_pos (show (1 : Fin S64x2000.rank) ∈ dot_S1000x64_S64x2000_S1000x2000_1_0_0_1_n_n.rhsNonContracting by decide)]
  rfl

/-- The product into a zero accumulator, at row `r` and column `j`: the sum over the contracted axis. -/
theorem rowDot_64_2000 {φ₁ φ₂ : FTy} (a : FVec Ideal S1000x64 φ₁) (w : FVec Ideal S64x2000 φ₂) (r : Fin 1000) (j : Fin 2000) :
    matmul dot_S1000x64_S64x2000_S1000x2000_1_0_0_1_n_n none a w (constant S1000x2000 .f32 0x00000000#32) (ix2 r j) = ∑ k : Fin 64, a (ix2 r k) * w (ix2 k j) := by
  refine (Ideal.matmul_constant_zero_apply dot_S1000x64_S64x2000_S1000x2000_1_0_0_1_n_n none a w (ix2 r j)).trans ?_
  rw [← Equiv.sum_comp (ValueIdx.contrEquiv1 dot_S1000x64_S64x2000_S1000x2000_1_0_0_1_n_n 64 rfl rfl).symm]
  refine Finset.sum_congr rfl fun k _ => ?_
  have hk := ValueIdx.contrEquiv1_symm_val dot_S1000x64_S64x2000_S1000x2000_1_0_0_1_n_n 64 rfl rfl k
  have el : dot_S1000x64_S64x2000_S1000x2000_1_0_0_1_n_n.lhsIdx (ix2 r j) ((ValueIdx.contrEquiv1 dot_S1000x64_S64x2000_S1000x2000_1_0_0_1_n_n 64 rfl rfl).symm k) = ix2 r k := funext fun ax => Fin.ext (by
    match ax with
    | ⟨0, _⟩ => exact lhsRow_64_2000 _ _
    | ⟨1, _⟩ => exact (dot_S1000x64_S64x2000_S1000x2000_1_0_0_1_n_n.lhsIdx_val_of_single rfl _ _).trans hk)
  have er : dot_S1000x64_S64x2000_S1000x2000_1_0_0_1_n_n.rhsIdx (ix2 r j) ((ValueIdx.contrEquiv1 dot_S1000x64_S64x2000_S1000x2000_1_0_0_1_n_n 64 rfl rfl).symm k) = ix2 k j := funext fun ax => Fin.ext (by
    match ax with
    | ⟨0, _⟩ => exact (dot_S1000x64_S64x2000_S1000x2000_1_0_0_1_n_n.rhsIdx_val_of_single rfl _ _).trans hk
    | ⟨1, _⟩ => exact rhsCol_64_2000 _ _)
  rw [el, er]

/-- The linear layer on a block: the product plus the bias row broadcast down the rows, at `(r, j)`. -/
theorem layer_64_2000 {φ₁ φ₂ : FTy} (a : FVec Ideal S1000x64 φ₁) (w : FVec Ideal S64x2000 φ₂) (b : FVec Ideal S1x2000 .f32) (r : Fin 1000) (j : Fin 2000) :
    addf (matmul dot_S1000x64_S64x2000_S1000x2000_1_0_0_1_n_n none a w (constant S1000x2000 .f32 0x00000000#32))
        (broadcastTo S1000x2000 (shapeCast S1x2000 b shapeCasts_S1x2000_S1x2000) broadcasts_S1x2000_S1000x2000) (ix2 r j)
      = Cert.Gnn.lin (fun k => a (ix2 r k)) (fun k q => w (ix2 k q)) (fun q => b (ix2 (0 : Fin 1) q)) j := by
  rw [addf_apply, rowDot_64_2000, broadcastTo_1b_ab_apply, shapeCast_self]
  rfl

end Cert.KernelIdeal.Layers

end
-- ==== Proof.KPay.lean ====
/-
  The kernels' store payloads read at an entry, over the extended reals, in the row vocabulary of the common
  specification. On a block of 1000 rows:
    * the first kernel stores `z = x · W1 + b1` (`lin` of the block's row), and adds to two running rows the column
      sums of the block of `z` and of its squares;
    * the second stores the embedding `h` — the normalised row through a linear layer (`embedRow`) — and two heads of
      the same row of `h` (`headRow`);
    * the third stores the third head of the row of the neighbour average.
  Every bias and statistic reaches a kernel as a one-row matrix (`row0`).
-/
import proofs.«151171_j14886356648152_1_alg».proof.Proof.Gen.KernelIdeal.Skeleton
import proofs.«151171_j14886356648152_1_alg».proof.Proof.KLayers

noncomputable section

namespace Cert.KernelIdeal.Pay

open Cert.KernelIdeal Cert.KernelIdeal.Gen Cert.KernelIdeal.Layers Cert.Gnn
open Idealize.ShloMosaic Idealize.ShloMosaic.ValueIdx

/-- The index a lane sum over the rows reads its source at: row `r` of column `j`. -/
theorem liftRow (j : Fin 64) (r : Fin 1000) : reduces_S1000x64_S64.lift (ix1 j) r = (ix2 r j : S1000x64.Idx) :=
  funext fun ax => Fin.ext (by match ax with | ⟨0, _⟩ => rfl | ⟨1, _⟩ => rfl)

/-! ## The first kernel -/

/-- The block of `z`: the first linear layer on the block's row. -/
theorem zBlock_apply (x : Vec Ideal S1000x2000 .f32) (W : Vec Ideal S2000x64 .f32) (b : Vec Ideal S1x64 .f32)
    (r : Fin 1000) (j : Fin 64) :
    k0_pay3 x W b (ix2 r j) = lin (fun k => x (ix2 r k)) (fun k q => W (ix2 k q)) (fun q => b (ix2 (0 : Fin 1) q)) j := by
  unfold k0_pay3
  exact layer_2000_64 _ _ b r j

/-- The running row of column sums: what it held plus the block's column sum. -/
theorem sumBlock_apply (x : Vec Ideal S1000x2000 .f32) (W : Vec Ideal S2000x64 .f32) (b acc : Vec Ideal S1x64 .f32)
    (u : Fin 1) (j : Fin 64) :
    k0_pay4 x W b acc (ix2 u j) = acc (ix2 u j) + ∑ r : Fin 1000, k0_pay3 x W b (ix2 r j) := by
  unfold k0_pay4
  rw [addf_apply, shapeCast_self, shapeCast_a_1a_apply]
  refine congrArg (acc (ix2 u j) + ·) ?_
  refine (Ideal.multiReduction_add_single (k0_pay3 x W b) 0x00000000#32 reduces_S1000x64_S64 (.inl rfl) rfl (ix1 j)).trans ?_
  exact Finset.sum_congr rfl fun r _ => congrArg (k0_pay3 x W b) (liftRow j r)

/-- The running row of column sums of squares. -/
theorem sumSqBlock_apply (x : Vec Ideal S1000x2000 .f32) (W : Vec Ideal S2000x64 .f32) (b acc : Vec Ideal S1x64 .f32)
    (u : Fin 1) (j : Fin 64) :
    k0_pay5 x W b acc (ix2 u j)
      = acc (ix2 u j) + ∑ r : Fin 1000, k0_pay3 x W b (ix2 r j) * k0_pay3 x W b (ix2 r j) := by
  unfold k0_pay5
  rw [addf_apply, shapeCast_self, shapeCast_a_1a_apply]
  refine congrArg (acc (ix2 u j) + ·) ?_
  refine (Ideal.multiReduction_add_single (mulf (k0_pay3 x W b) (k0_pay3 x W b)) 0x00000000#32 reduces_S1000x64_S64 (.inl rfl) rfl (ix1 j)).trans ?_
  exact Finset.sum_congr rfl fun r _ => by rw [liftRow j r]; rfl

/-- The two rows as the first point resets them: zero. -/
theorem zeroRow_apply (u : Fin 1) (j : Fin 64) : (k0_pay1 (F := Ideal)) (ix2 u j) = zeroW := rfl
theorem zeroRow'_apply (u : Fin 1) (j : Fin 64) : (k0_pay2 (F := Ideal)) (ix2 u j) = zeroW := rfl

/-! ## The second kernel -/

/-- The normalised row, as the body spells it before its second linear layer. -/
theorem embedBlock_apply (z : Vec Ideal S1000x64 .f32) (γ μ v β : Vec Ideal S1x64 .f32) (W2 : Vec Ideal S64x64 .f32)
    (b2 : Vec Ideal S1x64 .f32) (r : Fin 1000) (j : Fin 64) :
    k1_pay3 z γ μ v β W2 b2 (ix2 r j)
      = embedRow (row0 γ) (row0 β) (mat W2) (row0 b2) (row0 μ) (row0 v) (fun k => z (ix2 r k)) j := by
  unfold k1_pay3
  refine (layer_64_64 _ _ b2 r j).trans ?_
  unfold embedRow
  refine congrArg (fun a => lin a (mat W2) (row0 b2) j) (funext fun k => ?_)
  simp only [truncf_apply, maximumf_apply, addf_apply, mulf_apply, subf_apply, broadcast_apply, broadcastTo_1b_ab_apply,
    shapeCast_self]
  rfl

/-- The narrowed copy of `h` the heads read is `h`. -/
theorem embedNarrow_apply (z : Vec Ideal S1000x64 .f32) (γ μ v β : Vec Ideal S1x64 .f32) (W2 : Vec Ideal S64x64 .f32)
    (b2 : Vec Ideal S1x64 .f32) (i : S1000x64.Idx) : k1_pay4 z γ μ v β W2 b2 i = k1_pay3 z γ μ v β W2 b2 i := rfl

/-- The position head's first product, before its bias. -/
theorem posDot_apply (z : Vec Ideal S1000x64 .f32) (γ μ v β : Vec Ideal S1x64 .f32) (W2 : Vec Ideal S64x64 .f32)
    (b2 : Vec Ideal S1x64 .f32) (Wp1 : Vec Ideal S64x64 .f32) (r : Fin 1000) (j : Fin 64) :
    k1_pay5 z γ μ v β W2 b2 Wp1 (ix2 r j) = ∑ k : Fin 64, k1_pay3 z γ μ v β W2 b2 (ix2 r k) * Wp1 (ix2 k j) := by
  unfold k1_pay5
  exact rowDot_64_64 _ _ r j

/-- The position head from its first product `d`: bias, relu, linear. -/
theorem posBlock_apply (d : FVec Ideal S1000x64 .f32) (bp1 : Vec Ideal S1x64 .f32) (Wp2 : Vec Ideal S64x2 .f32)
    (bp2 : Vec Ideal S1x2 .f32) (r : Fin 1000) (j : Fin 2) :
    k1_pay1 d bp1 Wp2 bp2 (ix2 r j)
      = lin (fun k => relu (d (ix2 r k) + bp1 (ix2 (0 : Fin 1) k))) (mat Wp2) (row0 bp2) j := by
  unfold k1_pay1
  refine (layer_64_2 _ _ bp2 r j).trans ?_
  refine congrArg (fun a => lin a (mat Wp2) (row0 bp2) j) (funext fun k => ?_)
  simp only [truncf_apply, maximumf_apply, addf_apply, broadcast_apply, broadcastTo_1b_ab_apply, shapeCast_self]
  rfl

/-- A head of 2000 columns of a row `h`: the own-expression head of the second kernel. -/
theorem selfBlock_apply {φ : FTy} (h : FVec Ideal S1000x64 φ) (Ws1 : Vec Ideal S64x64 .f32) (bs1 : Vec Ideal S1x64 .f32)
    (Ws2 : Vec Ideal S64x2000 .f32) (bs2 : Vec Ideal S1x2000 .f32) (r : Fin 1000) (j : Fin 2000) :
    k1_pay2 h Ws1 bs1 Ws2 bs2 (ix2 r j)
      = headRow (mat Ws1) (row0 bs1) (mat Ws2) (row0 bs2) (fun k => h (ix2 r k)) j := by
  unfold k1_pay2
  refine (layer_64_2000 _ _ bs2 r j).trans ?_
  unfold headRow
  refine congrArg (fun a => lin a (mat Ws2) (row0 bs2) j) (funext fun k => ?_)
  simp only [truncf_apply, maximumf_apply, broadcast_apply]
  exact congrArg relu (layer_64_64 _ _ bs1 r k)

/-! ## The third kernel -/

/-- The neighbour head of a row of the neighbour average. -/
theorem nbrBlock_apply (h : Vec Ideal S1000x64 .f32) (We1 : Vec Ideal S64x64 .f32) (be1 : Vec Ideal S1x64 .f32)
    (We2 : Vec Ideal S64x2000 .f32) (be2 : Vec Ideal S1x2000 .f32) (r : Fin 1000) (j : Fin 2000) :
    k2_pay1 h We1 be1 We2 be2 (ix2 r j)
      = headRow (mat We1) (row0 be1) (mat We2) (row0 be2) (fun k => h (ix2 r k)) j := by
  unfold k2_pay1
  rw [shapeCast_self h shapeCasts_S1000x64_S1000x64]
  refine (layer_64_2000 _ _ be2 r j).trans ?_
  unfold headRow
  refine congrArg (fun a => lin a (mat We2) (row0 be2) j) (funext fun k => ?_)
  simp only [truncf_apply, maximumf_apply, broadcast_apply]
  exact congrArg relu (layer_64_64 _ _ be1 r k)

end Cert.KernelIdeal.Pay

end
-- ==== Proof.RowBlocks.lean ====
/-
  The 50000 rows as 50 blocks of 1000: row `r` of block `t` is row `1000 t + r`, and a sum over the blocks of the
  sums over a block's rows is the sum over all rows (in a commutative monoid: the order and grouping of a sum of
  extended reals do not matter).
-/
import Mathlib.Algebra.BigOperators.Fin
import Mathlib.Logic.Equiv.Fin.Basic

namespace Cert.Gnn

/-- Row `r` of block `t`, as a row of the whole matrix. -/
def rowOf (t : Fin 50) (r : Fin 1000) : Fin 50000 := ⟨t.val * 1000 + r.val, by have := t.isLt; have := r.isLt; omega⟩

theorem rowOf_val (t : Fin 50) (r : Fin 1000) : (rowOf t r).val = t.val * 1000 + r.val := rfl

/-- A sum over all rows, block by block. -/
theorem sum_rowBlocks {M : Type*} [AddCommMonoid M] (f : Fin 50000 → M) :
    ∑ t : Fin 50, ∑ r : Fin 1000, f (rowOf t r) = ∑ i : Fin 50000, f i := by
  rw [← Fintype.sum_prod_type']
  refine Fintype.sum_equiv (finProdFinEquiv (m := 50) (n := 1000)) _ _ fun x => ?_
  refine congrArg f (Fin.ext ?_)
  show x.1.val * 1000 + x.2.val = (finProdFinEquiv x).val
  rw [finProdFinEquiv_apply_val]
  omega

end Cert.Gnn
-- ==== Proof.KRegion0.lean ====
/-
  The first kernel, read as values. At grid point `t` it is given block `t` of `x` (rows 1000 t … 1000 t + 999), the
  whole of `W1` and the bias row, and it writes block `t` of `z = x · W1 + b1`; it also keeps two rows that stay in
  place across the whole grid — reset to zero at the first point, increased at every point by the block's column sums of
  `z` and of `z²`, written back once after the last point. So after the region the first array is `z`, and the two rows
  hold `0 + ∑ₜ ∑ᵣ z (1000 t + r, j)` and the same of the squares: regrouped (addition of extended reals is commutative
  and associative), the sums over all 50000 rows.
-/
import proofs.«151171_j14886356648152_1_alg».proof.Proof.Gen.KernelIdeal.Frame
import proofs.«151171_j14886356648152_1_alg».proof.Proof.KPay
import proofs.«151171_j14886356648152_1_alg».proof.Proof.RowBlocks
import Idealize.ShloMosaic.Lib.Pipeline.Value

set_option maxRecDepth 16384

noncomputable section

namespace Cert.KernelIdeal.Region0

open Cert.KernelIdeal Cert.KernelIdeal.Gen Cert.Gnn
open Idealize.ShloMosaic Idealize.ShloMosaic.TcCoe Idealize.ShloMosaic.ValueIdx Idealize.SL.Sem
open Idealize.ShloMosaic.Pipeline (Dat)

-- the buffers' contents when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- A grid point as a block number. -/
def pt0 (t : Fin cfg0.N) : Fin 50 := ⟨t.val, Nat.lt_of_lt_of_eq t.isLt N_0⟩

variable {F : FTy → Type} [FloatOps F]

open Idealize.ShloMosaic.Tactic

/-! ## What each case of the body leaves in each output's staging buffer -/

theorem outZ_A (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x2000 .f32) (x1 : Vec F S2000x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

theorem outS_A (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x2000 .f32) (x1 : Vec F S2000x64 .f32) (x2 : Vec F S1x64 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

theorem outQ_A (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S1000x2000 .f32) (x1 : Vec F S2000x64 .f32) (x2 : Vec F S1x64 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

theorem outZ_B (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x2000 .f32) (x1 : Vec F S2000x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

theorem outS_B (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x2000 .f32) (x1 : Vec F S2000x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

theorem outQ_B (c : Dev nD) (i : grid0.Coords) (a1 : Memref sig .tc .vmem S1000x2000 .f32) (h1 : a1.IsWhole) (a2 : Memref sig .tc .vmem S2000x64 .f32) (h2 : a2.IsWhole) (a3 : Memref sig .tc .vmem S1x64 .f32) (h3 : a3.IsWhole) (a4 : Memref sig .tc .vmem S1000x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S1000x2000 .f32) (x1 : Vec F S2000x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S1000x2000) hz, View.ld_unit_zero (S := S2000x64) hz, View.ld_unit_zero (S := S1x64) hz]

/-! ## The operands' blocks -/

theorem idx0_1 : ∀ t : Fin cfg0.N, win0_1.index t (0 : Fin 2) = 0 ∧ win0_1.index t (1 : Fin 2) = 0 :=
  (by decide +kernel : ∀ t : Fin grid0.N, _)

theorem whole0_1 (c : Dev nD) (t : Fin cfg0.N) : (iblk0 V c 1 t : S2000x64.Idx → EReal) = V c main_arg2 := by
  obtain ⟨e0, e1⟩ := idx0_1 t
  funext y
  unfold iblk0
  rw [View.read_apply]
  show V c main_arg2 (((cfg0.win 1).blk t).view.emb y) = V c main_arg2 y
  congr 1
  funext a; apply Fin.ext
  match a with
  | ⟨0, _⟩ => show win0_1.index t (0 : Fin 2) * 2000 + 1 * (y 0).val = (y 0).val; omega
  | ⟨1, _⟩ => show win0_1.index t (1 : Fin 2) * 64 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)

theorem whole0_2 (c : Dev nD) (t : Fin cfg0.N) : (iblk0 V c 2 t : S1x64.Idx → EReal) = V c main_v0 := by
  obtain ⟨e0, e1⟩ := idx0_2 t
  funext y
  unfold iblk0
  rw [View.read_apply]
  show V c main_v0 (((cfg0.win 2).blk t).view.emb y) = V c main_v0 y
  congr 1
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem idx0_0 : ∀ t : Fin cfg0.N, win0_0.index t (0 : Fin 2) = t.val ∧ win0_0.index t (1 : Fin 2) = 0 :=
  (by decide +kernel : ∀ t : Fin grid0.N, _)

/-- Entry `(r, j)` of block `t` of window 0 is entry `(1000 t + r, j)` of its array. -/
theorem emb0_0 (t : Fin cfg0.N) (r : Fin 1000) (j : Fin 2000) :
    ((cfg0.win 0).blk t).view.emb (ix2 r j) = (ix2 (rowOf (pt0 t) r) j : S50000x2000.Idx) := by
  obtain ⟨e0, e1⟩ := idx0_0 t
  funext a; apply Fin.ext
  match a with
  | ⟨0, _⟩ => show win0_0.index t (0 : Fin 2) * 1000 + 1 * r.val = t.val * 1000 + r.val; omega
  | ⟨1, _⟩ => show win0_0.index t (1 : Fin 2) * 2000 + 1 * j.val = j.val; omega

theorem idx0_3 : ∀ t : Fin cfg0.N, win0_3.index t (0 : Fin 2) = t.val ∧ win0_3.index t (1 : Fin 2) = 0 :=
  (by decide +kernel : ∀ t : Fin grid0.N, _)

/-- Entry `(r, j)` of block `t` of window 3 is entry `(1000 t + r, j)` of its array. -/
theorem emb0_3 (t : Fin cfg0.N) (r : Fin 1000) (j : Fin 64) :
    ((cfg0.win 3).blk t).view.emb (ix2 r j) = (ix2 (rowOf (pt0 t) r) j : S50000x64.Idx) := by
  obtain ⟨e0, e1⟩ := idx0_3 t
  funext a; apply Fin.ext
  match a with
  | ⟨0, _⟩ => show win0_3.index t (0 : Fin 2) * 1000 + 1 * r.val = t.val * 1000 + r.val; omega
  | ⟨1, _⟩ => show win0_3.index t (1 : Fin 2) * 64 + 1 * j.val = j.val; omega

/-! ## Point by point -/

/-- Row `p` of `z`, from the operands as the region finds them. -/
def zRowK (c : Dev nD) (p : Fin 50000) : Fin 64 → EReal :=
  lin (fun k => V c main_arg0 (ix2 p k)) (mat (V c main_arg2)) (row0 (V c main_v0))

def zArrK (c : Dev nD) : S50000x64.Idx → EReal := fun i => zRowK V c (i 0) (i 1)

/-- The block of `z` point `t` computes. -/
def zBlk (c : Dev nD) (t : Fin cfg0.N) : Vec Ideal S1000x64 .f32 := k0_pay3 (iblk0 V c 0 t) (iblk0 V c 1 t) (iblk0 V c 2 t)

theorem zBlk_apply (c : Dev nD) (t : Fin cfg0.N) (r : Fin 1000) (j : Fin 64) :
    zBlk V c t (ix2 r j) = zRowK V c (rowOf (pt0 t) r) j := by
  unfold zBlk
  rw [whole0_1 V c t, whole0_2 V c t]
  refine (Pay.zBlock_apply _ _ _ r j).trans ?_
  unfold zRowK
  refine congrArg (fun a => lin a (mat (V c main_arg2)) (row0 (V c main_v0)) j) (funext fun k => ?_)
  unfold iblk0
  rw [View.read_apply]
  exact congrArg (V c main_arg0) (emb0_0 t r k)

/-- After any point the first output's buffer holds that point's block of `z`. -/
theorem outsAt_z (c : Dev nD) (t : Fin cfg0.N) : (outsAt0 V c t.val t.isLt).1 = zBlk V c t := by
  by_cases h0 : t.val % 50 = 0
  · rw [outsAt0_A V c t h0]
    dsimp only
    exact (outZ_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
  · rw [outsAt0_B V c t h0]
    dsimp only
    exact (outZ_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h0 ((hcond0_0 t).mp h')) (iblk0 V c 0 t) (iblk0 V c 1 t) (iblk0 V c 2 t) _ _)

/-- The column sums of the block of point number `n` (zero past the grid). -/
def blkSum (c : Dev nD) (j : Fin 64) (n : ℕ) : EReal :=
  if h : n < cfg0.N then ∑ r : Fin 1000, zBlk V c ⟨n, h⟩ (ix2 r j) else 0
def blkSumSq (c : Dev nD) (j : Fin 64) (n : ℕ) : EReal :=
  if h : n < cfg0.N then ∑ r : Fin 1000, zBlk V c ⟨n, h⟩ (ix2 r j) * zBlk V c ⟨n, h⟩ (ix2 r j) else 0

/-- After point `n` the running rows hold zero plus the block sums of the points so far. -/
theorem outsAt_s (c : Dev nD) : ∀ (n : ℕ) (h : n < cfg0.N) (u : Fin 1) (j : Fin 64),
    (outsAt0 V c n h).2.1 (ix2 u j) = zeroW + ∑ n' ∈ Finset.range (n + 1), blkSum V c j n'
  | 0, h, u, j => by
    rw [outsAt0_A V c ⟨0, h⟩ rfl]
    dsimp only
    rw [outS_A, Pay.sumBlock_apply, Pay.zeroRow_apply, Finset.sum_range_one]
    unfold blkSum
    rw [dif_pos h]
    rfl
  | n + 1, h, u, j => by
    have hN : cfg0.N = 50 := N_0
    have hB : ¬(⟨n + 1, h⟩ : Fin cfg0.N).val % 50 = 0 := by dsimp only; omega
    rw [outsAt0_B V c ⟨n + 1, h⟩ hB]
    dsimp only
    rw [outS_B, Pay.sumBlock_apply]
    show (outsAt0 V c n (Nat.lt_of_succ_lt h)).2.1 (ix2 u j) + _ = _
    rw [outsAt_s c n (Nat.lt_of_succ_lt h) u j, Finset.sum_range_succ _ (n + 1), add_assoc]
    congr 2
    unfold blkSum
    rw [dif_pos h]
    rfl

theorem outsAt_q (c : Dev nD) : ∀ (n : ℕ) (h : n < cfg0.N) (u : Fin 1) (j : Fin 64),
    (outsAt0 V c n h).2.2 (ix2 u j) = zeroW + ∑ n' ∈ Finset.range (n + 1), blkSumSq V c j n'
  | 0, h, u, j => by
    rw [outsAt0_A V c ⟨0, h⟩ rfl]
    dsimp only
    rw [outQ_A, Pay.sumSqBlock_apply, Pay.zeroRow'_apply, Finset.sum_range_one]
    unfold blkSumSq
    rw [dif_pos h]
    rfl
  | n + 1, h, u, j => by
    have hN : cfg0.N = 50 := N_0
    have hB : ¬(⟨n + 1, h⟩ : Fin cfg0.N).val % 50 = 0 := by dsimp only; omega
    rw [outsAt0_B V c ⟨n + 1, h⟩ hB]
    dsimp only
    rw [outQ_B, Pay.sumSqBlock_apply]
    show (outsAt0 V c n (Nat.lt_of_succ_lt h)).2.2 (ix2 u j) + _ = _
    rw [outsAt_q c n (Nat.lt_of_succ_lt h) u j, Finset.sum_range_succ _ (n + 1), add_assoc]
    congr 2
    unfold blkSumSq
    rw [dif_pos h]
    rfl

/-! ## The totals, regrouped into sums over all rows -/

theorem total_blocks (c : Dev nD) (f : EReal → EReal) (g : Fin 64 → ℕ → EReal) (j : Fin 64)
    (hg : ∀ (n : ℕ) (h : n < cfg0.N), g j n = ∑ r : Fin 1000, f (zBlk V c ⟨n, h⟩ (ix2 r j))) :
    ∑ n' ∈ Finset.range (49 + 1), g j n' = ∑ p : Fin 50000, f (zRowK V c p j) := by
  have hN : cfg0.N = 50 := N_0
  rw [← sum_rowBlocks (fun p => f (zRowK V c p j)), Finset.sum_range]
  refine Finset.sum_congr rfl fun t _ => ?_
  rw [hg t.val (by rw [hN]; exact t.isLt)]
  refine Finset.sum_congr rfl fun r _ => ?_
  rw [zBlk_apply]
  rfl

/-- The two rows after the region. -/
def sumArr (c : Dev nD) : S1x64.Idx → EReal := fun i => zeroW + ∑ n' ∈ Finset.range (49 + 1), blkSum V c (i 1) n'
def sumSqArr (c : Dev nD) : S1x64.Idx → EReal := fun i => zeroW + ∑ n' ∈ Finset.range (49 + 1), blkSumSq V c (i 1) n'

theorem sumArr_apply (c : Dev nD) (u : Fin 1) (j : Fin 64) :
    sumArr V c (ix2 u j) = zeroW + ∑ p : Fin 50000, zRowK V c p j := by
  show zeroW + ∑ n' ∈ Finset.range (49 + 1), blkSum V c j n' = _
  rw [total_blocks V c (fun e => e) (blkSum V c) j (fun n h => by unfold blkSum; rw [dif_pos h])]

theorem sumSqArr_apply (c : Dev nD) (u : Fin 1) (j : Fin 64) :
    sumSqArr V c (ix2 u j) = zeroW + ∑ p : Fin 50000, zRowK V c p j * zRowK V c p j := by
  show zeroW + ∑ n' ∈ Finset.range (49 + 1), blkSumSq V c j n' = _
  rw [total_blocks V c (fun e => e * e) (blkSumSq V c) j (fun n h => by unfold blkSumSq; rw [dif_pos h])]

/-! ## What is written back, and the arrays after the region -/

theorem flushedZ_eq (c : Dev nD) (t : Fin cfg0.N) :
    (dat0 V c).flushed 3 t = ((cfg0.win 3).blk t).view.read (Elt Ideal) (zArrK V c) := by
  show (cfg0.win 3).cut (grid0.coords t) ((dat0 V c).after 3 t) = _
  rw [after0_3, outsAt_z]
  funext y
  obtain ⟨r, j, rfl⟩ : ∃ (r : Fin 1000) (j : Fin 64), y = ix2 r j := ⟨y 0, y 1, eq_ix2 y⟩
  rw [View.read_apply, emb0_3 t r j]
  exact zBlk_apply V c t r j

/-- An index of window 3's array is in point `t`'s block iff each coordinate is in the block's range on its axis. -/
theorem mem0_3 (t : Fin cfg0.N) (i : S50000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v1_0).slice (win0_3.rect t)).set ↔ _
  rw [View.set_slice_whole, Rect.mem_set_unit]
  exact Iff.rfl

/-- Every row lies in the block of the point `row / 1000`. -/
theorem cover0_3 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 50 := N_0
  refine ⟨⟨(i 0).val / 1000, by rw [hN]; omega⟩, flush0_3 _, ?_⟩
  rw [mem0_3]
  obtain ⟨e0, e1⟩ := idx0_3 ⟨(i 0).val / 1000, by rw [hN]; omega⟩
  intro a
  match a with
  | ⟨0, _⟩ => show win0_3.index _ (0 : Fin 2) * 1000 ≤ (i 0).val ∧ (i 0).val < win0_3.index _ (0 : Fin 2) * 1000 + 1000; rw [e0]; dsimp only; omega
  | ⟨1, _⟩ => show win0_3.index _ (1 : Fin 2) * 64 ≤ (i 1).val ∧ (i 1).val < win0_3.index _ (1 : Fin 2) * 64 + 64; rw [e1]; omega

theorem idx0_4 : ∀ t : Fin cfg0.N, win0_4.index t (0 : Fin 2) = 0 ∧ win0_4.index t (1 : Fin 2) = 0 :=
  (by decide +kernel : ∀ t : Fin grid0.N, _)

theorem emb0_4 (t : Fin cfg0.N) (u : Fin 1) (j : Fin 64) :
    ((cfg0.win 4).blk t).view.emb (ix2 u j) = (ix2 u j : S1x64.Idx) := by
  obtain ⟨e0, e1⟩ := idx0_4 t
  funext a; apply Fin.ext
  match a with
  | ⟨0, _⟩ => show win0_4.index t (0 : Fin 2) * 1 + 1 * u.val = u.val; omega
  | ⟨1, _⟩ => show win0_4.index t (1 : Fin 2) * 64 + 1 * j.val = j.val; omega

/-- The one write-back of this row, after the last point, writes the total. -/
theorem flushedS_eq (c : Dev nD) (t : Fin cfg0.N) (hf : (cfg0.win 4).flush t = true) :
    (dat0 V c).flushed 4 t = ((cfg0.win 4).blk t).view.read (Elt Ideal) (sumArr V c) := by
  have hN : cfg0.N = 50 := N_0
  have h49 : t.val = 49 := by have := (flush0_4 t).mp hf; have := t.isLt; omega
  show (cfg0.win 4).cut (grid0.coords t) ((dat0 V c).after 4 t) = _
  rw [after0_4]
  funext y
  obtain ⟨u, j, rfl⟩ : ∃ (u : Fin 1) (j : Fin 64), y = ix2 u j := ⟨y 0, y 1, eq_ix2 y⟩
  rw [View.read_apply, emb0_4 t u j]
  obtain ⟨n, hn⟩ := t
  dsimp only at h49
  show (outsAt0 V c n hn).2.1 (ix2 u j) = zeroW + ∑ n' ∈ Finset.range (49 + 1), blkSum V c j n'
  rw [outsAt_s V c n hn u j, h49]

theorem mem0_4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v1_1).slice (win0_4.rect t)).set ↔ _
  rw [View.set_slice_whole, Rect.mem_set_unit]
  exact Iff.rfl

theorem cover0_4 (i : S1x64.Idx) : ∃ t : Fin cfg0.N, (cfg0.win 4).flush t = true ∧ i ∈ ((cfg0.win 4).blk t).view.set := by
  have hi0 : (i 0).val < 1 := (i 0).isLt
  have hi1 : (i 1).val < 64 := (i 1).isLt
  have hN : cfg0.N = 50 := N_0
  refine ⟨⟨49, by rw [hN]; omega⟩, (flush0_4 _).mpr (by dsimp only), ?_⟩
  rw [mem0_4]
  obtain ⟨e0, e1⟩ := idx0_4 ⟨49, by rw [hN]; omega⟩
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 64 ≤ (i 1).val ∧ (i 1).val < win0_4.index _ (1 : Fin 2) * 64 + 64; rw [e1]; omega

theorem idx0_5 : ∀ t : Fin cfg0.N, win0_5.index t (0 : Fin 2) = 0 ∧ win0_5.index t (1 : Fin 2) = 0 :=
  (by decide +kernel : ∀ t : Fin grid0.N, _)

theorem emb0_5 (t : Fin cfg0.N) (u : Fin 1) (j : Fin 64) :
    ((cfg0.win 5).blk t).view.emb (ix2 u j) = (ix2 u j : S1x64.Idx) := by
  obtain ⟨e0, e1⟩ := idx0_5 t
  funext a; apply Fin.ext
  match a with
  | ⟨0, _⟩ => show win0_5.index t (0 : Fin 2) * 1 + 1 * u.val = u.val; omega
  | ⟨1, _⟩ => show win0_5.index t (1 : Fin 2) * 64 + 1 * j.val = j.val; omega

/-- The one write-back of this row, after the last point, writes the total. -/
theorem flushedQ_eq (c : Dev nD) (t : Fin cfg0.N) (hf : (cfg0.win 5).flush t = true) :
    (dat0 V c).flushed 5 t = ((cfg0.win 5).blk t).view.read (Elt Ideal) (sumSqArr V c) := by
  have hN : cfg0.N = 50 := N_0
  have h49 : t.val = 49 := by have := (flush0_5 t).mp hf; have := t.isLt; omega
  show (cfg0.win 5).cut (grid0.coords t) ((dat0 V c).after 5 t) = _
  rw [after0_5]
  funext y
  obtain ⟨u, j, rfl⟩ : ∃ (u : Fin 1) (j : Fin 64), y = ix2 u j := ⟨y 0, y 1, eq_ix2 y⟩
  rw [View.read_apply, emb0_5 t u j]
  obtain ⟨n, hn⟩ := t
  dsimp only at h49
  show (outsAt0 V c n hn).2.2 (ix2 u j) = zeroW + ∑ n' ∈ Finset.range (49 + 1), blkSumSq V c j n'
  rw [outsAt_q V c n hn u j, h49]

theorem mem0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v1_2).slice (win0_5.rect t)).set ↔ _
  rw [View.set_slice_whole, Rect.mem_set_unit]
  exact Iff.rfl

theorem cover0_5 (i : S1x64.Idx) : ∃ t : Fin cfg0.N, (cfg0.win 5).flush t = true ∧ i ∈ ((cfg0.win 5).blk t).view.set := by
  have hi0 : (i 0).val < 1 := (i 0).isLt
  have hi1 : (i 1).val < 64 := (i 1).isLt
  have hN : cfg0.N = 50 := N_0
  refine ⟨⟨49, by rw [hN]; omega⟩, (flush0_5 _).mpr (by dsimp only), ?_⟩
  rw [mem0_5]
  obtain ⟨e0, e1⟩ := idx0_5 ⟨49, by rw [hN]; omega⟩
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 64 ≤ (i 1).val ∧ (i 1).val < win0_5.index _ (1 : Fin 2) * 64 + 64; rw [e1]; omega

theorem finalZ (c : Dev nD) : (dat0 V c).arrAt 3 cfg0.N = zArrK V c :=
  (dat0 V c).arrAt_eq_of_cover 3 (zArrK V c) (fun t _ => flushedZ_eq V c t) (cover0_3)

theorem finalS (c : Dev nD) : (dat0 V c).arrAt 4 cfg0.N = sumArr V c :=
  (dat0 V c).arrAt_eq_of_cover 4 (sumArr V c) (flushedS_eq V c) (cover0_4)

theorem finalQ (c : Dev nD) : (dat0 V c).arrAt 5 cfg0.N = sumSqArr V c :=
  (dat0 V c).arrAt_eq_of_cover 5 (sumSqArr V c) (flushedQ_eq V c) (cover0_5)

end Cert.KernelIdeal.Region0

end
-- ==== Proof.KRegion1.lean ====
/-
  The second kernel, read as values. At every grid point `t` it is given block `t` (rows 1000 t … 1000 t + 999) of
  `z` and the whole of every other operand, and writes block `t` of three arrays: the embedding `h` of those rows, and
  the position head and the own-expression head of the same rows of `h`. Each block is the restriction of ONE row-wise
  function of the operand arrays, and the 50 blocks tile the arrays, so after the region each array IS that function.
-/
import proofs.«151171_j14886356648152_1_alg».proof.Proof.Gen.KernelIdeal.Frame
import proofs.«151171_j14886356648152_1_alg».proof.Proof.KPay
import proofs.«151171_j14886356648152_1_alg».proof.Proof.RowBlocks
import Idealize.ShloMosaic.Lib.Pipeline.Value

set_option maxRecDepth 16384

noncomputable section

namespace Cert.KernelIdeal.Region1

open Cert.KernelIdeal Cert.KernelIdeal.Gen Cert.Gnn
open Idealize.ShloMosaic Idealize.ShloMosaic.TcCoe Idealize.ShloMosaic.ValueIdx Idealize.SL.Sem
open Idealize.ShloMosaic.Pipeline (Dat)

-- the buffers' contents when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- A grid point as a block number. -/
def pt1 (t : Fin cfg1.N) : Fin 50 := ⟨t.val, Nat.lt_of_lt_of_eq t.isLt N_1⟩

/-! ## The operands' blocks: every operand but `z` is read whole, `z` and the outputs by blocks of rows -/

theorem idx1_1 : ∀ t : Fin cfg1.N, win1_1.index t (0 : Fin 2) = 0 ∧ win1_1.index t (1 : Fin 2) = 0 :=
  (by decide +kernel : ∀ t : Fin grid1.N, _)

theorem whole1_1 (c : Dev nD) (t : Fin cfg1.N) : (iblk1 V c 1 t : S1x64.Idx → EReal) = V c main_v3 := by
  obtain ⟨e0, e1⟩ := idx1_1 t
  funext y
  unfold iblk1
  rw [View.read_apply]
  show V c main_v3 (((cfg1.win 1).blk t).view.emb y) = V c main_v3 y
  congr 1
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

theorem idx1_2 : ∀ t : Fin cfg1.N, win1_2.index t (0 : Fin 2) = 0 ∧ win1_2.index t (1 : Fin 2) = 0 :=
  (by decide +kernel : ∀ t : Fin grid1.N, _)

theorem whole1_2 (c : Dev nD) (t : Fin cfg1.N) : (iblk1 V c 2 t : S1x64.Idx → EReal) = V c main_v7 := by
  obtain ⟨e0, e1⟩ := idx1_2 t
  funext y
  unfold iblk1
  rw [View.read_apply]
  show V c main_v7 (((cfg1.win 2).blk t).view.emb y) = V c main_v7 y
  congr 1
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem idx1_3 : ∀ t : Fin cfg1.N, win1_3.index t (0 : Fin 2) = 0 ∧ win1_3.index t (1 : Fin 2) = 0 :=
  (by decide +kernel : ∀ t : Fin grid1.N, _)

theorem whole1_3 (c : Dev nD) (t : Fin cfg1.N) : (iblk1 V c 3 t : S1x64.Idx → EReal) = V c main_v8 := by
  obtain ⟨e0, e1⟩ := idx1_3 t
  funext y
  unfold iblk1
  rw [View.read_apply]
  show V c main_v8 (((cfg1.win 3).blk t).view.emb y) = V c main_v8 y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem idx1_4 : ∀ t : Fin cfg1.N, win1_4.index t (0 : Fin 2) = 0 ∧ win1_4.index t (1 : Fin 2) = 0 :=
  (by decide +kernel : ∀ t : Fin grid1.N, _)

theorem whole1_4 (c : Dev nD) (t : Fin cfg1.N) : (iblk1 V c 4 t : S1x64.Idx → EReal) = V c main_v9 := by
  obtain ⟨e0, e1⟩ := idx1_4 t
  funext y
  unfold iblk1
  rw [View.read_apply]
  show V c main_v9 (((cfg1.win 4).blk t).view.emb y) = V c main_v9 y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem idx1_5 : ∀ t : Fin cfg1.N, win1_5.index t (0 : Fin 2) = 0 ∧ win1_5.index t (1 : Fin 2) = 0 :=
  (by decide +kernel : ∀ t : Fin grid1.N, _)

theorem whole1_5 (c : Dev nD) (t : Fin cfg1.N) : (iblk1 V c 5 t : S64x64.Idx → EReal) = V c main_arg6 := by
  obtain ⟨e0, e1⟩ := idx1_5 t
  funext y
  unfold iblk1
  rw [View.read_apply]
  show V c main_arg6 (((cfg1.win 5).blk t).view.emb y) = V c main_arg6 y
  congr 1
  funext a; apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

theorem idx1_6 : ∀ t : Fin cfg1.N, win1_6.index t (0 : Fin 2) = 0 ∧ win1_6.index t (1 : Fin 2) = 0 :=
  (by decide +kernel : ∀ t : Fin grid1.N, _)

theorem whole1_6 (c : Dev nD) (t : Fin cfg1.N) : (iblk1 V c 6 t : S1x64.Idx → EReal) = V c main_v10 := by
  obtain ⟨e0, e1⟩ := idx1_6 t
  funext y
  unfold iblk1
  rw [View.read_apply]
  show V c main_v10 (((cfg1.win 6).blk t).view.emb y) = V c main_v10 y
  congr 1
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem idx1_7 : ∀ t : Fin cfg1.N, win1_7.index t (0 : Fin 2) = 0 ∧ win1_7.index t (1 : Fin 2) = 0 :=
  (by decide +kernel : ∀ t : Fin grid1.N, _)

theorem whole1_7 (c : Dev nD) (t : Fin cfg1.N) : (iblk1 V c 7 t : S64x64.Idx → EReal) = V c main_arg8 := by
  obtain ⟨e0, e1⟩ := idx1_7 t
  funext y
  unfold iblk1
  rw [View.read_apply]
  show V c main_arg8 (((cfg1.win 7).blk t).view.emb y) = V c main_arg8 y
  congr 1
  funext a; apply Fin.ext
  match a with
  | ⟨0, _⟩ => show win1_7.index t (0 : Fin 2) * 64 + 1 * (y 0).val = (y 0).val; omega
  | ⟨1, _⟩ => show win1_7.index t (1 : Fin 2) * 64 + 1 * (y 1).val = (y 1).val; omega

theorem idx1_8 : ∀ t : Fin cfg1.N, win1_8.index t (0 : Fin 2) = 0 ∧ win1_8.index t (1 : Fin 2) = 0 :=
  (by decide +kernel : ∀ t : Fin grid1.N, _)

theorem whole1_8 (c : Dev nD) (t : Fin cfg1.N) : (iblk1 V c 8 t : S1x64.Idx → EReal) = V c main_v11 := by
  obtain ⟨e0, e1⟩ := idx1_8 t
  funext y
  unfold iblk1
  rw [View.read_apply]
  show V c main_v11 (((cfg1.win 8).blk t).view.emb y) = V c main_v11 y
  congr 1
  funext a; apply Fin.ext
  match a with
  | ⟨0, _⟩ => show win1_8.index t (0 : Fin 2) * 1 + 1 * (y 0).val = (y 0).val; omega
  | ⟨1, _⟩ => show win1_8.index t (1 : Fin 2) * 64 + 1 * (y 1).val = (y 1).val; omega

theorem idx1_9 : ∀ t : Fin cfg1.N, win1_9.index t (0 : Fin 2) = 0 ∧ win1_9.index t (1 : Fin 2) = 0 :=
  (by decide +kernel : ∀ t : Fin grid1.N, _)

theorem whole1_9 (c : Dev nD) (t : Fin cfg1.N) : (iblk1 V c 9 t : S64x2.Idx → EReal) = V c main_arg10 := by
  obtain ⟨e0, e1⟩ := idx1_9 t
  funext y
  unfold iblk1
  rw [View.read_apply]
  show V c main_arg10 (((cfg1.win 9).blk t).view.emb y) = V c main_arg10 y
  congr 1
  funext a; apply Fin.ext
  match a with
  | ⟨0, _⟩ => show win1_9.index t (0 : Fin 2) * 64 + 1 * (y 0).val = (y 0).val; omega
  | ⟨1, _⟩ => show win1_9.index t (1 : Fin 2) * 2 + 1 * (y 1).val = (y 1).val; omega

theorem idx1_10 : ∀ t : Fin cfg1.N, win1_10.index t (0 : Fin 2) = 0 ∧ win1_10.index t (1 : Fin 2) = 0 :=
  (by decide +kernel : ∀ t : Fin grid1.N, _)

theorem whole1_10 (c : Dev nD) (t : Fin cfg1.N) : (iblk1 V c 10 t : S1x2.Idx → EReal) = V c main_v12 := by
  obtain ⟨e0, e1⟩ := idx1_10 t
  funext y
  unfold iblk1
  rw [View.read_apply]
  show V c main_v12 (((cfg1.win 10).blk t).view.emb y) = V c main_v12 y
  congr 1
  funext a; apply Fin.ext
  match a with
  | ⟨0, _⟩ => show win1_10.index t (0 : Fin 2) * 1 + 1 * (y 0).val = (y 0).val; omega
  | ⟨1, _⟩ => show win1_10.index t (1 : Fin 2) * 2 + 1 * (y 1).val = (y 1).val; omega

theorem idx1_11 : ∀ t : Fin cfg1.N, win1_11.index t (0 : Fin 2) = 0 ∧ win1_11.index t (1 : Fin 2) = 0 :=
  (by decide +kernel : ∀ t : Fin grid1.N, _)

theorem whole1_11 (c : Dev nD) (t : Fin cfg1.N) : (iblk1 V c 11 t : S64x64.Idx → EReal) = V c main_arg12 := by
  obtain ⟨e0, e1⟩ := idx1_11 t
  funext y
  unfold iblk1
  rw [View.read_apply]
  show V c main_arg12 (((cfg1.win 11).blk t).view.emb y) = V c main_arg12 y
  congr 1
  funext a; apply Fin.ext
  match a with
  | ⟨0, _⟩ => show win1_11.index t (0 : Fin 2) * 64 + 1 * (y 0).val = (y 0).val; omega
  | ⟨1, _⟩ => show win1_11.index t (1 : Fin 2) * 64 + 1 * (y 1).val = (y 1).val; omega

theorem idx1_12 : ∀ t : Fin cfg1.N, win1_12.index t (0 : Fin 2) = 0 ∧ win1_12.index t (1 : Fin 2) = 0 :=
  (by decide +kernel : ∀ t : Fin grid1.N, _)

theorem whole1_12 (c : Dev nD) (t : Fin cfg1.N) : (iblk1 V c 12 t : S1x64.Idx → EReal) = V c main_v13 := by
  obtain ⟨e0, e1⟩ := idx1_12 t
  funext y
  unfold iblk1
  rw [View.read_apply]
  show V c main_v13 (((cfg1.win 12).blk t).view.emb y) = V c main_v13 y
  congr 1
  funext a; apply Fin.ext
  match a with
  | ⟨0, _⟩ => show win1_12.index t (0 : Fin 2) * 1 + 1 * (y 0).val = (y 0).val; omega
  | ⟨1, _⟩ => show win1_12.index t (1 : Fin 2) * 64 + 1 * (y 1).val = (y 1).val; omega

theorem idx1_13 : ∀ t : Fin cfg1.N, win1_13.index t (0 : Fin 2) = 0 ∧ win1_13.index t (1 : Fin 2) = 0 :=
  (by decide +kernel : ∀ t : Fin grid1.N, _)

theorem whole1_13 (c : Dev nD) (t : Fin cfg1.N) : (iblk1 V c 13 t : S64x2000.Idx → EReal) = V c main_arg14 := by
  obtain ⟨e0, e1⟩ := idx1_13 t
  funext y
  unfold iblk1
  rw [View.read_apply]
  show V c main_arg14 (((cfg1.win 13).blk t).view.emb y) = V c main_arg14 y
  congr 1
  funext a; apply Fin.ext
  match a with
  | ⟨0, _⟩ => show win1_13.index t (0 : Fin 2) * 64 + 1 * (y 0).val = (y 0).val; omega
  | ⟨1, _⟩ => show win1_13.index t (1 : Fin 2) * 2000 + 1 * (y 1).val = (y 1).val; omega

theorem idx1_14 : ∀ t : Fin cfg1.N, win1_14.index t (0 : Fin 2) = 0 ∧ win1_14.index t (1 : Fin 2) = 0 :=
  (by decide +kernel : ∀ t : Fin grid1.N, _)

theorem whole1_14 (c : Dev nD) (t : Fin cfg1.N) : (iblk1 V c 14 t : S1x2000.Idx → EReal) = V c main_v14 := by
  obtain ⟨e0, e1⟩ := idx1_14 t
  funext y
  unfold iblk1
  rw [View.read_apply]
  show V c main_v14 (((cfg1.win 14).blk t).view.emb y) = V c main_v14 y
  congr 1
  funext a; apply Fin.ext
  match a with
  | ⟨0, _⟩ => show win1_14.index t (0 : Fin 2) * 1 + 1 * (y 0).val = (y 0).val; omega
  | ⟨1, _⟩ => show win1_14.index t (1 : Fin 2) * 2000 + 1 * (y 1).val = (y 1).val; omega

theorem idx1_0 : ∀ t : Fin cfg1.N, win1_0.index t (0 : Fin 2) = t.val ∧ win1_0.index t (1 : Fin 2) = 0 :=
  (by decide +kernel : ∀ t : Fin grid1.N, _)

/-- Entry `(r, j)` of block `t` of window 0 is entry `(1000 t + r, j)` of its array. -/
theorem emb1_0 (t : Fin cfg1.N) (r : Fin 1000) (j : Fin 64) :
    ((cfg1.win 0).blk t).view.emb (ix2 r j) = (ix2 (rowOf (pt1 t) r) j : S50000x64.Idx) := by
  obtain ⟨e0, e1⟩ := idx1_0 t
  funext a; apply Fin.ext
  match a with
  | ⟨0, _⟩ => show win1_0.index t (0 : Fin 2) * 1000 + 1 * r.val = t.val * 1000 + r.val; omega
  | ⟨1, _⟩ => show win1_0.index t (1 : Fin 2) * 64 + 1 * j.val = j.val; omega

theorem idx1_15 : ∀ t : Fin cfg1.N, win1_15.index t (0 : Fin 2) = t.val ∧ win1_15.index t (1 : Fin 2) = 0 :=
  (by decide +kernel : ∀ t : Fin grid1.N, _)

/-- Entry `(r, j)` of block `t` of window 15 is entry `(1000 t + r, j)` of its array. -/
theorem emb1_15 (t : Fin cfg1.N) (r : Fin 1000) (j : Fin 64) :
    ((cfg1.win 15).blk t).view.emb (ix2 r j) = (ix2 (rowOf (pt1 t) r) j : S50000x64.Idx) := by
  obtain ⟨e0, e1⟩ := idx1_15 t
  funext a; apply Fin.ext
  match a with
  | ⟨0, _⟩ => show win1_15.index t (0 : Fin 2) * 1000 + 1 * r.val = t.val * 1000 + r.val; omega
  | ⟨1, _⟩ => show win1_15.index t (1 : Fin 2) * 64 + 1 * j.val = j.val; omega

theorem idx1_16 : ∀ t : Fin cfg1.N, win1_16.index t (0 : Fin 2) = t.val ∧ win1_16.index t (1 : Fin 2) = 0 :=
  (by decide +kernel : ∀ t : Fin grid1.N, _)

/-- Entry `(r, j)` of block `t` of window 16 is entry `(1000 t + r, j)` of its array. -/
theorem emb1_16 (t : Fin cfg1.N) (r : Fin 1000) (j : Fin 2) :
    ((cfg1.win 16).blk t).view.emb (ix2 r j) = (ix2 (rowOf (pt1 t) r) j : S50000x2.Idx) := by
  obtain ⟨e0, e1⟩ := idx1_16 t
  funext a; apply Fin.ext
  match a with
  | ⟨0, _⟩ => show win1_16.index t (0 : Fin 2) * 1000 + 1 * r.val = t.val * 1000 + r.val; omega
  | ⟨1, _⟩ => show win1_16.index t (1 : Fin 2) * 2 + 1 * j.val = j.val; omega

theorem idx1_17 : ∀ t : Fin cfg1.N, win1_17.index t (0 : Fin 2) = t.val ∧ win1_17.index t (1 : Fin 2) = 0 :=
  (by decide +kernel : ∀ t : Fin grid1.N, _)

/-- Entry `(r, j)` of block `t` of window 17 is entry `(1000 t + r, j)` of its array. -/
theorem emb1_17 (t : Fin cfg1.N) (r : Fin 1000) (j : Fin 2000) :
    ((cfg1.win 17).blk t).view.emb (ix2 r j) = (ix2 (rowOf (pt1 t) r) j : S50000x2000.Idx) := by
  obtain ⟨e0, e1⟩ := idx1_17 t
  funext a; apply Fin.ext
  match a with
  | ⟨0, _⟩ => show win1_17.index t (0 : Fin 2) * 1000 + 1 * r.val = t.val * 1000 + r.val; omega
  | ⟨1, _⟩ => show win1_17.index t (1 : Fin 2) * 2000 + 1 * j.val = j.val; omega

/-- A row of the block of `z` is the row of `z`. -/
theorem zRow1 (c : Dev nD) (t : Fin cfg1.N) (r : Fin 1000) (k : Fin 64) :
    (iblk1 V c 0 t : S1000x64.Idx → EReal) (ix2 r k) = V c main_v1_0 (ix2 (rowOf (pt1 t) r) k) := by
  unfold iblk1
  rw [View.read_apply]
  exact congrArg (V c main_v1_0) (emb1_0 t r k)

/-! ## What a point leaves in each output's staging buffer: its one whole-block store's payload -/

theorem outH_eq (x0 : Vec Ideal S1000x64 .f32) (x1 x2 x3 x4 : Vec Ideal S1x64 .f32) (x5 : Vec Ideal S64x64 .f32) (x6 : Vec Ideal S1x64 .f32) (x7 : Vec Ideal S64x64 .f32) (x8 : Vec Ideal S1x64 .f32) (x9 : Vec Ideal S64x2 .f32) (x10 : Vec Ideal S1x2 .f32) (x11 : Vec Ideal S64x64 .f32) (x12 : Vec Ideal S1x64 .f32) (x13 : Vec Ideal S64x2000 .f32) (x14 : Vec Ideal S1x2000 .f32) :
    out1_15 x0 x1 x2 x3 x4 x5 x6 x7 x8 x9 x10 x11 x12 x13 x14 = k1_pay3 x0 x3 x1 x2 x4 x5 x6 := by
  unfold out1_15
  rw [View.canon_unit_zero hz]
  simp only [View.ld_unit_zero (S := S1000x64) hz, View.ld_unit_zero (S := S1x64) hz, View.ld_unit_zero (S := S64x64) hz, View.ld_unit_zero (S := S64x2) hz, View.ld_unit_zero (S := S1x2) hz, View.ld_unit_zero (S := S64x2000) hz, View.ld_unit_zero (S := S1x2000) hz]

theorem outPos_eq (x0 : Vec Ideal S1000x64 .f32) (x1 x2 x3 x4 : Vec Ideal S1x64 .f32) (x5 : Vec Ideal S64x64 .f32) (x6 : Vec Ideal S1x64 .f32) (x7 : Vec Ideal S64x64 .f32) (x8 : Vec Ideal S1x64 .f32) (x9 : Vec Ideal S64x2 .f32) (x10 : Vec Ideal S1x2 .f32) (x11 : Vec Ideal S64x64 .f32) (x12 : Vec Ideal S1x64 .f32) (x13 : Vec Ideal S64x2000 .f32) (x14 : Vec Ideal S1x2000 .f32) :
    out1_16 x0 x1 x2 x3 x4 x5 x6 x7 x8 x9 x10 x11 x12 x13 x14 = k1_pay1 (k1_pay5 x0 x3 x1 x2 x4 x5 x6 x7) x8 x9 x10 := by
  unfold out1_16
  rw [View.canon_unit_zero hz]
  simp only [View.ld_unit_zero (S := S1000x64) hz, View.ld_unit_zero (S := S1x64) hz, View.ld_unit_zero (S := S64x64) hz, View.ld_unit_zero (S := S64x2) hz, View.ld_unit_zero (S := S1x2) hz, View.ld_unit_zero (S := S64x2000) hz, View.ld_unit_zero (S := S1x2000) hz]

theorem outSelf_eq (x0 : Vec Ideal S1000x64 .f32) (x1 x2 x3 x4 : Vec Ideal S1x64 .f32) (x5 : Vec Ideal S64x64 .f32) (x6 : Vec Ideal S1x64 .f32) (x7 : Vec Ideal S64x64 .f32) (x8 : Vec Ideal S1x64 .f32) (x9 : Vec Ideal S64x2 .f32) (x10 : Vec Ideal S1x2 .f32) (x11 : Vec Ideal S64x64 .f32) (x12 : Vec Ideal S1x64 .f32) (x13 : Vec Ideal S64x2000 .f32) (x14 : Vec Ideal S1x2000 .f32) :
    out1_17 x0 x1 x2 x3 x4 x5 x6 x7 x8 x9 x10 x11 x12 x13 x14 = k1_pay2 (k1_pay4 x0 x3 x1 x2 x4 x5 x6) x11 x12 x13 x14 := by
  unfold out1_17
  rw [View.canon_unit_zero hz]
  simp only [View.ld_unit_zero (S := S1000x64) hz, View.ld_unit_zero (S := S1x64) hz, View.ld_unit_zero (S := S64x64) hz, View.ld_unit_zero (S := S64x2) hz, View.ld_unit_zero (S := S1x2) hz, View.ld_unit_zero (S := S64x2000) hz, View.ld_unit_zero (S := S1x2000) hz]

/-! ## The three arrays as functions of the operand arrays -/

/-- The embedding of row `p`, from the operands as the region finds them. -/
def hRow (c : Dev nD) (p : Fin 50000) : Fin 64 → EReal :=
  embedRow (row0 (V c main_v8)) (row0 (V c main_v9)) (mat (V c main_arg6)) (row0 (V c main_v10)) (row0 (V c main_v3))
    (row0 (V c main_v7)) (fun k => V c main_v1_0 (ix2 p k))

def hArr (c : Dev nD) : S50000x64.Idx → EReal := fun i => hRow V c (i 0) (i 1)
def posArr (c : Dev nD) : S50000x2.Idx → EReal := fun i =>
  headRow (mat (V c main_arg8)) (row0 (V c main_v11)) (mat (V c main_arg10)) (row0 (V c main_v12)) (hRow V c (i 0)) (i 1)
def selfArr (c : Dev nD) : S50000x2000.Idx → EReal := fun i =>
  headRow (mat (V c main_arg12)) (row0 (V c main_v13)) (mat (V c main_arg14)) (row0 (V c main_v14)) (hRow V c (i 0)) (i 1)

/-- The embedding payload at `(r, j)` of point `t` is the embedding of row `1000 t + r`. -/
theorem hPoint (c : Dev nD) (t : Fin cfg1.N) (r : Fin 1000) (j : Fin 64) :
    k1_pay3 (iblk1 V c 0 t) (V c main_v8) (V c main_v3) (V c main_v7) (V c main_v9) (V c main_arg6) (V c main_v10) (ix2 r j)
      = hRow V c (rowOf (pt1 t) r) j := by
  refine (Pay.embedBlock_apply _ _ _ _ _ _ _ r j).trans ?_
  unfold hRow
  exact congrArg (fun a => embedRow (row0 (V c main_v8)) (row0 (V c main_v9)) (mat (V c main_arg6)) (row0 (V c main_v10))
    (row0 (V c main_v3)) (row0 (V c main_v7)) a j) (funext fun k => zRow1 V c t r k)

/-! ## What each point writes back is its block of those functions -/

theorem flushedH_eq (c : Dev nD) (t : Fin cfg1.N) :
    (dat1 V c).flushed 15 t = ((cfg1.win 15).blk t).view.read (Elt Ideal) (hArr V c) := by
  show (cfg1.win 15).cut (grid1.coords t) ((dat1 V c).after 15 t) = _
  rw [after1_15, outH_eq, whole1_1 V c t, whole1_2 V c t, whole1_3 V c t, whole1_4 V c t, whole1_5 V c t, whole1_6 V c t]
  funext y
  obtain ⟨r, j, rfl⟩ : ∃ (r : Fin 1000) (j : Fin 64), y = ix2 r j := ⟨y 0, y 1, eq_ix2 y⟩
  rw [View.read_apply, emb1_15 t r j]
  exact hPoint V c t r j

theorem flushedPos_eq (c : Dev nD) (t : Fin cfg1.N) :
    (dat1 V c).flushed 16 t = ((cfg1.win 16).blk t).view.read (Elt Ideal) (posArr V c) := by
  show (cfg1.win 16).cut (grid1.coords t) ((dat1 V c).after 16 t) = _
  rw [after1_16, outPos_eq, whole1_1 V c t, whole1_2 V c t, whole1_3 V c t, whole1_4 V c t, whole1_5 V c t, whole1_6 V c t, whole1_7 V c t, whole1_8 V c t, whole1_9 V c t, whole1_10 V c t]
  funext y
  obtain ⟨r, j, rfl⟩ : ∃ (r : Fin 1000) (j : Fin 2), y = ix2 r j := ⟨y 0, y 1, eq_ix2 y⟩
  rw [View.read_apply, emb1_16 t r j]
  refine (Pay.posBlock_apply _ _ _ _ r j).trans ?_
  show _ = headRow (mat (V c main_arg8)) (row0 (V c main_v11)) (mat (V c main_arg10)) (row0 (V c main_v12)) (hRow V c (rowOf (pt1 t) r)) j
  unfold headRow
  refine congrArg (fun a => lin a (mat (V c main_arg10)) (row0 (V c main_v12)) j) (funext fun k => congrArg relu ?_)
  rw [Pay.posDot_apply]
  unfold lin
  refine congrArg (· + V c main_v11 (ix2 (0 : Fin 1) k)) (Finset.sum_congr rfl fun l _ => ?_)
  rw [hPoint V c t r l]

theorem flushedSelf_eq (c : Dev nD) (t : Fin cfg1.N) :
    (dat1 V c).flushed 17 t = ((cfg1.win 17).blk t).view.read (Elt Ideal) (selfArr V c) := by
  show (cfg1.win 17).cut (grid1.coords t) ((dat1 V c).after 17 t) = _
  rw [after1_17, outSelf_eq, whole1_1 V c t, whole1_2 V c t, whole1_3 V c t, whole1_4 V c t, whole1_5 V c t, whole1_6 V c t, whole1_11 V c t, whole1_12 V c t, whole1_13 V c t, whole1_14 V c t]
  funext y
  obtain ⟨r, j, rfl⟩ : ∃ (r : Fin 1000) (j : Fin 2000), y = ix2 r j := ⟨y 0, y 1, eq_ix2 y⟩
  rw [View.read_apply, emb1_17 t r j]
  refine (Pay.selfBlock_apply _ _ _ _ _ r j).trans ?_
  show _ = headRow (mat (V c main_arg12)) (row0 (V c main_v13)) (mat (V c main_arg14)) (row0 (V c main_v14)) (hRow V c (rowOf (pt1 t) r)) j
  refine congrArg (fun a => headRow (mat (V c main_arg12)) (row0 (V c main_v13)) (mat (V c main_arg14)) (row0 (V c main_v14)) a j)
    (funext fun k => ?_)
  rw [Pay.embedNarrow_apply]
  exact hPoint V c t r k

/-! ## The blocks tile the arrays -/

/-- An index of window 15's array is in point `t`'s block iff each coordinate is in the block's range on its axis. -/
theorem mem1_15 (t : Fin cfg1.N) (i : S50000x64.Idx) :
    i ∈ ((cfg1.win 15).blk t).view.set ↔ ∀ a : Fin 2, win1_15.index t a * S1000x64.size a ≤ (i a).val ∧ (i a).val < win1_15.index t a * S1000x64.size a + S1000x64.size a := by
  show i ∈ ((View.whole main_v15_0).slice (win1_15.rect t)).set ↔ _
  rw [View.set_slice_whole, Rect.mem_set_unit]
  exact Iff.rfl

/-- Every row lies in the block of the point `row / 1000`. -/
theorem cover1_15 (i : S50000x64.Idx) : ∃ t : Fin cfg1.N, (cfg1.win 15).flush t = true ∧ i ∈ ((cfg1.win 15).blk t).view.set := by
  have hi0 : (i 0).val < 50000 := (i 0).isLt
  have hi1 : (i 1).val < 64 := (i 1).isLt
  have hN : cfg1.N = 50 := N_1
  refine ⟨⟨(i 0).val / 1000, by rw [hN]; omega⟩, flush1_15 _, ?_⟩
  rw [mem1_15]
  obtain ⟨e0, e1⟩ := idx1_15 ⟨(i 0).val / 1000, by rw [hN]; omega⟩
  intro a
  match a with
  | ⟨0, _⟩ => show win1_15.index _ (0 : Fin 2) * 1000 ≤ (i 0).val ∧ (i 0).val < win1_15.index _ (0 : Fin 2) * 1000 + 1000; rw [e0]; dsimp only; omega
  | ⟨1, _⟩ => show win1_15.index _ (1 : Fin 2) * 64 ≤ (i 1).val ∧ (i 1).val < win1_15.index _ (1 : Fin 2) * 64 + 64; rw [e1]; omega

/-- An index of window 16's array is in point `t`'s block iff each coordinate is in the block's range on its axis. -/
theorem mem1_16 (t : Fin cfg1.N) (i : S50000x2.Idx) :
    i ∈ ((cfg1.win 16).blk t).view.set ↔ ∀ a : Fin 2, win1_16.index t a * S1000x2.size a ≤ (i a).val ∧ (i a).val < win1_16.index t a * S1000x2.size a + S1000x2.size a := by
  show i ∈ ((View.whole main_v15_1).slice (win1_16.rect t)).set ↔ _
  rw [View.set_slice_whole, Rect.mem_set_unit]
  exact Iff.rfl

/-- Every row lies in the block of the point `row / 1000`. -/
theorem cover1_16 (i : S50000x2.Idx) : ∃ t : Fin cfg1.N, (cfg1.win 16).flush t = true ∧ i ∈ ((cfg1.win 16).blk t).view.set := by
  have hi0 : (i 0).val < 50000 := (i 0).isLt
  have hi1 : (i 1).val < 2 := (i 1).isLt
  have hN : cfg1.N = 50 := N_1
  refine ⟨⟨(i 0).val / 1000, by rw [hN]; omega⟩, flush1_16 _, ?_⟩
  rw [mem1_16]
  obtain ⟨e0, e1⟩ := idx1_16 ⟨(i 0).val / 1000, by rw [hN]; omega⟩
  intro a
  match a with
  | ⟨0, _⟩ => show win1_16.index _ (0 : Fin 2) * 1000 ≤ (i 0).val ∧ (i 0).val < win1_16.index _ (0 : Fin 2) * 1000 + 1000; rw [e0]; dsimp only; omega
  | ⟨1, _⟩ => show win1_16.index _ (1 : Fin 2) * 2 ≤ (i 1).val ∧ (i 1).val < win1_16.index _ (1 : Fin 2) * 2 + 2; rw [e1]; omega

/-- An index of window 17's array is in point `t`'s block iff each coordinate is in the block's range on its axis. -/
theorem mem1_17 (t : Fin cfg1.N) (i : S50000x2000.Idx) :
    i ∈ ((cfg1.win 17).blk t).view.set ↔ ∀ a : Fin 2, win1_17.index t a * S1000x2000.size a ≤ (i a).val ∧ (i a).val < win1_17.index t a * S1000x2000.size a + S1000x2000.size a := by
  show i ∈ ((View.whole main_v15_2).slice (win1_17.rect t)).set ↔ _
  rw [View.set_slice_whole, Rect.mem_set_unit]
  exact Iff.rfl

/-- Every row lies in the block of the point `row / 1000`. -/
theorem cover1_17 (i : S50000x2000.Idx) : ∃ t : Fin cfg1.N, (cfg1.win 17).flush t = true ∧ i ∈ ((cfg1.win 17).blk t).view.set := by
  have hi0 : (i 0).val < 50000 := (i 0).isLt
  have hi1 : (i 1).val < 2000 := (i 1).isLt
  have hN : cfg1.N = 50 := N_1
  refine ⟨⟨(i 0).val / 1000, by rw [hN]; omega⟩, flush1_17 _, ?_⟩
  rw [mem1_17]
  obtain ⟨e0, e1⟩ := idx1_17 ⟨(i 0).val / 1000, by rw [hN]; omega⟩
  intro a
  match a with
  | ⟨0, _⟩ => show win1_17.index _ (0 : Fin 2) * 1000 ≤ (i 0).val ∧ (i 0).val < win1_17.index _ (0 : Fin 2) * 1000 + 1000; rw [e0]; dsimp only; omega
  | ⟨1, _⟩ => show win1_17.index _ (1 : Fin 2) * 2000 ≤ (i 1).val ∧ (i 1).val < win1_17.index _ (1 : Fin 2) * 2000 + 2000; rw [e1]; omega

/-! ## So after the region each array is its function -/

theorem finalH (c : Dev nD) : (dat1 V c).arrAt 15 cfg1.N = hArr V c :=
  (dat1 V c).arrAt_eq_of_cover 15 (hArr V c) (fun t _ => flushedH_eq V c t) (cover1_15)

theorem finalPos (c : Dev nD) : (dat1 V c).arrAt 16 cfg1.N = posArr V c :=
  (dat1 V c).arrAt_eq_of_cover 16 (posArr V c) (fun t _ => flushedPos_eq V c t) (cover1_16)

theorem finalSelf (c : Dev nD) : (dat1 V c).arrAt 17 cfg1.N = selfArr V c :=
  (dat1 V c).arrAt_eq_of_cover 17 (selfArr V c) (fun t _ => flushedSelf_eq V c t) (cover1_17)

end Cert.KernelIdeal.Region1

end
-- ==== Proof.KRegion2.lean ====
/-
  The third kernel, read as values. At grid point `t` it is given block `t` (rows 1000 t … 1000 t + 999) of the
  neighbour average and the whole of the head's two matrices and bias rows, and writes block `t` of the neighbours'
  expression: the head (linear, relu, linear) of each row. The 50 blocks tile the array, so after the region the array is
  the head of every row.
-/
import proofs.«151171_j14886356648152_1_alg».proof.Proof.Gen.KernelIdeal.Frame
import proofs.«151171_j14886356648152_1_alg».proof.Proof.KPay
import proofs.«151171_j14886356648152_1_alg».proof.Proof.RowBlocks
import Idealize.ShloMosaic.Lib.Pipeline.Value

set_option maxRecDepth 16384

noncomputable section

namespace Cert.KernelIdeal.Region2

open Cert.KernelIdeal Cert.KernelIdeal.Gen Cert.Gnn
open Idealize.ShloMosaic Idealize.ShloMosaic.TcCoe Idealize.ShloMosaic.ValueIdx Idealize.SL.Sem
open Idealize.ShloMosaic.Pipeline (Dat)

-- the buffers' contents when the region is entered: a parameter
variable (V : (c : Dev nD) → (b : Ref sig .tc) → Buf (Elt Ideal) ((c : Thread nD τ).loc b))

theorem hz : (![0, 0] : Fin 2 → Nat) = fun _ => 0 := funext fun a => by fin_cases a <;> rfl

/-- A grid point as a block number. -/
def pt2 (t : Fin cfg2.N) : Fin 50 := ⟨t.val, Nat.lt_of_lt_of_eq t.isLt N_2⟩

/-! ## The operands' blocks -/

theorem idx2_1 : ∀ t : Fin cfg2.N, win2_1.index t (0 : Fin 2) = 0 ∧ win2_1.index t (1 : Fin 2) = 0 :=
  (by decide +kernel : ∀ t : Fin grid2.N, _)

theorem whole2_1 (c : Dev nD) (t : Fin cfg2.N) : (iblk2 V c 1 t : S64x64.Idx → EReal) = V c main_arg16 := by
  obtain ⟨e0, e1⟩ := idx2_1 t
  funext y
  unfold iblk2
  rw [View.read_apply]
  show V c main_arg16 (((cfg2.win 1).blk t).view.emb y) = V c main_arg16 y
  congr 1
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

theorem idx2_2 : ∀ t : Fin cfg2.N, win2_2.index t (0 : Fin 2) = 0 ∧ win2_2.index t (1 : Fin 2) = 0 :=
  (by decide +kernel : ∀ t : Fin grid2.N, _)

theorem whole2_2 (c : Dev nD) (t : Fin cfg2.N) : (iblk2 V c 2 t : S1x64.Idx → EReal) = V c main_v38 := by
  obtain ⟨e0, e1⟩ := idx2_2 t
  funext y
  unfold iblk2
  rw [View.read_apply]
  show V c main_v38 (((cfg2.win 2).blk t).view.emb y) = V c main_v38 y
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem idx2_3 : ∀ t : Fin cfg2.N, win2_3.index t (0 : Fin 2) = 0 ∧ win2_3.index t (1 : Fin 2) = 0 :=
  (by decide +kernel : ∀ t : Fin grid2.N, _)

theorem whole2_3 (c : Dev nD) (t : Fin cfg2.N) : (iblk2 V c 3 t : S64x2000.Idx → EReal) = V c main_arg18 := by
  obtain ⟨e0, e1⟩ := idx2_3 t
  funext y
  unfold iblk2
  rw [View.read_apply]
  show V c main_arg18 (((cfg2.win 3).blk t).view.emb y) = V c main_arg18 y
  congr 1
  funext a; apply Fin.ext
  match a with
  | ⟨0, _⟩ => show win2_3.index t (0 : Fin 2) * 64 + 1 * (y 0).val = (y 0).val; omega
  | ⟨1, _⟩ => show win2_3.index t (1 : Fin 2) * 2000 + 1 * (y 1).val = (y 1).val; omega

theorem idx2_4 : ∀ t : Fin cfg2.N, win2_4.index t (0 : Fin 2) = 0 ∧ win2_4.index t (1 : Fin 2) = 0 :=
  (by decide +kernel : ∀ t : Fin grid2.N, _)

theorem whole2_4 (c : Dev nD) (t : Fin cfg2.N) : (iblk2 V c 4 t : S1x2000.Idx → EReal) = V c main_v39 := by
  obtain ⟨e0, e1⟩ := idx2_4 t
  funext y
  unfold iblk2
  rw [View.read_apply]
  show V c main_v39 (((cfg2.win 4).blk t).view.emb y) = V c main_v39 y
  congr 1
  funext a; apply Fin.ext
  match a with
  | ⟨0, _⟩ => show win2_4.index t (0 : Fin 2) * 1 + 1 * (y 0).val = (y 0).val; omega
  | ⟨1, _⟩ => show win2_4.index t (1 : Fin 2) * 2000 + 1 * (y 1).val = (y 1).val; omega

theorem idx2_0 : ∀ t : Fin cfg2.N, win2_0.index t (0 : Fin 2) = t.val ∧ win2_0.index t (1 : Fin 2) = 0 :=
  (by decide +kernel : ∀ t : Fin grid2.N, _)

/-- Entry `(r, j)` of block `t` of window 0 is entry `(1000 t + r, j)` of its array. -/
theorem emb2_0 (t : Fin cfg2.N) (r : Fin 1000) (j : Fin 64) :
    ((cfg2.win 0).blk t).view.emb (ix2 r j) = (ix2 (rowOf (pt2 t) r) j : S50000x64.Idx) := by
  obtain ⟨e0, e1⟩ := idx2_0 t
  funext a; apply Fin.ext
  match a with
  | ⟨0, _⟩ => show win2_0.index t (0 : Fin 2) * 1000 + 1 * r.val = t.val * 1000 + r.val; omega
  | ⟨1, _⟩ => show win2_0.index t (1 : Fin 2) * 64 + 1 * j.val = j.val; omega

theorem idx2_5 : ∀ t : Fin cfg2.N, win2_5.index t (0 : Fin 2) = t.val ∧ win2_5.index t (1 : Fin 2) = 0 :=
  (by decide +kernel : ∀ t : Fin grid2.N, _)

/-- Entry `(r, j)` of block `t` of window 5 is entry `(1000 t + r, j)` of its array. -/
theorem emb2_5 (t : Fin cfg2.N) (r : Fin 1000) (j : Fin 2000) :
    ((cfg2.win 5).blk t).view.emb (ix2 r j) = (ix2 (rowOf (pt2 t) r) j : S50000x2000.Idx) := by
  obtain ⟨e0, e1⟩ := idx2_5 t
  funext a; apply Fin.ext
  match a with
  | ⟨0, _⟩ => show win2_5.index t (0 : Fin 2) * 1000 + 1 * r.val = t.val * 1000 + r.val; omega
  | ⟨1, _⟩ => show win2_5.index t (1 : Fin 2) * 2000 + 1 * j.val = j.val; omega

/-! ## What a point leaves in the output's staging buffer -/

theorem outNbr_eq (x0 : Vec Ideal S1000x64 .f32) (x1 : Vec Ideal S64x64 .f32) (x2 : Vec Ideal S1x64 .f32)
    (x3 : Vec Ideal S64x2000 .f32) (x4 : Vec Ideal S1x2000 .f32) :
    out2_5 x0 x1 x2 x3 x4 = k2_pay1 x0 x1 x2 x3 x4 := by
  unfold out2_5
  rw [View.canon_unit_zero hz]
  simp only [View.ld_unit_zero (S := S1000x64) hz, View.ld_unit_zero (S := S1x64) hz, View.ld_unit_zero (S := S64x64) hz,
    View.ld_unit_zero (S := S64x2000) hz, View.ld_unit_zero (S := S1x2000) hz]

/-! ## The array as a function of the operand arrays -/

def nbrArr (c : Dev nD) : S50000x2000.Idx → EReal := fun i =>
  headRow (mat (V c main_arg16)) (row0 (V c main_v38)) (mat (V c main_arg18)) (row0 (V c main_v39))
    (fun k => V c main_v37 (ix2 (i 0) k)) (i 1)

theorem flushedNbr_eq (c : Dev nD) (t : Fin cfg2.N) :
    (dat2 V c).flushed 5 t = ((cfg2.win 5).blk t).view.read (Elt Ideal) (nbrArr V c) := by
  show (cfg2.win 5).cut (grid2.coords t) ((dat2 V c).after 5 t) = _
  rw [after2_5, outNbr_eq, whole2_1 V c t, whole2_2 V c t, whole2_3 V c t, whole2_4 V c t]
  funext y
  obtain ⟨r, j, rfl⟩ : ∃ (r : Fin 1000) (j : Fin 2000), y = ix2 r j := ⟨y 0, y 1, eq_ix2 y⟩
  rw [View.read_apply, emb2_5 t r j]
  refine (Pay.nbrBlock_apply _ _ _ _ _ r j).trans ?_
  show _ = headRow (mat (V c main_arg16)) (row0 (V c main_v38)) (mat (V c main_arg18)) (row0 (V c main_v39))
    (fun k => V c main_v37 (ix2 (rowOf (pt2 t) r) k)) j
  refine congrArg (fun a => headRow (mat (V c main_arg16)) (row0 (V c main_v38)) (mat (V c main_arg18)) (row0 (V c main_v39)) a j)
    (funext fun k => ?_)
  unfold iblk2
  rw [View.read_apply]
  exact congrArg (V c main_v37) (emb2_0 t r k)

/-! ## The blocks tile the array -/

/-- An index of window 5's array is in point `t`'s block iff each coordinate is in the block's range on its axis. -/
theorem mem2_5 (t : Fin cfg2.N) (i : S50000x2000.Idx) :
    i ∈ ((cfg2.win 5).blk t).view.set ↔ ∀ a : Fin 2, win2_5.index t a * S1000x2000.size a ≤ (i a).val ∧ (i a).val < win2_5.index t a * S1000x2000.size a + S1000x2000.size a := by
  show i ∈ ((View.whole main_v40).slice (win2_5.rect t)).set ↔ _
  rw [View.set_slice_whole, Rect.mem_set_unit]
  exact Iff.rfl

/-- Every row lies in the block of the point `row / 1000`. -/
theorem cover2_5 (i : S50000x2000.Idx) : ∃ t : Fin cfg2.N, (cfg2.win 5).flush t = true ∧ i ∈ ((cfg2.win 5).blk t).view.set := by
  have hi0 : (i 0).val < 50000 := (i 0).isLt
  have hi1 : (i 1).val < 2000 := (i 1).isLt
  have hN : cfg2.N = 50 := N_2
  refine ⟨⟨(i 0).val / 1000, by rw [hN]; omega⟩, flush2_5 _, ?_⟩
  rw [mem2_5]
  obtain ⟨e0, e1⟩ := idx2_5 ⟨(i 0).val / 1000, by rw [hN]; omega⟩
  intro a
  match a with
  | ⟨0, _⟩ => show win2_5.index _ (0 : Fin 2) * 1000 ≤ (i 0).val ∧ (i 0).val < win2_5.index _ (0 : Fin 2) * 1000 + 1000; rw [e0]; dsimp only; omega
  | ⟨1, _⟩ => show win2_5.index _ (1 : Fin 2) * 2000 ≤ (i 1).val ∧ (i 1).val < win2_5.index _ (1 : Fin 2) * 2000 + 2000; rw [e1]; omega

theorem finalNbr (c : Dev nD) : (dat2 V c).arrAt 5 cfg2.N = nbrArr V c :=
  (dat2 V c).arrAt_eq_of_cover 5 (nbrArr V c) (fun t _ => flushedNbr_eq V c t) (cover2_5)

end Cert.KernelIdeal.Region2

end
-- ==== Proof.Glue.lean ====
/-
  The neighbour average of an embedding matrix over a list of directed edges, as the composition of array
  operations both programs spell: the first row of the edge list (the sources) indexes the rows to read, a negative
  source counted from the end; the second row (the targets) says where each read row is added; every target row is
  then divided by the number of edges that arrive at it, or by one when none does. It is one function of the
  embedding and of the edge list, shared by the two programs and never opened at an index.
-/
import proofs.«151171_j14886356648152_1_alg».proof.ReferenceIdeal
import Idealize.ShloMosaic.PureOps.Ideal

noncomputable section

namespace Cert.Gnn

open Cert.ReferenceIdeal Cert.ReferenceIdeal.Facts₀ Idealize.ShloMosaic Idealize.SL.Sem

variable [Cert.ReferenceIdeal.Facts₀]

/-- Row `0` of the edge list, the sources, as a vector. -/
def edgeSources (e : (⟨S2x800000, .i32⟩ : BufTy).Contents (Elt Ideal)) : (⟨S800000, .i32⟩ : BufTy).Contents (Elt Ideal) :=
  shapeCast _ (extractStridedSlice S1x800000 ![0, 0] (e) slices_S2x800000_S1x800000_0_0) shapeCasts_S1x800000_S800000

/-- Row `1` of the edge list, the targets, as a vector. -/
def edgeTargets (e : (⟨S2x800000, .i32⟩ : BufTy).Contents (Elt Ideal)) : (⟨S800000, .i32⟩ : BufTy).Contents (Elt Ideal) :=
  shapeCast _ (extractStridedSlice S1x800000 ![1, 0] (e) slices_S2x800000_S1x800000_1_0) shapeCasts_S1x800000_S800000

/-- A negative source counts from the end: `50000` is added to it. -/
def wrapSources (s : (⟨S800000, .i32⟩ : BufTy).Contents (Elt Ideal)) : (⟨S800000, .i32⟩ : BufTy).Contents (Elt Ideal) :=
  select (cmpi .slt (s) (broadcastInDim S800000 ![] bcast_S_S800000 (constantI S_ 32 0#32)))
    (addi (s) (broadcastInDim S800000 ![] bcast_S_S800000 (constantI S_ 32 50000#32))) (s)

/-- A vector of edge ends as a one-column matrix of row numbers. -/
def asColumn (s : (⟨S800000, .i32⟩ : BufTy).Contents (Elt Ideal)) : (⟨S800000x1, .i32⟩ : BufTy).Contents (Elt Ideal) :=
  broadcastInDim S800000x1 ![0] bcast_S800000_S800000x1_0 (s)

/-- The rows of `h` at the edges' sources, added up at the edges' targets. -/
def neighbourSum (h : (⟨S50000x64, .f32⟩ : BufTy).Contents (Elt Ideal)) (e : (⟨S2x800000, .i32⟩ : BufTy).Contents (Elt Ideal)) :
    (⟨S50000x64, .f32⟩ : BufTy).Contents (Elt Ideal) :=
  Host.scatterAdd (F := Ideal) (φ := .f32) scatter_S50000x64_S800000x1_S800000x64_1_0_0_1
    (broadcastInDim S50000x64 ![] bcast_S_S50000x64 (constant (F := Ideal) S_ .f32 0x00000000#32))
    (asColumn (edgeTargets e))
    (Host.gather gather_S50000x64_S800000x1_S800000x64_1_0_n_n_0_1_164 (h) (asColumn (wrapSources (edgeSources e))))

/-- The number of edges arriving at each row, and one where none arrives. -/
def neighbourCount (e : (⟨S2x800000, .i32⟩ : BufTy).Contents (Elt Ideal)) : (⟨S50000x1, .f32⟩ : BufTy).Contents (Elt Ideal) :=
  maximumf (F := Ideal) (φ := .f32)
    (Host.scatterAdd (F := Ideal) (φ := .f32) scatter_S50000x1_S800000x1_S800000x1_1_0_0_1
      (broadcastInDim S50000x1 ![] bcast_S_S50000x1 (constant (F := Ideal) S_ .f32 0x00000000#32))
      (asColumn (edgeTargets e))
      (broadcastInDim S800000x1 ![] bcast_S_S800000x1 (constant (F := Ideal) S_ .f32 0x3F800000#32)))
    (broadcastInDim S50000x1 ![] bcast_S_S50000x1 (constant (F := Ideal) S_ .f32 0x3F800000#32))

/-- The neighbour average: the sum over the arriving edges divided, row by row, by their number. -/
def neighbourMean (h : (⟨S50000x64, .f32⟩ : BufTy).Contents (Elt Ideal)) (e : (⟨S2x800000, .i32⟩ : BufTy).Contents (Elt Ideal)) :
    (⟨S50000x64, .f32⟩ : BufTy).Contents (Elt Ideal) :=
  Host.divf (F := Ideal) (φ := .f32) (neighbourSum h e)
    (broadcastInDim S50000x64 ![0, 1] bcast_S50000x1_S50000x64_0_1 (neighbourCount e))

end Cert.Gnn

end
-- ==== Proof.KValue.lean ====
/-
  The kernel program's four results as functions of its arguments. The buffer contents at the end of the run are a fold
  through the program: the bias reshaped to a row; the first kernel's `z` and its two rows of column sums; on the host,
  the mean `μ = (∑ z) / 50000` and the variance `(∑ z²) / 50000 − μ · μ`, and the remaining vectors reshaped to rows;
  the second kernel's embedding and two heads; on the host, the neighbour average of the embedding over the edge list;
  the third kernel's head of it. Read back stage by stage, the results are the common specification's `embed` (at the
  variance taken by moments) and `headOf` of it, and of its neighbour average.
-/
import proofs.«151171_j14886356648152_1_alg».proof.Proof.KRun
import proofs.«151171_j14886356648152_1_alg».proof.Proof.KRegion0
import proofs.«151171_j14886356648152_1_alg».proof.Proof.KRegion1
import proofs.«151171_j14886356648152_1_alg».proof.Proof.KRegion2
import proofs.«151171_j14886356648152_1_alg».proof.Proof.Glue
import proofs.«151171_j14886356648152_1_alg».proof.Proof.Gen.ReferenceIdeal
import Idealize.ShloMosaic.Lib.StableHlo.Run
import Idealize.ShloMosaic.Lib.ValueLayout
import Idealize.ShloMosaic.Lib.Pipeline.Value

set_option maxRecDepth 16384

noncomputable section

namespace Cert.KernelIdeal.Whole

open Cert.KernelIdeal Cert.KernelIdeal.Gen Cert.Gnn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments at each boundary: no host operation and no kernel writes one -/

theorem at1_arg0 (c : Dev nD) : V1 m ρ c main_arg0 = m ((c : Thread nD τ).loc main_arg0) := by
  show StableHlo.after hostOps0 (W0 m ρ c) (Proc.devRef .tc main_arg0) = _
  after_results
  try rfl

theorem at1_arg2 (c : Dev nD) : V1 m ρ c main_arg2 = m ((c : Thread nD τ).loc main_arg2) := by
  show StableHlo.after hostOps0 (W0 m ρ c) (Proc.devRef .tc main_arg2) = _
  after_results
  try rfl

/-- The first bias as the row the first kernel reads. -/
theorem row_v0 (c : Dev nD) : row0 (V1 m ρ c main_v0) = vec (m ((c : Thread nD τ).loc main_arg3)) := by
  have e : V1 m ρ c main_v0 = shapeCast S1x64 (m ((c : Thread nD τ).loc main_arg3)) shapeCasts_S64_S1x64 := by
    show StableHlo.after hostOps0 (W0 m ρ c) (Proc.devRef .tc main_v0) = _
    after_results
    try rfl
  funext q
  show V1 m ρ c main_v0 (ix2 (0 : Fin 1) q) = _
  rw [e]
  exact shapeCast_a_1a_apply _ _ 0 q

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results
    try rfl)

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results
    try rfl)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    try rfl)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results
    try rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results
    try rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results
    try rfl)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results
    try rfl)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results
    try rfl)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results
    try rfl)

theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results
    try rfl)

theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results
    try rfl)

theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results
    try rfl)

theorem W2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results
    try rfl)

theorem W2_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results
    try rfl)

theorem W2_arg17 (c : Dev nD) : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results
    try rfl)

theorem W2_arg18 (c : Dev nD) : W2 m ρ c (Proc.devRef .tc main_arg18) = m ((c : Thread nD τ).loc main_arg18) :=
  (W2_of_ne m ρ c main_arg18 (by decide)).trans (by
    show StableHlo.after hostOps0 (W0 m ρ c) (Proc.devRef .tc main_arg18) = _
    after_results
    try rfl)

theorem W2_arg19 (c : Dev nD) : W2 m ρ c (Proc.devRef .tc main_arg19) = m ((c : Thread nD τ).loc main_arg19) :=
  (W2_of_ne m ρ c main_arg19 (by decide)).trans (by
    show StableHlo.after hostOps0 (W0 m ρ c) (Proc.devRef .tc main_arg19) = _
    after_results
    try rfl)

theorem at3_arg6 (c : Dev nD) : V3 m ρ c main_arg6 = m ((c : Thread nD τ).loc main_arg6) := by
  show StableHlo.after hostOps1 (W2 m ρ c) (Proc.devRef .tc main_arg6) = _
  after_results
  exact W2_arg6 m ρ c

theorem at3_arg8 (c : Dev nD) : V3 m ρ c main_arg8 = m ((c : Thread nD τ).loc main_arg8) := by
  show StableHlo.after hostOps1 (W2 m ρ c) (Proc.devRef .tc main_arg8) = _
  after_results
  exact W2_arg8 m ρ c

theorem at3_arg10 (c : Dev nD) : V3 m ρ c main_arg10 = m ((c : Thread nD τ).loc main_arg10) := by
  show StableHlo.after hostOps1 (W2 m ρ c) (Proc.devRef .tc main_arg10) = _
  after_results
  exact W2_arg10 m ρ c

theorem at3_arg12 (c : Dev nD) : V3 m ρ c main_arg12 = m ((c : Thread nD τ).loc main_arg12) := by
  show StableHlo.after hostOps1 (W2 m ρ c) (Proc.devRef .tc main_arg12) = _
  after_results
  exact W2_arg12 m ρ c

theorem at3_arg14 (c : Dev nD) : V3 m ρ c main_arg14 = m ((c : Thread nD τ).loc main_arg14) := by
  show StableHlo.after hostOps1 (W2 m ρ c) (Proc.devRef .tc main_arg14) = _
  after_results
  exact W2_arg14 m ρ c

theorem W4_arg1 (c : Dev nD) : W4 m ρ c (Proc.devRef .tc main_arg1) = m ((c : Thread nD τ).loc main_arg1) :=
  (W4_of_ne m ρ c main_arg1 (by decide)).trans (by
    show StableHlo.after hostOps1 (W2 m ρ c) (Proc.devRef .tc main_arg1) = _
    after_results
    exact W2_arg1 m ρ c)

theorem W4_arg16 (c : Dev nD) : W4 m ρ c (Proc.devRef .tc main_arg16) = m ((c : Thread nD τ).loc main_arg16) :=
  (W4_of_ne m ρ c main_arg16 (by decide)).trans (by
    show StableHlo.after hostOps1 (W2 m ρ c) (Proc.devRef .tc main_arg16) = _
    after_results
    exact W2_arg16 m ρ c)

theorem W4_arg17 (c : Dev nD) : W4 m ρ c (Proc.devRef .tc main_arg17) = m ((c : Thread nD τ).loc main_arg17) :=
  (W4_of_ne m ρ c main_arg17 (by decide)).trans (by
    show StableHlo.after hostOps1 (W2 m ρ c) (Proc.devRef .tc main_arg17) = _
    after_results
    exact W2_arg17 m ρ c)

theorem W4_arg18 (c : Dev nD) : W4 m ρ c (Proc.devRef .tc main_arg18) = m ((c : Thread nD τ).loc main_arg18) :=
  (W4_of_ne m ρ c main_arg18 (by decide)).trans (by
    show StableHlo.after hostOps1 (W2 m ρ c) (Proc.devRef .tc main_arg18) = _
    after_results
    exact W2_arg18 m ρ c)

theorem W4_arg19 (c : Dev nD) : W4 m ρ c (Proc.devRef .tc main_arg19) = m ((c : Thread nD τ).loc main_arg19) :=
  (W4_of_ne m ρ c main_arg19 (by decide)).trans (by
    show StableHlo.after hostOps1 (W2 m ρ c) (Proc.devRef .tc main_arg19) = _
    after_results
    exact W2_arg19 m ρ c)

/-! ## The first kernel's arrays -/

/-- A row of `z` as the first kernel computes it is the specification's. -/
theorem zRowK_eq (c : Dev nD) (p : Fin 50000) : Region0.zRowK (V1 m ρ) c p = (zRow (m ((c : Thread nD τ).loc main_arg0)) (m ((c : Thread nD τ).loc main_arg2)) (m ((c : Thread nD τ).loc main_arg3))) p := by
  unfold Region0.zRowK zRow
  rw [at1_arg0, at1_arg2, row_v0]

theorem at3_z (c : Dev nD) : V3 m ρ c main_v1_0 = Region0.zArrK (V1 m ρ) c := by
  show StableHlo.after hostOps1 (W2 m ρ c) (Proc.devRef .tc main_v1_0) = _
  after_results
  exact (W2_arr m ρ c 3).trans (Region0.finalZ (V1 m ρ) c)

theorem zRow3 (c : Dev nD) (p : Fin 50000) : (fun k => V3 m ρ c main_v1_0 (ix2 p k)) = (zRow (m ((c : Thread nD τ).loc main_arg0)) (m ((c : Thread nD τ).loc main_arg2)) (m ((c : Thread nD τ).loc main_arg3))) p := by
  funext k
  rw [at3_z]
  exact congrFun (zRowK_eq m ρ c p) k

/-! ## The statistics the host takes from the two rows of sums -/

/-- The broadcast of the scalar 50000 along a row. -/
theorem spots_row (j : Fin 64) :
    broadcastInDim S1x64 ![] bcast_S_S1x64 (constant (F := Ideal) S_ .f32 0x47435000#32) (ix2 (0 : Fin 1) j) = spotsW :=
  broadcastInDim_apply ![] bcast_S_S1x64 _ (ix2 (0 : Fin 1) j) ix0 (fun a => a.elim0)

/-- The row of column sums is the column sum over all rows (the leading zero dropped). -/
theorem sum_row (c : Dev nD) (j : Fin 64) : Region0.sumArr (V1 m ρ) c (ix2 (0 : Fin 1) j) = colSum (zRow (m ((c : Thread nD τ).loc main_arg0)) (m ((c : Thread nD τ).loc main_arg2)) (m ((c : Thread nD τ).loc main_arg3))) j := by
  rw [Region0.sumArr_apply, show (zeroW : EReal) = 0 from Ideal.ofBits_zero_f32, zero_add]
  unfold colSum
  exact Finset.sum_congr rfl fun p _ => congrFun (zRowK_eq m ρ c p) j

theorem sumSq_row (c : Dev nD) (j : Fin 64) : Region0.sumSqArr (V1 m ρ) c (ix2 (0 : Fin 1) j) = colSumSq (zRow (m ((c : Thread nD τ).loc main_arg0)) (m ((c : Thread nD τ).loc main_arg2)) (m ((c : Thread nD τ).loc main_arg3))) j := by
  rw [Region0.sumSqArr_apply, show (zeroW : EReal) = 0 from Ideal.ofBits_zero_f32, zero_add]
  unfold colSumSq
  exact Finset.sum_congr rfl fun p _ => by rw [zRowK_eq m ρ c p]

theorem W2_sum (c : Dev nD) : W2 m ρ c (Proc.devRef .tc main_v1_1) = Region0.sumArr (V1 m ρ) c :=
  (W2_arr m ρ c 4).trans (Region0.finalS (V1 m ρ) c)

theorem W2_sumSq (c : Dev nD) : W2 m ρ c (Proc.devRef .tc main_v1_2) = Region0.sumSqArr (V1 m ρ) c :=
  (W2_arr m ρ c 5).trans (Region0.finalQ (V1 m ρ) c)

theorem mu_row (c : Dev nD) : row0 (V3 m ρ c main_v3) = mean (zRow (m ((c : Thread nD τ).loc main_arg0)) (m ((c : Thread nD τ).loc main_arg2)) (m ((c : Thread nD τ).loc main_arg3))) := by
  have e : V3 m ρ c main_v3 = Host.divf (F := Ideal) (Region0.sumArr (V1 m ρ) c)
      (broadcastInDim S1x64 ![] bcast_S_S1x64 (constant (F := Ideal) S_ .f32 0x47435000#32)) := by
    show StableHlo.after hostOps1 (W2 m ρ c) (Proc.devRef .tc main_v3) = _
    after_results
    rw [W2_sum]
  funext j
  show V3 m ρ c main_v3 (ix2 (0 : Fin 1) j) = _
  rw [e]
  show Ideal.div (Region0.sumArr (V1 m ρ) c (ix2 (0 : Fin 1) j))
    (broadcastInDim S1x64 ![] bcast_S_S1x64 (constant (F := Ideal) S_ .f32 0x47435000#32) (ix2 (0 : Fin 1) j)) = _
  rw [sum_row, spots_row]
  rfl

theorem var_row (c : Dev nD) : row0 (V3 m ρ c main_v7) = varMoments (zRow (m ((c : Thread nD τ).loc main_arg0)) (m ((c : Thread nD τ).loc main_arg2)) (m ((c : Thread nD τ).loc main_arg3))) := by
  have e : V3 m ρ c main_v7 = subf (Host.divf (F := Ideal) (Region0.sumSqArr (V1 m ρ) c)
        (broadcastInDim S1x64 ![] bcast_S_S1x64 (constant (F := Ideal) S_ .f32 0x47435000#32)))
      (mulf (Host.divf (F := Ideal) (Region0.sumArr (V1 m ρ) c)
          (broadcastInDim S1x64 ![] bcast_S_S1x64 (constant (F := Ideal) S_ .f32 0x47435000#32)))
        (Host.divf (F := Ideal) (Region0.sumArr (V1 m ρ) c)
          (broadcastInDim S1x64 ![] bcast_S_S1x64 (constant (F := Ideal) S_ .f32 0x47435000#32)))) := by
    show StableHlo.after hostOps1 (W2 m ρ c) (Proc.devRef .tc main_v7) = _
    after_results
    rw [W2_sum, W2_sumSq]
  funext j
  show V3 m ρ c main_v7 (ix2 (0 : Fin 1) j) = _
  rw [e]
  show Ideal.div (Region0.sumSqArr (V1 m ρ) c (ix2 (0 : Fin 1) j))
      (broadcastInDim S1x64 ![] bcast_S_S1x64 (constant (F := Ideal) S_ .f32 0x47435000#32) (ix2 (0 : Fin 1) j))
    - Ideal.div (Region0.sumArr (V1 m ρ) c (ix2 (0 : Fin 1) j))
        (broadcastInDim S1x64 ![] bcast_S_S1x64 (constant (F := Ideal) S_ .f32 0x47435000#32) (ix2 (0 : Fin 1) j))
      * Ideal.div (Region0.sumArr (V1 m ρ) c (ix2 (0 : Fin 1) j))
        (broadcastInDim S1x64 ![] bcast_S_S1x64 (constant (F := Ideal) S_ .f32 0x47435000#32) (ix2 (0 : Fin 1) j)) = _
  rw [sum_row, sumSq_row, spots_row]
  rfl

/-! ## The vectors the host reshapes to rows -/

theorem row_v8 (c : Dev nD) : row0 (V3 m ρ c main_v8) = vec (m ((c : Thread nD τ).loc main_arg4)) := by
  have e : V3 m ρ c main_v8 = shapeCast S1x64 (m ((c : Thread nD τ).loc main_arg4)) shapeCasts_S64_S1x64 := by
    show StableHlo.after hostOps1 (W2 m ρ c) (Proc.devRef .tc main_v8) = _
    after_results
    rw [W2_arg4]
    rfl
  funext q
  show V3 m ρ c main_v8 (ix2 (0 : Fin 1) q) = _
  rw [e]
  exact shapeCast_a_1a_apply _ _ 0 q

theorem row_v9 (c : Dev nD) : row0 (V3 m ρ c main_v9) = vec (m ((c : Thread nD τ).loc main_arg5)) := by
  have e : V3 m ρ c main_v9 = shapeCast S1x64 (m ((c : Thread nD τ).loc main_arg5)) shapeCasts_S64_S1x64 := by
    show StableHlo.after hostOps1 (W2 m ρ c) (Proc.devRef .tc main_v9) = _
    after_results
    rw [W2_arg5]
    rfl
  funext q
  show V3 m ρ c main_v9 (ix2 (0 : Fin 1) q) = _
  rw [e]
  exact shapeCast_a_1a_apply _ _ 0 q

theorem row_v10 (c : Dev nD) : row0 (V3 m ρ c main_v10) = vec (m ((c : Thread nD τ).loc main_arg7)) := by
  have e : V3 m ρ c main_v10 = shapeCast S1x64 (m ((c : Thread nD τ).loc main_arg7)) shapeCasts_S64_S1x64 := by
    show StableHlo.after hostOps1 (W2 m ρ c) (Proc.devRef .tc main_v10) = _
    after_results
    rw [W2_arg7]
    rfl
  funext q
  show V3 m ρ c main_v10 (ix2 (0 : Fin 1) q) = _
  rw [e]
  exact shapeCast_a_1a_apply _ _ 0 q

theorem row_v11 (c : Dev nD) : row0 (V3 m ρ c main_v11) = vec (m ((c : Thread nD τ).loc main_arg9)) := by
  have e : V3 m ρ c main_v11 = shapeCast S1x64 (m ((c : Thread nD τ).loc main_arg9)) shapeCasts_S64_S1x64 := by
    show StableHlo.after hostOps1 (W2 m ρ c) (Proc.devRef .tc main_v11) = _
    after_results
    rw [W2_arg9]
    rfl
  funext q
  show V3 m ρ c main_v11 (ix2 (0 : Fin 1) q) = _
  rw [e]
  exact shapeCast_a_1a_apply _ _ 0 q

theorem row_v12 (c : Dev nD) : row0 (V3 m ρ c main_v12) = vec (m ((c : Thread nD τ).loc main_arg11)) := by
  have e : V3 m ρ c main_v12 = shapeCast S1x2 (m ((c : Thread nD τ).loc main_arg11)) shapeCasts_S2_S1x2 := by
    show StableHlo.after hostOps1 (W2 m ρ c) (Proc.devRef .tc main_v12) = _
    after_results
    rw [W2_arg11]
    rfl
  funext q
  show V3 m ρ c main_v12 (ix2 (0 : Fin 1) q) = _
  rw [e]
  exact shapeCast_a_1a_apply _ _ 0 q

theorem row_v13 (c : Dev nD) : row0 (V3 m ρ c main_v13) = vec (m ((c : Thread nD τ).loc main_arg13)) := by
  have e : V3 m ρ c main_v13 = shapeCast S1x64 (m ((c : Thread nD τ).loc main_arg13)) shapeCasts_S64_S1x64 := by
    show StableHlo.after hostOps1 (W2 m ρ c) (Proc.devRef .tc main_v13) = _
    after_results
    rw [W2_arg13]
    rfl
  funext q
  show V3 m ρ c main_v13 (ix2 (0 : Fin 1) q) = _
  rw [e]
  exact shapeCast_a_1a_apply _ _ 0 q

theorem row_v14 (c : Dev nD) : row0 (V3 m ρ c main_v14) = vec (m ((c : Thread nD τ).loc main_arg15)) := by
  have e : V3 m ρ c main_v14 = shapeCast S1x2000 (m ((c : Thread nD τ).loc main_arg15)) shapeCasts_S2000_S1x2000 := by
    show StableHlo.after hostOps1 (W2 m ρ c) (Proc.devRef .tc main_v14) = _
    after_results
    rw [W2_arg15]
    rfl
  funext q
  show V3 m ρ c main_v14 (ix2 (0 : Fin 1) q) = _
  rw [e]
  exact shapeCast_a_1a_apply _ _ 0 q

theorem row_v38 (c : Dev nD) : row0 (V5 m ρ c main_v38) = vec (m ((c : Thread nD τ).loc main_arg17)) := by
  have e : V5 m ρ c main_v38 = shapeCast S1x64 (m ((c : Thread nD τ).loc main_arg17)) shapeCasts_S64_S1x64 := by
    show StableHlo.after hostOps2 (W4 m ρ c) (Proc.devRef .tc main_v38) = _
    after_results_simp
    rw [W4_arg17]
    rfl
  funext q
  show V5 m ρ c main_v38 (ix2 (0 : Fin 1) q) = _
  rw [e]
  exact shapeCast_a_1a_apply _ _ 0 q

theorem row_v39 (c : Dev nD) : row0 (V5 m ρ c main_v39) = vec (m ((c : Thread nD τ).loc main_arg19)) := by
  have e : V5 m ρ c main_v39 = shapeCast S1x2000 (m ((c : Thread nD τ).loc main_arg19)) shapeCasts_S2000_S1x2000 := by
    show StableHlo.after hostOps2 (W4 m ρ c) (Proc.devRef .tc main_v39) = _
    after_results_simp
    rw [W4_arg19]
    rfl
  funext q
  show V5 m ρ c main_v39 (ix2 (0 : Fin 1) q) = _
  rw [e]
  exact shapeCast_a_1a_apply _ _ 0 q

theorem at5_arg16 (c : Dev nD) : V5 m ρ c main_arg16 = m ((c : Thread nD τ).loc main_arg16) := by
  show StableHlo.after hostOps2 (W4 m ρ c) (Proc.devRef .tc main_arg16) = _
  after_results_simp
  exact W4_arg16 m ρ c

theorem at5_arg18 (c : Dev nD) : V5 m ρ c main_arg18 = m ((c : Thread nD τ).loc main_arg18) := by
  show StableHlo.after hostOps2 (W4 m ρ c) (Proc.devRef .tc main_arg18) = _
  after_results_simp
  exact W4_arg18 m ρ c

/-! ## The second kernel's arrays -/

theorem hRow_eq (c : Dev nD) (p : Fin 50000) :
    Region1.hRow (V3 m ρ) c p = embedRow (vec (m ((c : Thread nD τ).loc main_arg4))) (vec (m ((c : Thread nD τ).loc main_arg5))) (mat (m ((c : Thread nD τ).loc main_arg6))) (vec (m ((c : Thread nD τ).loc main_arg7))) (mean (zRow (m ((c : Thread nD τ).loc main_arg0)) (m ((c : Thread nD τ).loc main_arg2)) (m ((c : Thread nD τ).loc main_arg3)))) (varMoments (zRow (m ((c : Thread nD τ).loc main_arg0)) (m ((c : Thread nD τ).loc main_arg2)) (m ((c : Thread nD τ).loc main_arg3)))) ((zRow (m ((c : Thread nD τ).loc main_arg0)) (m ((c : Thread nD τ).loc main_arg2)) (m ((c : Thread nD τ).loc main_arg3))) p) := by
  unfold Region1.hRow
  rw [row_v8, row_v9, at3_arg6, row_v10, mu_row, var_row, zRow3]

theorem hArr_eq (c : Dev nD) : Region1.hArr (V3 m ρ) c = (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) := by
  funext i
  obtain ⟨p, q, rfl⟩ : ∃ (p : Fin 50000) (q : Fin 64), i = ix2 p q := ⟨i 0, i 1, eq_ix2 i⟩
  rw [embed_apply]
  exact congrFun (hRow_eq m ρ c p) q

theorem posArr_eq (c : Dev nD) : Region1.posArr (V3 m ρ) c = headOf (m ((c : Thread nD τ).loc main_arg8)) (m ((c : Thread nD τ).loc main_arg9)) (m ((c : Thread nD τ).loc main_arg10)) (m ((c : Thread nD τ).loc main_arg11)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) := by
  funext i
  obtain ⟨p, q, rfl⟩ : ∃ (p : Fin 50000) (q : Fin 2), i = ix2 p q := ⟨i 0, i 1, eq_ix2 i⟩
  rw [headOf_apply]
  show headRow (mat (V3 m ρ c main_arg8)) (row0 (V3 m ρ c main_v11)) (mat (V3 m ρ c main_arg10)) (row0 (V3 m ρ c main_v12)) (Region1.hRow (V3 m ρ) c p) q = _
  rw [at3_arg8, row_v11, at3_arg10, row_v12, hRow_eq]
  refine congrArg (fun a => headRow (mat (m ((c : Thread nD τ).loc main_arg8))) (vec (m ((c : Thread nD τ).loc main_arg9))) (mat (m ((c : Thread nD τ).loc main_arg10))) (vec (m ((c : Thread nD τ).loc main_arg11))) a q) (funext fun k => ?_)
  rw [embed_apply]

theorem selfArr_eq (c : Dev nD) : Region1.selfArr (V3 m ρ) c = headOf (m ((c : Thread nD τ).loc main_arg12)) (m ((c : Thread nD τ).loc main_arg13)) (m ((c : Thread nD τ).loc main_arg14)) (m ((c : Thread nD τ).loc main_arg15)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) := by
  funext i
  obtain ⟨p, q, rfl⟩ : ∃ (p : Fin 50000) (q : Fin 2000), i = ix2 p q := ⟨i 0, i 1, eq_ix2 i⟩
  rw [headOf_apply]
  show headRow (mat (V3 m ρ c main_arg12)) (row0 (V3 m ρ c main_v13)) (mat (V3 m ρ c main_arg14)) (row0 (V3 m ρ c main_v14)) (Region1.hRow (V3 m ρ) c p) q = _
  rw [at3_arg12, row_v13, at3_arg14, row_v14, hRow_eq]
  refine congrArg (fun a => headRow (mat (m ((c : Thread nD τ).loc main_arg12))) (vec (m ((c : Thread nD τ).loc main_arg13))) (mat (m ((c : Thread nD τ).loc main_arg14))) (vec (m ((c : Thread nD τ).loc main_arg15))) a q) (funext fun k => ?_)
  rw [embed_apply]

/-! ## The neighbour average on the host, and the third kernel's array -/

theorem W4_h (c : Dev nD) : W4 m ρ c (Proc.devRef .tc main_v15_0) = (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) :=
  ((W4_arr m ρ c 15).trans (Region1.finalH (V3 m ρ) c)).trans (hArr_eq m ρ c)

/-- The kernel program spells the gather and the two scatters with the reference's dimension records. -/
theorem gatherDims_eq : Cert.KernelIdeal.gather_S50000x64_S800000x1_S800000x64_1_0_n_n_0_1_164
    = Cert.ReferenceIdeal.gather_S50000x64_S800000x1_S800000x64_1_0_n_n_0_1_164 := rfl
theorem scatterDims_eq : Cert.KernelIdeal.scatter_S50000x64_S800000x1_S800000x64_1_0_0_1
    = Cert.ReferenceIdeal.scatter_S50000x64_S800000x1_S800000x64_1_0_0_1 := rfl
theorem scatterCountDims_eq : Cert.KernelIdeal.scatter_S50000x1_S800000x1_S800000x1_1_0_0_1
    = Cert.ReferenceIdeal.scatter_S50000x1_S800000x1_S800000x1_1_0_0_1 := rfl

/-- The host's chain from the embedding and the edge list is the shared neighbour average. -/
theorem at5_agg (c : Dev nD) : V5 m ρ c main_v37 = neighbourMean (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) (m ((c : Thread nD τ).loc main_arg1)) := by
  show StableHlo.after hostOps2 (W4 m ρ c) (Proc.devRef .tc main_v37) = _
  after_results_simp
  rw [W4_h, W4_arg1, gatherDims_eq, scatterDims_eq, scatterCountDims_eq]
  simp only [neighbourMean, neighbourSum, neighbourCount, asColumn, wrapSources, edgeSources, edgeTargets]
  rfl

theorem nbrArr_eq (c : Dev nD) :
    Region2.nbrArr (V5 m ρ) c = headOf (m ((c : Thread nD τ).loc main_arg16)) (m ((c : Thread nD τ).loc main_arg17)) (m ((c : Thread nD τ).loc main_arg18)) (m ((c : Thread nD τ).loc main_arg19)) (neighbourMean (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) (m ((c : Thread nD τ).loc main_arg1))) := by
  funext i
  obtain ⟨p, q, rfl⟩ : ∃ (p : Fin 50000) (q : Fin 2000), i = ix2 p q := ⟨i 0, i 1, eq_ix2 i⟩
  rw [headOf_apply]
  show headRow (mat (V5 m ρ c main_arg16)) (row0 (V5 m ρ c main_v38)) (mat (V5 m ρ c main_arg18)) (row0 (V5 m ρ c main_v39)) (fun k => V5 m ρ c main_v37 (ix2 p k)) q = _
  rw [at5_arg16, row_v38, at5_arg18, row_v39, at5_agg]

/-! ## The four results at the end of the run -/

theorem res_h (c : Dev nD) : W6 m ρ c (Proc.devRef .tc main_v15_0) = (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) :=
  (W6_of_ne m ρ c main_v15_0 (by decide)).trans ((by
    show StableHlo.after hostOps2 (W4 m ρ c) (Proc.devRef .tc main_v15_0) = _
    after_results_simp : W5 m ρ c (Proc.devRef .tc main_v15_0) = W4 m ρ c (Proc.devRef .tc main_v15_0)).trans (W4_h m ρ c))

theorem res_pos (c : Dev nD) : W6 m ρ c (Proc.devRef .tc main_v15_1) = headOf (m ((c : Thread nD τ).loc main_arg8)) (m ((c : Thread nD τ).loc main_arg9)) (m ((c : Thread nD τ).loc main_arg10)) (m ((c : Thread nD τ).loc main_arg11)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) :=
  (W6_of_ne m ρ c main_v15_1 (by decide)).trans ((by
    show StableHlo.after hostOps2 (W4 m ρ c) (Proc.devRef .tc main_v15_1) = _
    after_results_simp : W5 m ρ c (Proc.devRef .tc main_v15_1) = W4 m ρ c (Proc.devRef .tc main_v15_1)).trans
    (((W4_arr m ρ c 16).trans (Region1.finalPos (V3 m ρ) c)).trans (posArr_eq m ρ c)))

theorem res_self (c : Dev nD) : W6 m ρ c (Proc.devRef .tc main_v15_2) = headOf (m ((c : Thread nD τ).loc main_arg12)) (m ((c : Thread nD τ).loc main_arg13)) (m ((c : Thread nD τ).loc main_arg14)) (m ((c : Thread nD τ).loc main_arg15)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) :=
  (W6_of_ne m ρ c main_v15_2 (by decide)).trans ((by
    show StableHlo.after hostOps2 (W4 m ρ c) (Proc.devRef .tc main_v15_2) = _
    after_results_simp : W5 m ρ c (Proc.devRef .tc main_v15_2) = W4 m ρ c (Proc.devRef .tc main_v15_2)).trans
    (((W4_arr m ρ c 17).trans (Region1.finalSelf (V3 m ρ) c)).trans (selfArr_eq m ρ c)))

theorem res_nbr (c : Dev nD) :
    W6 m ρ c (Proc.devRef .tc main_v40) = headOf (m ((c : Thread nD τ).loc main_arg16)) (m ((c : Thread nD τ).loc main_arg17)) (m ((c : Thread nD τ).loc main_arg18)) (m ((c : Thread nD τ).loc main_arg19)) (neighbourMean (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) (m ((c : Thread nD τ).loc main_arg1))) :=
  ((W6_arr m ρ c 5).trans (Region2.finalNbr (V5 m ρ) c)).trans (nbrArr_eq m ρ c)

/-- The run, read: the four results as the specification's functions of the arguments, the arguments unchanged. -/
theorem run : θ_run defs (onTc (τ := τ) (main (F := Ideal))) ⟨m, fun _ => 0, ρ⟩ (fun r => ∀ c : Dev nD,
      r.2.mem ((c.tc : Thread nD τ).loc main_v15_0) = (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3)))))
      ∧ r.2.mem ((c.tc : Thread nD τ).loc main_v15_1) = headOf (m ((c : Thread nD τ).loc main_arg8)) (m ((c : Thread nD τ).loc main_arg9)) (m ((c : Thread nD τ).loc main_arg10)) (m ((c : Thread nD τ).loc main_arg11)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3)))))
      ∧ r.2.mem ((c.tc : Thread nD τ).loc main_v15_2) = headOf (m ((c : Thread nD τ).loc main_arg12)) (m ((c : Thread nD τ).loc main_arg13)) (m ((c : Thread nD τ).loc main_arg14)) (m ((c : Thread nD τ).loc main_arg15)) (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3)))))
      ∧ r.2.mem ((c.tc : Thread nD τ).loc main_v40) = headOf (m ((c : Thread nD τ).loc main_arg16)) (m ((c : Thread nD τ).loc main_arg17)) (m ((c : Thread nD τ).loc main_arg18)) (m ((c : Thread nD τ).loc main_arg19)) (neighbourMean (embed (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (varMoments (zRow (m ((c : Thread nD τ).loc main_arg0)) (m ((c : Thread nD τ).loc main_arg2)) (m ((c : Thread nD τ).loc main_arg3))))) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (res_h m ρ c), (h c).2.1.trans (res_pos m ρ c),
      (h c).2.2.1.trans (res_self m ρ c), (h c).2.2.2.1.trans (res_nbr m ρ c), (h c).2.2.2.2⟩)
    (Run.run_results m ρ)

end Cert.KernelIdeal.Whole

end
-- ==== Proof.RefValue.lean ====
/-
  The reference program's four results, read index by index, are the common form of the network: the embedding
  with the variance taken as the mean of the squared deviations, and the three decoder heads applied to the
  embedding (twice) and to its neighbour average.
-/
import proofs.«151171_j14886356648152_1_alg».proof.Proof.Gen.ReferenceIdeal.Read
import proofs.«151171_j14886356648152_1_alg».proof.Proof.Spec
import proofs.«151171_j14886356648152_1_alg».proof.Proof.Glue

noncomputable section

namespace Cert.ReferenceIdeal.RefValue

open Cert.ReferenceIdeal Cert.ReferenceIdeal.Gen Cert.ReferenceIdeal.Read Idealize.ShloMosaic Idealize.ShloMosaic.ValueIdx
  Idealize.SL.Sem

/-- Two indices of an array are equal when their coordinates are: one case per axis, each closed by computation. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## Where each operation reads its operands

A matrix product reads row `p` of its left operand and column `q` of its right one; a bias stretched over the rows
is read at its column; a column sum runs over the rows of one column. -/

theorem lidx_v0_ix (p : Fin 50000) (q : Fin 64) (k : Fin 2000) : lidx_main_v0 (ix2 p q) k = ix2 p k := by idx2
theorem ridx_v0_ix (p : Fin 50000) (q : Fin 64) (k : Fin 2000) : ridx_main_v0 (ix2 p q) k = ix2 k q := by idx2
theorem lidx_v30_ix (p : Fin 50000) (q : Fin 64) (k : Fin 64) : lidx_main_v30 (ix2 p q) k = ix2 p k := by idx2
theorem ridx_v30_ix (p : Fin 50000) (q : Fin 64) (k : Fin 64) : ridx_main_v30 (ix2 p q) k = ix2 k q := by idx2
theorem lidx_v34_ix (p : Fin 50000) (q : Fin 64) (k : Fin 64) : lidx_main_v34 (ix2 p q) k = ix2 p k := by idx2
theorem ridx_v34_ix (p : Fin 50000) (q : Fin 64) (k : Fin 64) : ridx_main_v34 (ix2 p q) k = ix2 k q := by idx2
theorem lidx_v39_ix (p : Fin 50000) (q : Fin 2) (k : Fin 64) : lidx_main_v39 (ix2 p q) k = ix2 p k := by idx2
theorem ridx_v39_ix (p : Fin 50000) (q : Fin 2) (k : Fin 64) : ridx_main_v39 (ix2 p q) k = ix2 k q := by idx2
theorem lidx_v43_ix (p : Fin 50000) (q : Fin 64) (k : Fin 64) : lidx_main_v43 (ix2 p q) k = ix2 p k := by idx2
theorem ridx_v43_ix (p : Fin 50000) (q : Fin 64) (k : Fin 64) : ridx_main_v43 (ix2 p q) k = ix2 k q := by idx2
theorem lidx_v48_ix (p : Fin 50000) (q : Fin 2000) (k : Fin 64) : lidx_main_v48 (ix2 p q) k = ix2 p k := by idx2
theorem ridx_v48_ix (p : Fin 50000) (q : Fin 2000) (k : Fin 64) : ridx_main_v48 (ix2 p q) k = ix2 k q := by idx2
theorem lidx_v74_ix (p : Fin 50000) (q : Fin 64) (k : Fin 64) : lidx_main_v74 (ix2 p q) k = ix2 p k := by idx2
theorem ridx_v74_ix (p : Fin 50000) (q : Fin 64) (k : Fin 64) : ridx_main_v74 (ix2 p q) k = ix2 k q := by idx2
theorem lidx_v79_ix (p : Fin 50000) (q : Fin 2000) (k : Fin 64) : lidx_main_v79 (ix2 p q) k = ix2 p k := by idx2
theorem ridx_v79_ix (p : Fin 50000) (q : Fin 2000) (k : Fin 64) : ridx_main_v79 (ix2 p q) k = ix2 k q := by idx2
theorem idx_v2_v1_ix (p : Fin 50000) (q : Fin 64) : idx_main_v1 (idx_main_v2 (ix2 p q)) = ix1 q := by idx1
theorem idx_v8_v7_ix (p : Fin 50000) (q : Fin 64) : idx_main_v7 (idx_main_v8 (ix2 p q)) = ix1 q := by idx1
theorem idx_v15_v14_ix (p : Fin 50000) (q : Fin 64) : idx_main_v14 (idx_main_v15 (ix2 p q)) = ix1 q := by idx1
theorem idx_v18_v17_ix (p : Fin 50000) (q : Fin 64) : idx_main_v17 (idx_main_v18 (ix2 p q)) = ix1 q := by idx1
theorem idx_v24_v23_ix (p : Fin 50000) (q : Fin 64) : idx_main_v23 (idx_main_v24 (ix2 p q)) = ix1 q := by idx1
theorem idx_v27_v26_ix (p : Fin 50000) (q : Fin 64) : idx_main_v26 (idx_main_v27 (ix2 p q)) = ix1 q := by idx1
theorem idx_v32_v31_ix (p : Fin 50000) (q : Fin 64) : idx_main_v31 (idx_main_v32 (ix2 p q)) = ix1 q := by idx1
theorem idx_v36_v35_ix (p : Fin 50000) (q : Fin 64) : idx_main_v35 (idx_main_v36 (ix2 p q)) = ix1 q := by idx1
theorem idx_v41_v40_ix (p : Fin 50000) (q : Fin 2) : idx_main_v40 (idx_main_v41 (ix2 p q)) = ix1 q := by idx1
theorem idx_v45_v44_ix (p : Fin 50000) (q : Fin 64) : idx_main_v44 (idx_main_v45 (ix2 p q)) = ix1 q := by idx1
theorem idx_v50_v49_ix (p : Fin 50000) (q : Fin 2000) : idx_main_v49 (idx_main_v50 (ix2 p q)) = ix1 q := by idx1
theorem idx_v76_v75_ix (p : Fin 50000) (q : Fin 64) : idx_main_v75 (idx_main_v76 (ix2 p q)) = ix1 q := by idx1
theorem idx_v81_v80_ix (p : Fin 50000) (q : Fin 2000) : idx_main_v80 (idx_main_v81 (ix2 p q)) = ix1 q := by idx1
theorem idx_v4_ix (q : Fin 64) (k : Fin 50000) : idx_main_v4 (ix1 q) k = ix2 k q := by idx2
theorem idx_v11_ix (q : Fin 64) (k : Fin 50000) : idx_main_v11 (ix1 q) k = ix2 k q := by idx2

/-! ## The embedding

The first layer, the column mean and the column variance are read first, each at an index of literal coordinates; the
embedding is then one row of the normalised first layer against a column of the second layer's matrix. -/

/-- The first layer at an index is the row form: the row of `x` against the column of `W1`, plus the bias. -/
theorem z_at (x0 : (⟨S50000x2000, .f32⟩ : BufTy).Contents (Elt Ideal)) (x2 : (⟨S2000x64, .f32⟩ : BufTy).Contents (Elt Ideal))
    (x3 : (⟨S64, .f32⟩ : BufTy).Contents (Elt Ideal)) (p : Fin 50000) (q : Fin 64) :
    val_main_v3 (F := Ideal) x0 x2 x3 (ix2 p q) = Cert.Gnn.zRow x0 x2 x3 p q := by
  simp -implicitDefEqProofs only [val_main_v3_apply, val_main_v0_apply, val_main_v2_apply, val_main_v1_apply, lidx_v0_ix, ridx_v0_ix,
    idx_v2_v1_ix, Ideal.addf_def, Cert.Gnn.zRow, Cert.Gnn.lin, Cert.Gnn.mat, Cert.Gnn.vec]

/-- The column mean: the sum over the rows, from zero, divided by the number of rows. -/
theorem mean_at (x0 : (⟨S50000x2000, .f32⟩ : BufTy).Contents (Elt Ideal)) (x2 : (⟨S2000x64, .f32⟩ : BufTy).Contents (Elt Ideal))
    (x3 : (⟨S64, .f32⟩ : BufTy).Contents (Elt Ideal)) (q : Fin 64) :
    val_main_v6 (F := Ideal) x0 x2 x3 (ix1 q) = Cert.Gnn.mean (Cert.Gnn.zRow x0 x2 x3) q := by
  simp -implicitDefEqProofs only [val_main_v6_apply, val_main_v4_apply, val_main_v5_apply, val_main_cst_apply, val_main_cst_0_apply,
    idx_v4_ix, z_at, Ideal.hostDivf_def, Ideal.ofBits_def, Ideal.ofBits_zero_f32, zero_add, Cert.Gnn.mean, Cert.Gnn.colSum]

/-- The column variance: the mean of the squared deviations from the column mean. -/
theorem var_at (x0 : (⟨S50000x2000, .f32⟩ : BufTy).Contents (Elt Ideal)) (x2 : (⟨S2000x64, .f32⟩ : BufTy).Contents (Elt Ideal))
    (x3 : (⟨S64, .f32⟩ : BufTy).Contents (Elt Ideal)) (q : Fin 64) :
    val_main_v13 (F := Ideal) x0 x2 x3 (ix1 q) = Cert.Gnn.varCentred (Cert.Gnn.zRow x0 x2 x3) q := by
  simp -implicitDefEqProofs only [val_main_v13_apply, val_main_v11_apply, val_main_v12_apply, val_main_cst_1_apply, val_main_cst_2_apply,
    val_main_v10_apply, val_main_v9_apply, val_main_v8_apply, val_main_v7_apply, idx_v11_ix, idx_v8_v7_ix, z_at, mean_at,
    Ideal.hostDivf_def, Ideal.mulf_def, Ideal.subf_def, Ideal.ofBits_def, Ideal.ofBits_zero_f32, zero_add,
    Cert.Gnn.varCentred]

/-- The embedding: every row normalised by the column statistics, scaled, shifted, clamped at zero, and passed through
    the second linear layer. -/
theorem h_eq (x0 : (⟨S50000x2000, .f32⟩ : BufTy).Contents (Elt Ideal)) (x2 : (⟨S2000x64, .f32⟩ : BufTy).Contents (Elt Ideal))
    (x3 x4 x5 : (⟨S64, .f32⟩ : BufTy).Contents (Elt Ideal)) (x6 : (⟨S64x64, .f32⟩ : BufTy).Contents (Elt Ideal))
    (x7 : (⟨S64, .f32⟩ : BufTy).Contents (Elt Ideal)) :
    Read.val_main_v33 (F := Ideal) x0 x2 x3 x4 x5 x6 x7
      = Cert.Gnn.embed x0 x2 x3 x4 x5 x6 x7 (Cert.Gnn.varCentred (Cert.Gnn.zRow x0 x2 x3)) := by
  funext j
  obtain ⟨p, q, rfl⟩ : ∃ (p : Fin 50000) (q : Fin 64), j = ix2 p q := ⟨j 0, j 1, eq_ix2 j⟩
  rw [Cert.Gnn.embed_apply]
  simp -implicitDefEqProofs only [val_main_v33_apply, val_main_v30_apply, val_main_v32_apply, val_main_v31_apply, val_main_v29_apply,
    val_main_call0_v0_apply, val_main_call0_cst_apply, val_main_v28_apply, val_main_v27_apply, val_main_v26_apply,
    val_main_v25_apply, val_main_v24_apply, val_main_v23_apply, val_main_v22_apply, val_main_v21_apply, val_main_v20_apply,
    val_main_cst_3_apply, val_main_v19_apply, val_main_v18_apply, val_main_v17_apply, val_main_v16_apply, val_main_v15_apply,
    val_main_v14_apply, lidx_v30_ix, ridx_v30_ix, idx_v32_v31_ix, idx_v27_v26_ix, idx_v24_v23_ix, idx_v18_v17_ix,
    idx_v15_v14_ix, z_at, mean_at, var_at, Ideal.addf_def, Ideal.subf_def, Ideal.mulf_def, Ideal.maximumf_def,
    Ideal.hostUnary_rsqrt_def, Ideal.ofBits_def, Cert.Gnn.embedRow, Cert.Gnn.normRow, Cert.Gnn.lin, Cert.Gnn.relu,
    Cert.Gnn.mat, Cert.Gnn.vec]

/-! ## The heads

Each head is the same function of one row — linear, clamp at zero, linear —; the three differ in their matrices and
biases and in the row they read: a row of the embedding (twice) or a row of its neighbour average. -/

/-- The position head: linear, clamp at zero, linear, on every row of the embedding. -/
theorem pos_eq (x0 : (⟨S50000x2000, .f32⟩ : BufTy).Contents (Elt Ideal)) (x2 : (⟨S2000x64, .f32⟩ : BufTy).Contents (Elt Ideal))
    (x3 x4 x5 : (⟨S64, .f32⟩ : BufTy).Contents (Elt Ideal)) (x6 : (⟨S64x64, .f32⟩ : BufTy).Contents (Elt Ideal))
    (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x2, .f32⟩ : BufTy).Contents (Elt Ideal)) (x11 : (⟨S2, .f32⟩ : BufTy).Contents (Elt Ideal)) :
    Read.val_main_v42 (F := Ideal) x0 x2 x3 x4 x5 x6 x7 x8 x9 x10 x11
      = Cert.Gnn.headOf x8 x9 x10 x11 (Read.val_main_v33 (F := Ideal) x0 x2 x3 x4 x5 x6 x7) := by
  funext j
  obtain ⟨p, q, rfl⟩ : ∃ (p : Fin 50000) (q : Fin 2), j = ix2 p q := ⟨j 0, j 1, eq_ix2 j⟩
  rw [Cert.Gnn.headOf_apply]
  simp -implicitDefEqProofs only [val_main_v42_apply, val_main_v39_apply, val_main_v38_apply, val_main_v37_apply, val_main_v34_apply, val_main_v36_apply, val_main_v35_apply, val_main_call1_v0_apply, val_main_call1_cst_apply, val_main_v41_apply, val_main_v40_apply]
  generalize val_main_v33 (F := Ideal) x0 x2 x3 x4 x5 x6 x7 = hv
  simp -implicitDefEqProofs only [lidx_v39_ix, ridx_v39_ix, lidx_v34_ix, ridx_v34_ix, idx_v36_v35_ix, idx_v41_v40_ix, Ideal.addf_def, Ideal.maximumf_def, Ideal.ofBits_def,
    Cert.Gnn.headRow, Cert.Gnn.lin, Cert.Gnn.relu, Cert.Gnn.mat, Cert.Gnn.vec]

/-- The expression head on every row of the embedding. -/
theorem self_eq (x0 : (⟨S50000x2000, .f32⟩ : BufTy).Contents (Elt Ideal)) (x2 : (⟨S2000x64, .f32⟩ : BufTy).Contents (Elt Ideal))
    (x3 x4 x5 : (⟨S64, .f32⟩ : BufTy).Contents (Elt Ideal)) (x6 : (⟨S64x64, .f32⟩ : BufTy).Contents (Elt Ideal))
    (x7 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x2000, .f32⟩ : BufTy).Contents (Elt Ideal)) (x15 : (⟨S2000, .f32⟩ : BufTy).Contents (Elt Ideal)) :
    Read.val_main_v51 (F := Ideal) x0 x2 x3 x4 x5 x6 x7 x12 x13 x14 x15
      = Cert.Gnn.headOf x12 x13 x14 x15 (Read.val_main_v33 (F := Ideal) x0 x2 x3 x4 x5 x6 x7) := by
  funext j
  obtain ⟨p, q, rfl⟩ : ∃ (p : Fin 50000) (q : Fin 2000), j = ix2 p q := ⟨j 0, j 1, eq_ix2 j⟩
  rw [Cert.Gnn.headOf_apply]
  simp -implicitDefEqProofs only [val_main_v51_apply, val_main_v48_apply, val_main_v47_apply, val_main_v46_apply, val_main_v43_apply, val_main_v45_apply, val_main_v44_apply, val_main_call2_v0_apply, val_main_call2_cst_apply, val_main_v50_apply, val_main_v49_apply]
  generalize val_main_v33 (F := Ideal) x0 x2 x3 x4 x5 x6 x7 = hv
  simp -implicitDefEqProofs only [lidx_v48_ix, ridx_v48_ix, lidx_v43_ix, ridx_v43_ix, idx_v45_v44_ix, idx_v50_v49_ix, Ideal.addf_def, Ideal.maximumf_def, Ideal.ofBits_def,
    Cert.Gnn.headRow, Cert.Gnn.lin, Cert.Gnn.relu, Cert.Gnn.mat, Cert.Gnn.vec]

/-- The reference's neighbour average is the shared composition of array operations, applied to its embedding. -/
theorem nbrMean_eq (x0 : (⟨S50000x2000, .f32⟩ : BufTy).Contents (Elt Ideal)) (x1 : (⟨S2x800000, .i32⟩ : BufTy).Contents (Elt Ideal))
    (x2 : (⟨S2000x64, .f32⟩ : BufTy).Contents (Elt Ideal)) (x3 x4 x5 : (⟨S64, .f32⟩ : BufTy).Contents (Elt Ideal))
    (x6 : (⟨S64x64, .f32⟩ : BufTy).Contents (Elt Ideal)) (x7 : (⟨S64, .f32⟩ : BufTy).Contents (Elt Ideal)) :
    Read.val_main_v73 (F := Ideal) x0 x1 x2 x3 x4 x5 x6 x7
      = Cert.Gnn.neighbourMean (Read.val_main_v33 (F := Ideal) x0 x2 x3 x4 x5 x6 x7) x1 := by
  simp only [val_main_v73, val_main_v72, val_main_v71, val_main_v70, val_main_v69, val_main_v68, val_main_v67, val_main_v66,
    val_main_v65, val_main_v64, val_main_v63, val_main_v62, val_main_v61, val_main_v60, val_main_v59, val_main_v58,
    val_main_v57, val_main_v56, val_main_v55, val_main_v54, val_main_v53, val_main_v52, val_main_c, val_main_c_4,
    val_main_cst_5, val_main_cst_6, val_main_cst_7, val_main_cst_8, Cert.Gnn.neighbourMean, Cert.Gnn.neighbourSum,
    Cert.Gnn.neighbourCount, Cert.Gnn.asColumn, Cert.Gnn.wrapSources, Cert.Gnn.edgeSources, Cert.Gnn.edgeTargets]

/-- The neighbours' expression head on every row of the neighbour average of the embedding. -/
theorem nbr_eq (x0 : (⟨S50000x2000, .f32⟩ : BufTy).Contents (Elt Ideal)) (x1 : (⟨S2x800000, .i32⟩ : BufTy).Contents (Elt Ideal))
    (x2 : (⟨S2000x64, .f32⟩ : BufTy).Contents (Elt Ideal)) (x3 x4 x5 : (⟨S64, .f32⟩ : BufTy).Contents (Elt Ideal))
    (x6 : (⟨S64x64, .f32⟩ : BufTy).Contents (Elt Ideal)) (x7 : (⟨S64, .f32⟩ : BufTy).Contents (Elt Ideal))
    (x16 : (⟨S64x64, .f32⟩ : BufTy).Contents (Elt Ideal)) (x17 : (⟨S64, .f32⟩ : BufTy).Contents (Elt Ideal))
    (x18 : (⟨S64x2000, .f32⟩ : BufTy).Contents (Elt Ideal)) (x19 : (⟨S2000, .f32⟩ : BufTy).Contents (Elt Ideal)) :
    Read.val_main_v82 (F := Ideal) x0 x1 x2 x3 x4 x5 x6 x7 x16 x17 x18 x19
      = Cert.Gnn.headOf x16 x17 x18 x19 (Cert.Gnn.neighbourMean (Read.val_main_v33 (F := Ideal) x0 x2 x3 x4 x5 x6 x7) x1) := by
  funext j
  obtain ⟨p, q, rfl⟩ : ∃ (p : Fin 50000) (q : Fin 2000), j = ix2 p q := ⟨j 0, j 1, eq_ix2 j⟩
  rw [Cert.Gnn.headOf_apply]
  simp -implicitDefEqProofs only [val_main_v82_apply, val_main_v79_apply, val_main_v78_apply, val_main_v77_apply, val_main_v74_apply,
    val_main_v76_apply, val_main_v75_apply, val_main_call3_v0_apply, val_main_call3_cst_apply, val_main_v81_apply,
    val_main_v80_apply, nbrMean_eq]
  generalize Cert.Gnn.neighbourMean (Read.val_main_v33 (F := Ideal) x0 x2 x3 x4 x5 x6 x7) x1 = hv
  simp -implicitDefEqProofs only [lidx_v79_ix, ridx_v79_ix, lidx_v74_ix, ridx_v74_ix, idx_v76_v75_ix, idx_v81_v80_ix,
    Ideal.addf_def, Ideal.maximumf_def, Ideal.ofBits_def, Cert.Gnn.headRow, Cert.Gnn.lin, Cert.Gnn.relu, Cert.Gnn.mat,
    Cert.Gnn.vec]

end Cert.ReferenceIdeal.RefValue

end
-- ==== Proof.VarLaw.lean ====
/-
  The variance law. For N real numbers with sum S and mean m = S / N,
  the sum of the squared deviations is  sum (r - m)^2 = sum r^2 - 2 m S + N m^2 = sum r^2 - N m^2,
  so the mean of the squared deviations equals the mean of the squares minus the square of the mean.
  Over the extended reals this holds when every entry is a real number (it fails at an infinite entry, where
  the two sides meet different undefined differences) and when the divisor is the number of entries, N = 50000.
-/
import proofs.«151171_j14886356648152_1_alg».proof.Proof.Spec

noncomputable section

namespace Cert.Gnn

open Idealize.ShloMosaic Idealize.ShloMosaic.ValueIdx

/-- The float word for the number of rows denotes the real number 50000:
    exponent field 142, fraction field 4411392, and (2^23 + 4411392) · 2^(142 − 127 − 23) = 12800000 / 256. -/
theorem spotsW_eq : spotsW = ((50000 : ℝ) : EReal) := by
  simp [Ideal.ofBits, Ideal.ieee, -EReal.coe_mul]; norm_num

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A linear layer with real inputs, real weights and a real bias has real outputs. -/
theorem zRow_real (x : Arr2 50000 2000) (W1 : Arr2 2000 64) (b1 : Arr1 64)
    (hx : ∀ i, ∃ r : ℝ, x i = (r : EReal)) (hW : ∀ i, ∃ r : ℝ, W1 i = (r : EReal))
    (hb : ∀ i, ∃ r : ℝ, b1 i = (r : EReal)) (i : Fin 50000) (j : Fin 64) :
    ∃ r : ℝ, zRow x W1 b1 i j = (r : EReal) := by
  choose rx hrx using hx
  choose rW hrW using hW
  choose rb hrb using hb
  refine ⟨(∑ k : Fin 2000, rx (ix2 i k) * rW (ix2 k j)) + rb (ix1 j), ?_⟩
  rw [EReal.coe_add, coe_sum]
  simp only [zRow, lin, hrx, hrW, hrb, EReal.coe_mul]

/-- The law over the reals, with the reciprocal `c` of the number `N` of entries as a factor:
    `(∑ r²) c − (S c)² = (∑ (r − S c)²) c`. -/
theorem real_var_law {ι : Type*} [Fintype ι] (r : ι → ℝ) (N c : ℝ) (hN : (Fintype.card ι : ℝ) = N)
    (hc : N * c = 1) :
    (∑ i, r i * r i) * c - ((∑ i, r i) * c) * ((∑ i, r i) * c)
      = (∑ i, (r i - (∑ i, r i) * c) * (r i - (∑ i, r i) * c)) * c := by
  set S : ℝ := ∑ i, r i with hS
  have h2 : ∀ i, (r i - S * c) * (r i - S * c) = r i * r i - 2 * (S * c) * r i + (S * c) * (S * c) :=
    fun i => by ring
  have h1 : ∑ i, (r i - S * c) * (r i - S * c)
      = (∑ i, r i * r i) - 2 * (S * c) * S + N * ((S * c) * (S * c)) := by
    rw [Finset.sum_congr rfl (fun i _ => h2 i), Finset.sum_add_distrib, Finset.sum_sub_distrib,
      ← Finset.mul_sum, Finset.sum_const, Finset.card_univ, nsmul_eq_mul, hN]
  rw [h1]
  linear_combination (-(S * c) * (S * c)) * hc

/-- Dividing a real number by the number of rows, as a real product. -/
theorem div_spotsW_coe (a : ℝ) : Ideal.div (a : EReal) spotsW = ((a * (1 / 50000 : ℝ) : ℝ) : EReal) := by
  rw [spotsW_eq, Ideal.div_coe (by norm_num : (50000 : ℝ) ≠ 0), ← EReal.coe_mul]

/-- The two variance formulas agree on a matrix of real numbers. -/
theorem varMoments_eq_varCentred (z : Fin 50000 → Fin 64 → EReal)
    (hz : ∀ i j, ∃ r : ℝ, z i j = (r : EReal)) : varMoments z = varCentred z := by
  choose r hr using hz
  have hzr : z = fun i j => (r i j : EReal) := by funext i j; exact hr i j
  subst hzr
  funext j
  have hQ : colSumSq (fun i j => (r i j : EReal)) j = ((∑ i, r i j * r i j : ℝ) : EReal) := by
    rw [colSumSq, coe_sum]; simp only [EReal.coe_mul]
  have hμ : mean (fun i j => (r i j : EReal)) j = (((∑ i, r i j) * (1 / 50000 : ℝ) : ℝ) : EReal) := by
    rw [mean, colSum, ← coe_sum, div_spotsW_coe]
  have hC : (∑ i : Fin 50000, ((r i j : EReal) - (((∑ i, r i j) * (1 / 50000 : ℝ) : ℝ) : EReal))
        * ((r i j : EReal) - (((∑ i, r i j) * (1 / 50000 : ℝ) : ℝ) : EReal)))
      = ((∑ i : Fin 50000, (r i j - (∑ i, r i j) * (1 / 50000 : ℝ)) * (r i j - (∑ i, r i j) * (1 / 50000 : ℝ)) : ℝ) : EReal) := by
    rw [coe_sum]; simp only [EReal.coe_mul, EReal.coe_sub]
  rw [varMoments, varCentred, hQ, hμ, hC, div_spotsW_coe, div_spotsW_coe, ← EReal.coe_mul, ← EReal.coe_sub]
  exact congrArg _ (real_var_law (fun i => r i j) 50000 (1 / 50000) (by simp) (by norm_num))

end Cert.Gnn

end
-- ==== Proof.Finite.lean ====
/-
  Finiteness of the inputs. The precondition says, of every float argument `a`, that `|a| < +∞` holds at every
  entry (an `and` over all entries), and it is the `and` of these statements over the arguments. An extended real
  whose absolute value `max a (−a)` is below `⊤` is neither `⊤` nor `⊥`, so it is a real number. Only the
  expression matrix, the first layer's weights and its bias are read off here: the variance law is about
  `z = x · W1 + b1` alone.
-/
import proofs.«151171_j14886356648152_1_alg».proof.Defs
import proofs.«151171_j14886356648152_1_alg».proof.Proof.Gen.Pre_finite_inputs
import Idealize.ShloMosaic.Lib.ReduceAll
import Idealize.ShloMosaic.Lib.IdealHost
import Idealize.ShloMosaic.Lib.ValueIdx

noncomputable section

namespace Cert.Gnn.Finite

open Idealize.ShloMosaic Idealize.ShloMosaic.ValueIdx Idealize.SL.Sem

/-- A one-bit word made from a Boolean is 1 exactly when the Boolean is true. -/
theorem ofBool_eq_one (b : Bool) : BitVec.ofBool b = 1#1 ↔ b = true := by cases b <;> decide

/-- The shape of rank 0 has one index. -/
instance : Subsingleton (⟨0, ![]⟩ : Shape).Idx := ⟨fun a b => funext fun d => d.elim0⟩

/-- An extended real whose absolute value is below the word `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [ofBool_eq_one] at h
  have hlt : max x (-x) < ⊤ := by simpa using h
  have h1 : x ≠ ⊤ := by
    rintro rfl
    simp at hlt
  have h2 : x ≠ ⊥ := by
    rintro rfl
    simp at hlt
  exact ⟨x.toReal, (EReal.coe_toReal h1 h2).symm⟩

/-- `all (|x| < +∞)` over an array, read at an entry: the entry is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (⟨0, ![]⟩ : Shape) .f32 0x7F800000#32)))
        (constantI (⟨0, ![]⟩ : Shape) 1 1#1) hr hu ix0 = 1#1)
    (i : s.Idx) : ∃ r : ℝ, x i = (r : EReal) := by
  have h := Host.reduce_andi_all _ _ hr hu _ e i
  rw [cmpf_apply, broadcastInDim_scalar_apply, constant_apply] at h
  exact real_of_abs_lt (x i) h

/-- Under the precondition the expression matrix, the first layer's weights and its bias hold real numbers. -/
theorem inputs_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have e := congrFun (hpre c) ix0
  -- the conjunction over the arguments, the first three innermost
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  simp only [andi, IntOp.andi_eq_one] at e
  obtain ⟨⟨⟨⟨⟨⟨⟨⟨⟨⟨⟨⟨⟨⟨⟨⟨⟨⟨h0, h2⟩, h3⟩, -⟩, -⟩, -⟩, -⟩, -⟩, -⟩, -⟩, -⟩, -⟩, -⟩, -⟩, -⟩, -⟩, -⟩, -⟩, -⟩ := e
  exact ⟨all_real _ _ _ _ h0, all_real _ _ _ _ h2, all_real _ _ _ _ h3⟩

end Cert.Gnn.Finite

end
-- ==== Proof.Assembly.lean ====
/-
  The claims. The two kernel programs' frames are the generated ones; the reference's is its generated run with the
  results dropped; the idealization rewrote nothing. For the value claim both programs are run from memories that agree
  on the arguments, and both end with the same four arrays: the embedding `embed … v` of the common specification, two
  heads of it, and a head of its neighbour average. The kernel takes the variance `v` as the mean of the squares minus
  the square of the mean, the reference as the mean of the squared deviations; the two are equal because every entry of
  `z = x · W1 + b1` is a real number — `x`, `W1` and `b1` are finite by the precondition — and the divisor 50000 is the
  number of rows.
-/
import proofs.«151171_j14886356648152_1_alg».proof.Defs
import proofs.«151171_j14886356648152_1_alg».proof.Proof.Gen.Kernel.Frame
import proofs.«151171_j14886356648152_1_alg».proof.Proof.Gen.KernelIdeal.Frame
import proofs.«151171_j14886356648152_1_alg».proof.Proof.Gen.ReferenceIdeal.Run
import proofs.«151171_j14886356648152_1_alg».proof.Proof.Gen.ReferenceIdeal.Read
import proofs.«151171_j14886356648152_1_alg».proof.Proof.Gen.Pre_finite_inputs
import proofs.«151171_j14886356648152_1_alg».proof.Proof.KValue
import proofs.«151171_j14886356648152_1_alg».proof.Proof.RefValue
import proofs.«151171_j14886356648152_1_alg».proof.Proof.VarLaw
import proofs.«151171_j14886356648152_1_alg».proof.Proof.Finite

set_option maxRecDepth 16384

noncomputable section

namespace Cert.Proof.Claims

open Idealize.ShloMosaic Idealize.ShloMosaic.TcCoe Idealize.SL.Sem Cert.Gnn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- The two variance formulas agree on `z` of finite arguments. -/
theorem variance_eq (m : (ℓ : Loc Cert.KernelIdeal.nD Cert.KernelIdeal.τ Cert.KernelIdeal.sig) → Buf (Elt Ideal) ℓ)
    (hpre : Cert.Pre_KernelIdeal m) (c : Dev Cert.KernelIdeal.nD) :
    varCentred (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
  obtain ⟨hx, hW, hb⟩ := Cert.Gnn.Finite.inputs_real m hpre c
  exact (varMoments_eq_varCentred _ (fun i j => zRow_real _ _ _ hx hW hb i j)).symm

set_option maxHeartbeats 1600000 in
theorem algebraic : Cert.algebraic_KernelIdeal_ReferenceIdeal := by
  intro m ρ m' ρ' hpre hagree
  refine ⟨fun c => (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))),
    fun c => headOf (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))),
    fun c => headOf (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))),
    fun c => headOf (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (neighbourMean (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) (m ((c.tc : Thread Cert.KernelIdeal.nD Cert.KernelIdeal.τ).loc Cert.KernelIdeal.main_arg1))),
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19⟩ := hagree c
  have hv := variance_eq m hpre c
  have eh : Cert.ReferenceIdeal.Read.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) := by
    rw [Cert.ReferenceIdeal.RefValue.h_eq, a0, a2, a3, a4, a5, a6, a7, hv]
  refine ⟨((h c).1.trans (Cert.ReferenceIdeal.Read.val_main_v33_eq _ _ _ _ _ _ _)).trans eh, ?_, ?_, ?_, (h c).2.2.2.2⟩
  · refine ((h c).2.1.trans (Cert.ReferenceIdeal.Read.val_main_v42_eq m' c)).trans ?_
    rw [Cert.ReferenceIdeal.RefValue.pos_eq, eh, a8, a9, a10, a11]
  · refine ((h c).2.2.1.trans (Cert.ReferenceIdeal.Read.val_main_v51_eq m' c)).trans ?_
    rw [Cert.ReferenceIdeal.RefValue.self_eq, eh, a12, a13, a14, a15]
  · refine ((h c).2.2.2.1.trans (Cert.ReferenceIdeal.Read.val_main_v82_eq m' c)).trans ?_
    rw [Cert.ReferenceIdeal.RefValue.nbr_eq, eh, a16, a17, a18, a19]
    exact congrArg (fun e => headOf (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (neighbourMean (embed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (varMoments (zRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) e)) a1

end Cert.Proof.Claims

end
-- ==== Proof.lean ====
/-
  The certificate's claim for the graph network on 50000 spots: a linear encoder with batch normalisation and a second
  linear layer gives each spot an embedding; three two-layer heads decode the position, the spot's own expression, and
  — from the average of the embeddings over the incoming edges — its neighbours' expression.

  The kernel program computes it in three tiled kernels with host arithmetic between them; the reference in plain array
  operations. Over the extended reals both are the same four arrays (Proof/Spec.lean), provided the batch variance, which
  the kernel takes as the mean of the squares minus the square of the mean and the reference as the mean of the squared
  deviations, is the same number: it is, when the arguments are finite (Proof/VarLaw.lean, Proof/Finite.lean).

  Proof/KLayers.lean, KPay.lean: the kernels' arithmetic at an entry. Proof/KRegion0.lean, KRegion1.lean, KRegion2.lean:
  each kernel's arrays after its grid. Proof/KRun.lean, KValue.lean: the kernel program's results as functions of its
  arguments. Proof/Glue.lean, RefValue.lean: the neighbour average as one shared function, and the reference's results.
  Proof/Assembly.lean: the five claims.
-/
import proofs.«151171_j14886356648152_1_alg».proof.Defs
import proofs.«151171_j14886356648152_1_alg».proof.Proof.Gen.Kernel
import proofs.«151171_j14886356648152_1_alg».proof.Proof.Gen.Kernel.Skeleton
import proofs.«151171_j14886356648152_1_alg».proof.Proof.Gen.Kernel.Launch
import proofs.«151171_j14886356648152_1_alg».proof.Proof.Gen.Kernel.Points
import proofs.«151171_j14886356648152_1_alg».proof.Proof.Gen.Kernel.Frame
import proofs.«151171_j14886356648152_1_alg».proof.Proof.Gen.KernelIdeal
import proofs.«151171_j14886356648152_1_alg».proof.Proof.Gen.KernelIdeal.Skeleton
import proofs.«151171_j14886356648152_1_alg».proof.Proof.Gen.KernelIdeal.Launch
import proofs.«151171_j14886356648152_1_alg».proof.Proof.Gen.KernelIdeal.Points
import proofs.«151171_j14886356648152_1_alg».proof.Proof.Gen.KernelIdeal.Frame
import proofs.«151171_j14886356648152_1_alg».proof.Proof.Gen.ReferenceIdeal
import proofs.«151171_j14886356648152_1_alg».proof.Proof.Gen.ReferenceIdeal.Run
import proofs.«151171_j14886356648152_1_alg».proof.Proof.Gen.ReferenceIdeal.Read
import proofs.«151171_j14886356648152_1_alg».proof.Proof.Gen.Pre_finite_inputs
import proofs.«151171_j14886356648152_1_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
